-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S8x16906 : Shape := ⟨2, ![8, 16906]⟩
abbrev S16907x200 : Shape := ⟨2, ![16907, 200]⟩
abbrev S_ : Shape := ⟨0, ![]⟩

class Facts : Prop where
  bcast_S_S16907x200 : S_.BroadcastsInDim S16907x200 (![] : Fin 0 → Fin S16907x200.rank)
  reducesTo_S16907x200_S_d0_1 : S16907x200.ReducesTo [0, 1] S_
  h_S_ : 0 < S_.numel
  bcast_S_S8x16906 : S_.BroadcastsInDim S8x16906 (![] : Fin 0 → Fin S8x16906.rank)
  reducesTo_S8x16906_S_d0_1 : S8x16906.ReducesTo [0, 1] S_

variable [Facts]

def fn {F : FTy → Type} [FloatOps F] (main_arg0 : IVec S8x16906 32) (main_arg1 : FVec F S16907x200 .f32) : IVec S_ 1 :=
  let main_v0 : FVec F S16907x200 .f32 := Host.absf main_arg1
  let main_cst : FVec F S_ .f32 := constant S_ .f32 0x7F800000#32
  let main_v1 : FVec F S16907x200 .f32 := broadcastInDim S16907x200 ![] bcast_S_S16907x200 main_cst
  let main_v2 : IVec S16907x200 1 := cmpf .olt main_v0 main_v1
  let main_c : IVec S_ 1 := constantI S_ 1 1#1
  let main_v3 : IVec S_ 1 := (fun x v => Host.reduce IntOp.andi x v reducesTo_S16907x200_S_d0_1 h_S_) main_v2 main_c
  let main_c_0 : IVec S_ 32 := constantI S_ 32 0#32
  let main_v4 : IVec S8x16906 32 := broadcastInDim S8x16906 ![] bcast_S_S8x16906 main_c_0
  let main_v5 : IVec S8x16906 1 := cmpi .sge main_arg0 main_v4
  let main_c_1 : IVec S_ 32 := constantI S_ 32 16905#32
  let main_v6 : IVec S8x16906 32 := broadcastInDim S8x16906 ![] bcast_S_S8x16906 main_c_1
  let main_v7 : IVec S8x16906 1 := cmpi .sle main_arg0 main_v6
  let main_v8 : IVec S8x16906 1 := andi main_v5 main_v7
  let main_c_2 : IVec S_ 1 := constantI S_ 1 1#1
  let main_v9 : IVec S_ 1 := (fun x v => Host.reduce IntOp.andi x v reducesTo_S8x16906_S_d0_1 h_S_) main_v8 main_c_2
  let main_v10 : IVec S_ 1 := andi main_v3 main_v9
  main_v10
-- ==== Kernel.lean ====
abbrev S8x16906 : Shape := ⟨2, ![8, 16906]⟩
abbrev S16907x200 : Shape := ⟨2, ![16907, 200]⟩
abbrev S200x16907 : Shape := ⟨2, ![200, 16907]⟩
abbrev S200x16906 : Shape := ⟨2, ![200, 16906]⟩
abbrev S200x512 : Shape := ⟨2, ![200, 512]⟩
abbrev S_ : Shape := ⟨0, ![]⟩
abbrev S200x523 : Shape := ⟨2, ![200, 523]⟩
abbrev S200x1024 : Shape := ⟨2, ![200, 1024]⟩
abbrev S16906x200 : Shape := ⟨2, ![16906, 200]⟩

abbrev nBuf : Table → Nat
  | .hbm => 10
  | .local .tc .vmem => 2
  | .local .scVector .vmem => 1
  | _ => 0

abbrev bufTy : (tb : Table) → Fin (nBuf tb) → BufTy
  | .hbm, ⟨0, _⟩ => ⟨S8x16906, .i32⟩
  | .hbm, ⟨1, _⟩ => ⟨S16907x200, .f32⟩
  | .hbm, ⟨2, _⟩ => ⟨S200x16907, .f32⟩
  | .hbm, ⟨3, _⟩ => ⟨S200x16906, .f32⟩
  | .hbm, ⟨4, _⟩ => ⟨S200x523, .f32⟩
  | .hbm, ⟨5, _⟩ => ⟨S_, .i32⟩
  | .hbm, ⟨6, _⟩ => ⟨S_, .f32⟩
  | .hbm, ⟨7, _⟩ => ⟨S200x1024, .f32⟩
  | .hbm, ⟨8, _⟩ => ⟨S200x16906, .f32⟩
  | .hbm, ⟨9, _⟩ => ⟨S16906x200, .f32⟩
  | .local .tc .vmem, ⟨0, _⟩ => ⟨S200x1024, .f32⟩
  | .local .tc .vmem, ⟨1, _⟩ => ⟨S200x1024, .f32⟩
  | .local .scVector .vmem, ⟨0, _⟩ => ⟨S200x512, .f32⟩
  | _, _ => ⟨S8x16906, .i32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => true
  | ⟨3, _⟩ => true
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v0_scv : Ref sig .scVector := ⟨.hbm, 2, rfl⟩
abbrev main_v1_scv : Ref sig .scVector := ⟨.hbm, 3, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc1_sem0_0 : DmaSem sig := 2
abbrev cc1_sem1_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
def k0_off2 (i : grid0.Coords) : Fin 2 → Nat :=
  let c0_i32_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev grid1 : Pipeline.Grid := ⟨1, ![1], ![false]⟩

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c16_i32 : BitVec 32 := 16#32
  let c0_i32_0 : BitVec 32 := 0#32
  ![c0_i32.toNat, c16_i32.toNat]

abbrev stage1_0 : Fin 1 → Memref sig .tc .vmem S200x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S200x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16907x200_S200x16907_1_0 : S16907x200.Transposes [1, 0] S200x16907
  slices_S200x16907_S200x523_0_16384 : S200x16907.Slices ![0, 16384] S200x523
  pads_S200x523_S200x1024_000_05010 : S200x523.Pads (![0, 0] : Fin 2 → Nat) ![0, 501] ![0, 0] S200x1024
  h_S_ : 0 < S_.numel
  inb_S200x1024_S200x1024_0_0 : ∀ a, (![0, 0] : Fin 2 → Nat) a + S200x1024.size a ≤ S200x1024.size a
  h_S200x1024 : 0 < S200x1024.numel
  shapeCasts_S200x1024_S200x1024 : S200x1024.ShapeCasts S200x1024
  transposes_S200x16906_S16906x200_1_0 : S200x16906.Transposes [1, 0] S16906x200
  hcc0_scoped0 : 0 + S_.numel ≤ 4
  hcc0_scoped1 : 1 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S200x512.size a ≤ S200x16907.size a
  k0_off2_inb : ∀ i : grid0.Coords, ∀ a, (k0_off2 i) a + S200x512.size a ≤ S200x16906.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_1 i = cc1_transform_1 i'
  hinb1_0 : ∀ (i : grid1.Coords) a, (cc1_transform_1 i a + 1) * S200x1024.size a ≤ S200x1024.size a
  hwx1_0 : ∀ i : grid1.Coords, EltTy.bits .f32 = 32 ∨ (Rect.block (s := S200x1024) S200x1024.size (cc1_transform_1 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_2 i = cc1_transform_2 i'
  hstart1_1 : ∀ (i : grid1.Coords) a, cc1_transform_2 i a * S200x1024.size a < S200x16906.size a
  hwx1_1 : ∀ i : grid1.Coords, EltTy.bits .f32 = 32 ∨ (Rect.unit (s := S200x16906) (fun a => cc1_transform_2 i a * S200x1024.size a) (fun a => (Pipeline.Clip.of (cc1_transform_2 i a) (S200x1024.size a) (S200x16906.size a)).extent (S200x1024.size a)) fun a => Pipeline.Clip.inb (Pipeline.Clip.ok_of (hstart1_1 i a))).WholeWords (EltTy.packing .f32)
  hwxs1_1 : ∀ i : grid1.Coords, EltTy.bits .f32 = 32 ∨ (Rect.unit (s := S200x1024) (fun _ => 0) (fun a => (Pipeline.Clip.of (cc1_transform_2 i a) (S200x1024.size a) (S200x16906.size a)).extent (S200x1024.size a)) fun a => (Nat.zero_add _).trans_le (Pipeline.Clip.extent_le (Pipeline.Clip.ok_of (hstart1_1 i a)))).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1

abbrev win1_0 : Pipeline.Window sig grid1 :=
  Pipeline.Window.ofSpec (Memref.whole main_v3) S200x1024.size cc1_transform_1 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_v4) S200x1024.size cc1_transform_2 reads1_1 true false 1 stage1_1 sem1_1
    hrank1 hreads1_1 hstart1_1 nbuf1_1 (Memref.isWhole_whole _) hwx1_1 hwxs1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8x16906 : Shape := ⟨2, ![8, 16906]⟩
abbrev S16907x200 : Shape := ⟨2, ![16907, 200]⟩
abbrev S16906 : Shape := ⟨1, ![16906]⟩
abbrev S_ : Shape := ⟨0, ![]⟩
abbrev S16906x1 : Shape := ⟨2, ![16906, 1]⟩
abbrev S1 : Shape := ⟨1, ![1]⟩
abbrev S1x1 : Shape := ⟨2, ![1, 1]⟩
abbrev S16906x200 : Shape := ⟨2, ![16906, 200]⟩

abbrev nBuf : Space → Nat
  | .hbm => 26
  | .vmem => 0
  | .smem => 0
  | _ => 0

abbrev bufTy : (tb : Table) → Fin (tcTables nBuf tb) → BufTy
  | .hbm, ⟨0, _⟩ => ⟨S8x16906, .i32⟩
  | .hbm, ⟨1, _⟩ => ⟨S16907x200, .f32⟩
  | .hbm, ⟨2, _⟩ => ⟨S16906, .i32⟩
  | .hbm, ⟨3, _⟩ => ⟨S_, .i32⟩
  | .hbm, ⟨4, _⟩ => ⟨S16906, .i32⟩
  | .hbm, ⟨5, _⟩ => ⟨S16906, .i1⟩
  | .hbm, ⟨6, _⟩ => ⟨S_, .i32⟩
  | .hbm, ⟨7, _⟩ => ⟨S16906, .i32⟩
  | .hbm, ⟨8, _⟩ => ⟨S16906, .i32⟩
  | .hbm, ⟨9, _⟩ => ⟨S16906, .i32⟩
  | .hbm, ⟨10, _⟩ => ⟨S16906x1, .i32⟩
  | .hbm, ⟨11, _⟩ => ⟨S1, .i32⟩
  | .hbm, ⟨12, _⟩ => ⟨S_, .i32⟩
  | .hbm, ⟨13, _⟩ => ⟨S16906x1, .i32⟩
  | .hbm, ⟨14, _⟩ => ⟨S16906x1, .i1⟩
  | .hbm, ⟨15, _⟩ => ⟨S1x1, .i32⟩
  | .hbm, ⟨16, _⟩ => ⟨S16906x1, .i32⟩
  | .hbm, ⟨17, _⟩ => ⟨S16906x1, .i1⟩
  | .hbm, ⟨18, _⟩ => ⟨S16906x1, .i1⟩
  | .hbm, ⟨19, _⟩ => ⟨S_, .i1⟩
  | .hbm, ⟨20, _⟩ => ⟨S16906, .i1⟩
  | .hbm, ⟨21, _⟩ => ⟨S16906x200, .f32⟩
  | .hbm, ⟨22, _⟩ => ⟨S16906x200, .i1⟩
  | .hbm, ⟨23, _⟩ => ⟨S_, .f32⟩
  | .hbm, ⟨24, _⟩ => ⟨S16906x200, .f32⟩
  | .hbm, ⟨25, _⟩ => ⟨S16906x200, .f32⟩
  | _, _ => ⟨S8x16906, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  bcast_S_S16906 : S_.BroadcastsInDim S16906 (![] : Fin 0 → Fin S16906.rank)
  bcast_S16906_S16906x1_0 : S16906.BroadcastsInDim S16906x1 (![0] : Fin 1 → Fin S16906x1.rank)
  bcast_S_S16906x1 : S_.BroadcastsInDim S16906x1 (![] : Fin 0 → Fin S16906x1.rank)
  bcast_S1_S1x1_1 : S1.BroadcastsInDim S1x1 (![1] : Fin 1 → Fin S1x1.rank)
  bcast_S1x1_S16906x1_0_1 : S1x1.BroadcastsInDim S16906x1 (![0, 1] : Fin 2 → Fin S16906x1.rank)
  reducesTo_S16906x1_S16906_d1 : S16906x1.ReducesTo [1] S16906
  h_S_ : 0 < S_.numel
  bcast_S16906_S16906x200_0 : S16906.BroadcastsInDim S16906x200 (![0] : Fin 1 → Fin S16906x200.rank)
  bcast_S_S16906x200 : S_.BroadcastsInDim S16906x200 (![] : Fin 0 → Fin S16906x200.rank)
  gather_S16907x200_S16906x1_S16906x200_1_0_n_n_0_1_1200_wf : GatherDims.WF S16907x200 S16906x1 S16906x200 [1] [0] [] [0] [] 1 ![1, 200]

variable [Facts₀]

def gather_S16907x200_S16906x1_S16906x200_1_0_n_n_0_1_1200 : GatherDims S16907x200 S16906x1 S16906x200 where
  offsetDims := [1]
  collapsedSliceDims := [0]
  operandBatchingDims := []
  startIndicesBatchingDims := []
  startIndexMap := [0]
  indexVectorDim := 1
  sliceSizes := ![1, 200]
  wf := gather_S16907x200_S16906x1_S16906x200_1_0_n_n_0_1_1200_wf

class Facts : Prop extends Facts₀ where

variable [Facts]
-- ==== Proof.KiStripe.lean ====
/-
  The stripes of the copy kernel, as sets of array elements and as values. Tile (c, s) owns the 512 columns
  from 1024 s + 512 c on, of every one of the 200 rows; a write of the table's stripe through the result's
  stripe leaves, at every element of that stripe, the table's entry of the same row and column.
-/
import proofs.«208034_g25555055411476_cont_9to1_456_24_alg».proof.KernelIdeal
import proofs.«208034_g25555055411476_cont_9to1_456_24_alg».proof.Proof.Gen.KernelIdeal
import Idealize.ShloMosaic.Lib.ValueIdx
import Idealize.ShloMosaic.Lib.Writes

noncomputable section

namespace Cert.KernelIdeal.Stripe

open Cert.KernelIdeal Cert.KernelIdeal.Gen
open Idealize.ShloMosaic Idealize.ShloMosaic.ValueIdx

abbrev tabV : Memref sig .scVector .hbm S200x16907 .f32 := Memref.whole main_v0_scv
abbrev outV : Memref sig .scVector .hbm S200x16906 .f32 := Memref.whole main_v1_scv

/-- The table's stripe of tile `L`: all 200 rows, the 512 columns from the tile's offset. -/
abbrev tabRect (L : grid0.Coords) : Rect S200x16907 := Rect.unit (s := S200x16907) (k0_off1 L) S200x512.size (k0_off1_inb L)
/-- The result's stripe of tile `L`: the same rows and columns of the result. -/
abbrev outRect (L : grid0.Coords) : Rect S200x16906 := Rect.unit (s := S200x16906) (k0_off2 L) S200x512.size (k0_off2_inb L)
abbrev tabK (L : grid0.Coords) : Memref sig .scVector .hbm S200x512 .f32 := (tabV).slice (tabRect L) (fun _ => rfl)
abbrev outK (L : grid0.Coords) : Memref sig .scVector .hbm S200x512 .f32 := (outV).slice (outRect L) (fun _ => rfl)
abbrev tabSet (L : grid0.Coords) : Finset S200x16907.Idx := (tabK L).view.set
abbrev outSet (L : grid0.Coords) : Finset S200x16906.Idx := (outK L).view.set

/-- The tile's first column. -/
def col0 (L : grid0.Coords) : Nat := 1024 * (L 1).val + 512 * (L 0).val

theorem col0_le (L : grid0.Coords) : col0 L + 512 ≤ 16384 := by
  have h0 : (L 0).val < 2 := (L 0).isLt
  have h1 : (L 1).val < 16 := (L 1).isLt
  unfold col0; omega

theorem mem_outSet (L : grid0.Coords) (i : S200x16906.Idx) : i ∈ outSet L ↔ col0 L ≤ (i 1).val ∧ (i 1).val < col0 L + 512 := by
  show i ∈ ((View.whole main_v1_scv).slice (outRect L)).set ↔ _
  rw [View.set_slice_whole, Rect.mem_set_unit, k0_off2_eq]
  constructor
  · intro h; have := h 1; exact this
  · intro h a
    match a with
    | ⟨0, _⟩ => exact ⟨Nat.zero_le _, by have := idx2_lt0 i; show (i 0).val < 0 + 200; omega⟩
    | ⟨1, _⟩ => exact h

theorem mem_tabSet (L : grid0.Coords) (i : S200x16907.Idx) : i ∈ tabSet L ↔ col0 L ≤ (i 1).val ∧ (i 1).val < col0 L + 512 := by
  show i ∈ ((View.whole main_v0_scv).slice (tabRect L)).set ↔ _
  rw [View.set_slice_whole, Rect.mem_set_unit, k0_off1_eq]
  constructor
  · intro h; have := h 1; exact this
  · intro h a
    match a with
    | ⟨0, _⟩ => exact ⟨Nat.zero_le _, by have := idx2_lt0 i; show (i 0).val < 0 + 200; omega⟩
    | ⟨1, _⟩ => exact h

/-- The result's index `(r, k)` names the table's entry `(r, k)`: the column bound widened by one. -/
abbrev widen (y : S200x16906.Idx) : S200x16907.Idx :=
  ix2 (⟨(y 0).val, idx2_lt0 y⟩ : Fin 200) (⟨(y 1).val, by have := idx2_lt1 y; omega⟩ : Fin 16907)

/-- The table read at the result's indices: the first 16906 columns. -/
def copyCols {α : Type} (f0 : S200x16907.Idx → α) : S200x16906.Idx → α := fun y => f0 (widen y)

variable {F : FTy → Type}

/-- Column `k` of the stripe, row `r`. -/
abbrev inStripe (L : grid0.Coords) (r : Fin 200) (k : Fin 512) : S200x512.Idx := ix2 r k

set_option maxHeartbeats 40000 in
theorem out_emb (L : grid0.Coords) (r : Fin 200) (k : Fin 512) :
    (outRect L).emb (inStripe L r k) = ix2 r (⟨col0 L + k.val, by have := col0_le L; omega⟩ : Fin 16906) := by
  funext a; apply Fin.ext
  rw [Rect.emb_apply]
  show (k0_off2 L) a + 1 * (inStripe L r k a).val = _
  rw [k0_off2_eq]
  match a with
  | ⟨0, _⟩ => show 0 + 1 * r.val = r.val; omega
  | ⟨1, _⟩ => show col0 L + 1 * k.val = col0 L + k.val; omega

set_option maxHeartbeats 40000 in
theorem tab_emb (L : grid0.Coords) (r : Fin 200) (k : Fin 512) :
    (tabRect L).emb (inStripe L r k) = ix2 r (⟨col0 L + k.val, by have := col0_le L; omega⟩ : Fin 16907) := by
  funext a; apply Fin.ext
  rw [Rect.emb_apply]
  show (k0_off1 L) a + 1 * (inStripe L r k a).val = _
  rw [k0_off1_eq]
  match a with
  | ⟨0, _⟩ => show 0 + 1 * r.val = r.val; omega
  | ⟨1, _⟩ => show col0 L + 1 * k.val = col0 L + k.val; omega

set_option maxHeartbeats 80000 in
/-- The result read through a tile's stripe, when it holds the table's first columns, is the table read through the
    tile's stripe of it: the two stripes name the same rows and columns. -/
theorem read_copyCols (L : grid0.Coords) (f0 : S200x16907.Idx → Elt F .f32) :
    (outK L).view.read (Elt F) (copyCols f0) = (tabK L).view.read (Elt F) f0 := by
  funext x
  obtain ⟨r, k, rfl⟩ : ∃ (r : Fin 200) (k : Fin 512), x = ix2 r k := ⟨x 0, x 1, eq_ix2 x⟩
  rw [View.read_apply, View.read_apply]
  show copyCols f0 ((outRect L).emb (inStripe L r k)) = f0 ((tabRect L).emb (inStripe L r k))
  rw [out_emb, tab_emb]
  rfl

end Cert.KernelIdeal.Stripe

end
-- ==== Proof.KiStripeSets.lean ====
/-
  The thirty-two stripes as a family: tile (c, s) owns columns 1024 s + 512 c to 1024 s + 512 c + 511, so two
  different tiles own disjoint stripes and together the stripes are exactly the columns below 16384.
-/
import proofs.«208034_g25555055411476_cont_9to1_456_24_alg».proof.Proof.KiStripe

noncomputable section

namespace Cert.KernelIdeal.Stripe

open Cert.KernelIdeal Cert.KernelIdeal.Gen
open Idealize.ShloMosaic Idealize.ShloMosaic.ValueIdx

/-- The grid point of tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem col0_coordsV (c : Fin (grid0.bound 0)) (s : Fin (grid0.bound 1)) : col0 (coordsV c s) = 1024 * s.val + 512 * c.val := rfl

abbrev Tiles : Type := Fin (grid0.bound 0) × Fin (grid0.bound 1)

theorem tiles_lt (cs : Tiles) : cs.1.val < 2 ∧ cs.2.val < 16 := ⟨cs.1.isLt, cs.2.isLt⟩

theorem tile_eq_of_col0 (cs cs' : Tiles) (h : 1024 * cs.2.val + 512 * cs.1.val = 1024 * cs'.2.val + 512 * cs'.1.val) : cs = cs' := by
  obtain ⟨h1, h2⟩ := tiles_lt cs
  obtain ⟨h1', h2'⟩ := tiles_lt cs'
  exact Prod.ext (Fin.ext (by omega)) (Fin.ext (by omega))

theorem outSet_disjoint (cs cs' : Tiles) (h : cs ≠ cs') : Disjoint (outSet (coordsV cs.1 cs.2)) (outSet (coordsV cs'.1 cs'.2)) := by
  rw [Finset.disjoint_left]
  intro i hi hi'
  rw [mem_outSet, col0_coordsV] at hi hi'
  obtain ⟨h1, h2⟩ := tiles_lt cs
  obtain ⟨h1', h2'⟩ := tiles_lt cs'
  exact h (tile_eq_of_col0 cs cs' (by omega))

theorem tabSet_disjoint (cs cs' : Tiles) (h : cs ≠ cs') : Disjoint (tabSet (coordsV cs.1 cs.2)) (tabSet (coordsV cs'.1 cs'.2)) := by
  rw [Finset.disjoint_left]
  intro i hi hi'
  rw [mem_tabSet, col0_coordsV] at hi hi'
  obtain ⟨h1, h2⟩ := tiles_lt cs
  obtain ⟨h1', h2'⟩ := tiles_lt cs'
  exact h (tile_eq_of_col0 cs cs' (by omega))

/-- The columns the tiles write: all the stripes of the result. -/
def bulkOut : Finset S200x16906.Idx := (Finset.univ : Finset Tiles).biUnion fun cs => outSet (coordsV cs.1 cs.2)
/-- The columns the tiles read: all the stripes of the table. -/
def bulkTab : Finset S200x16907.Idx := (Finset.univ : Finset Tiles).biUnion fun cs => tabSet (coordsV cs.1 cs.2)

/-- The tile that owns column `k < 16384`. -/
def tileOf (k : Nat) (hk : k < 16384) : Tiles :=
  (⟨(k / 512) % 2, Nat.mod_lt _ (by decide)⟩, ⟨k / 1024, by show k / 1024 < 16; omega⟩)

theorem tileOf_spec (k : Nat) (hk : k < 16384) :
    1024 * (tileOf k hk).2.val + 512 * (tileOf k hk).1.val ≤ k ∧ k < 1024 * (tileOf k hk).2.val + 512 * (tileOf k hk).1.val + 512 := by
  show 1024 * (k / 1024) + 512 * ((k / 512) % 2) ≤ k ∧ k < 1024 * (k / 1024) + 512 * ((k / 512) % 2) + 512
  omega

theorem mem_bulkOut (i : S200x16906.Idx) : i ∈ bulkOut ↔ (i 1).val < 16384 := by
  unfold bulkOut
  rw [Finset.mem_biUnion]
  constructor
  · rintro ⟨cs, -, hi⟩
    rw [mem_outSet] at hi
    have := col0_le (coordsV cs.1 cs.2); omega
  · intro hk
    refine ⟨tileOf (i 1).val hk, Finset.mem_univ _, ?_⟩
    rw [mem_outSet, col0_coordsV]
    exact tileOf_spec _ hk

theorem mem_bulkTab (i : S200x16907.Idx) : i ∈ bulkTab ↔ (i 1).val < 16384 := by
  unfold bulkTab
  rw [Finset.mem_biUnion]
  constructor
  · rintro ⟨cs, -, hi⟩
    rw [mem_tabSet] at hi
    have := col0_le (coordsV cs.1 cs.2); omega
  · intro hk
    refine ⟨tileOf (i 1).val hk, Finset.mem_univ _, ?_⟩
    rw [mem_tabSet, col0_coordsV]
    exact tileOf_spec _ hk

end Cert.KernelIdeal.Stripe

end
-- ==== Proof.LibWholeWrite.lean ====
/-
  A view's elements after ONE unmasked write of a whole-shape payload through it, whatever they held before,
  are the view's elements at any contents the view reads as that payload: the landing of a whole-block copy
  stated at one function of the array's index.
-/
import Idealize.ShloMosaic.Lib.Writes

noncomputable section

namespace Idealize.ShloMosaic

open Idealize.SL
open Idealize.SL.RA Idealize.SL.Sem Idealize.SL.ProofMode
open Idealize.SL.BI (sProp)
open scoped Idealize.SL.BI
open Idealize.SL.BI.BIBase Idealize.SL.BI.Laws

section WholeWrite

variable {nD : Nat} {τ : Topo} {sig : RefSig} {Ix : Type} [DecidableEq Ix]
variable {Val : EltTy → Type} {Name : Type} [DecidableEq Name]
variable {U : Type} [URA U] {Lvl : Type}
variable (c : Thread nD τ) {sp : Space} {s : Shape} {e : EltTy}

local notation "𝕄" => MT nD τ sig Ix Val Name U Lvl

/-- After one unmasked write of `X` through the whole of the view, over any contents `fd`, the view's
    elements are held at any `g` that the view reads as `X`. -/
theorem View.pointsTo_writes_whole_congr (v : View sig c.2.kind sp s e) (q : PosShare TreeShare) (fd g : Buf Val (v.loc c))
    (X : s.Idx → Val e) (hg : v.read Val g = X) :
    (v.loc c ↦[v.set]{q} v.writes Val fd [⟨Rect.whole s, X⟩] : sProp 𝕄) = v.loc c ↦[v.set]{q} g :=
  pointsTo_congr fun i hi => by
    obtain ⟨x, -, rfl⟩ := Finset.mem_map.mp hi
    subst hg
    have he : (v.slice (Rect.whole s)).emb x = v.emb x := by
      show v.emb ((Rect.whole s).emb x) = v.emb x
      rw [Rect.emb_whole_apply]
    rw [View.writes_singleton, ← he, View.write_emb_of_mem _ _ (Finset.mem_univ _), he, View.read_apply, cast_cast, cast_eq]

end WholeWrite

end Idealize.ShloMosaic

end
-- ==== Proof.KiSc.lean ====
/-
  The vector-subcore copy kernel, one tile's task. Tile (c, s) of the thirty-two moves the stripe of 512 columns
  starting at column 1024 s + 512 c of the transposed table into its own scratch and from there into the same
  columns of the result: afterwards the result's stripe holds the table's stripe, entry by entry.
-/
import proofs.«208034_g25555055411476_cont_9to1_456_24_alg».proof.Defs
import Idealize.ShloMosaic.Lib.SparseCore.Launch
import Idealize.ShloMosaic.Lib.StableHlo.Run
import Idealize.ShloMosaic.Lib.Pipeline.Kit
import Idealize.ShloMosaic.Lib.Tactic
import proofs.«208034_g25555055411476_cont_9to1_456_24_alg».proof.Proof.Gen.KernelIdeal
import proofs.«208034_g25555055411476_cont_9to1_456_24_alg».proof.Proof.Gen.KernelIdeal.Skeleton
import proofs.«208034_g25555055411476_cont_9to1_456_24_alg».proof.Proof.Gen.KernelIdeal.Launch
import proofs.«208034_g25555055411476_cont_9to1_456_24_alg».proof.Proof.KiStripe
import proofs.«208034_g25555055411476_cont_9to1_456_24_alg».proof.Proof.KiStripeSets
import proofs.«208034_g25555055411476_cont_9to1_456_24_alg».proof.Proof.LibWholeWrite

noncomputable section

namespace Cert.KernelIdeal.Sc

open Cert.KernelIdeal Cert.KernelIdeal.Gen Cert.KernelIdeal.Stripe

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-! ## The arrays and the stripes -/

variable (d : Dev nD)

abbrev tabLoc : Loc nD τ sig := (SparseCore.T d).loc main_v0
abbrev outLoc : Loc nD τ sig := (SparseCore.T d).loc main_v1
abbrev scrV : Memref sig .scVector .vmem S200x512 .f32 := Memref.whole cc0_scratch0

abbrev cV (L : grid0.Coords) : Fin τ.nSC := (L 0).castLE hcore0
abbrev jV (L : grid0.Coords) : Fin τ.nSub := (L 1).castLE hsub0

variable [FloatOps F]

/-- What a tile is handed: its stripe of the table and its stripe of the result, at the contents `f0`, `f1`. -/
def stripePre (L : grid0.Coords) (f0 : Buf (Elt F) (tabLoc d)) (f1 : Buf (Elt F) (outLoc d)) : sProp 𝕄 :=
  iprop((tabLoc d ↦[tabSet L]{fullShare} f0) ∗ (outLoc d ↦[outSet L]{fullShare} f1))
/-- What it hands back: the table's stripe as it was, the result's stripe holding the table's entries. -/
def stripePost (L : grid0.Coords) (f0 : Buf (Elt F) (tabLoc d)) : sProp 𝕄 :=
  iprop((tabLoc d ↦[tabSet L]{fullShare} f0) ∗ (outLoc d ↦[outSet L]{fullShare} (copyCols f0 : Buf (Elt F) (outLoc d))))

section Tile
variable (L : grid0.Coords)

abbrev cAcell : GSem nD τ sig := (V d (cV L) (jV L), .dma cc0_scoped0.sem)
abbrev cBcell : GSem nD τ sig := (V d (cV L) (jV L), .dma cc0_scoped1.sem)

theorem ownSems0_V :
    (ownSems0 (V d (cV L) (jV L)) : sProp 𝕄)
      = iprop(semVal (cAcell d L) 0 ∗ semVal (cBcell d L) 0
          ∗ bigSep (((ownCells (V d (cV L) (jV L))).erase (cAcell d L)).erase (cBcell d L)) fun g => semVal g 0) := by
  unfold SparseCore.Cfg.ownSems0
  rw [SparseCore.bigSep_erase' ((mem_ownCells (g := cAcell d L)).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc0_scoped1.sem : SemLoc sig).isScoped .scVector = true; decide⟩⟩)]

theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

theorem pts_tabK (f : Buf (Elt F) (tabLoc d)) :
    ((tabK L).view.loc (V d (cV L) (jV L)) ↦[(tabK L).view.set]{fullShare} f : sProp 𝕄) = tabLoc d ↦[tabSet L]{fullShare} f := rfl
theorem pts_outK (f : Buf (Elt F) (outLoc d)) :
    ((outK L).view.loc (V d (cV L) (jV L)) ↦[(outK L).view.set]{fullShare} f : sProp 𝕄) = outLoc d ↦[outSet L]{fullShare} f := rfl
theorem pts_scr (f : Buf (Elt F) ((V d (cV L) (jV L)).loc cc0_scratch0)) :
    ((scrV).view.loc (V d (cV L) (jV L)) ↦{fullShare} f : sProp 𝕄) = (V d (cV L) (jV L)).loc cc0_scratch0 ↦{fullShare} f := rfl

/-- What the second copy lands: the scratch, which holds the table's stripe whatever it held before, written
    through the result's stripe leaves that stripe at the table's entries. -/
theorem out_landed (f0 : Buf (Elt F) (tabLoc d)) (f1 : Buf (Elt F) (outLoc d)) (fs : Buf (Elt F) ((V d (cV L) (jV L)).loc cc0_scratch0)) :
    ((outK L).view.loc (V d (cV L) (jV L)) ↦[(outK L).view.set]{fullShare}
        (outK L).view.writes (Elt F) f1 [⟨Rect.whole S200x512,
          ReadAs.same.apply (View.read (Elt F) scrV.view (View.write (Elt F) scrV.view fs
            (ReadAs.same.apply (View.read (Elt F) (tabK L).view f0)) Finset.univ))⟩] : sProp 𝕄)
      = outLoc d ↦[outSet L]{fullShare} (copyCols f0 : Buf (Elt F) (outLoc d)) := by
  refine (View.pointsTo_writes_whole_congr (V d (cV L) (jV L)) (outK L).view fullShare f1 (copyCols f0) _ ?_).trans (pts_outK (F := F) d L _)
  rw [read_copyCols]
  show _ = View.read (Elt F) scrV.view (View.write (Elt F) scrV.view fs (View.read (Elt F) (tabK L).view f0) Finset.univ)
  rw [View.read_write_univ]

/-- One tile's task: its stripe of the table read into the scratch, the scratch written to its stripe of the result. -/
theorem tile_body (hF : (K (F := F)).Facts) (f0 : Buf (Elt F) (tabLoc d)) (f1 : Buf (Elt F) (outLoc d))
    (O : CellTallies nD τ sig (HIx 1)) (W : Waits sig (HIx 1)) (hO : ∀ g, O g none = 0) :
    (iprop(levAts (K (F := F)).L (K (F := F)).lev ∗ emp ∗ stripePre d L f0 f1
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_bulk_copy L tabV (Memref.isWhole_whole _) outV (Memref.isWhole_whole _) scrV (Memref.isWhole_whole _) cc0_scoped0 cc0_scoped1)
          fun _ => (iprop(stripePost d L f0 ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0__sc_bulk_copy_eq_skeleton]; unfold cc0__sc_bulk_copy_skel
  rw [(K (F := F)).scopedBufs_V hF d (cV L) (jV L), SparseCore.Cfg.scopedSems0_V (Val := Elt F) d (cV L) (jV L), ownSems0_V, ownBufs_V]
  unfold stripePre stripePost
  iintro ⟨#Hlv, -, ⟨Ht, Ho⟩, ⟨⟨%fs, Hs⟩, Hbufs⟩, ⟨HsemA, HsemB, Hsems⟩, HO⟩
  ihave Hmw := ((K (F := F)).mayWaits_none (thr := V d (cV L) (jV L)) hO) $$ Hlv
  ihave Ht' := (Entails.of_eq (pts_tabK (F := F) d L _).symm) $$ Ht
  ihave Ho' := (Entails.of_eq (pts_outK (F := F) d L _).symm) $$ Ho
  ihave Hs' := (Entails.of_eq (pts_scr (F := F) d L _).symm) $$ Hs
  sl_exec
  sl_unfold_run_names
  sl_step
  isplitl [Ht' Ho']
  · isplitl [Ht']
    · iapply (Entails.of_eq (pts_tabK (F := F) d L _)); iexact Ht'
    · iapply (Entails.of_eq (out_landed (F := F) d L f0 f1 fs)); iexact Ho'
  isplitl [Hs' Hbufs]
  · isplitl [Hs']
    · iexists _; iapply (Entails.of_eq (pts_scr (F := F) d L _)); iexact Hs'
    · iexact Hbufs
  isplitl [HsemA HsemB Hsems]
  · isplitl [HsemA]; · iexact HsemA
    isplitl [HsemB]; · iexact HsemB
    iexact Hsems
  iexists (insert (SemLoc.dma cc0_scoped1.sem, (default : HIx 1)) (insert (SemLoc.dma cc0_scoped0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

end Tile

/-! ## What the handshakes carry -/

/-- Core `c` of the call's grid, as a grid coordinate. -/
abbrev cG (q : Fin 1) (c : Fin ((K (F := F)).nCore q)) : Fin (grid0.bound 0) := ⟨c.val, lt_of_lt_of_le c.isLt (Gen.hscCore q)⟩
/-- Tile `i` of the call's grid, as a grid coordinate. -/
abbrev sG (q : Fin 1) (i : Fin ((K (F := F)).nSub q)) : Fin (grid0.bound 1) := ⟨i.val, lt_of_lt_of_le i.isLt (Gen.hscSub q)⟩

variable (f0 : (d : Dev nD) → Buf (Elt F) (tabLoc d)) (f1 : (d : Dev nD) → Buf (Elt F) (outLoc d))

/-- The call hands each core its sixteen tiles' stripes of the table and of the result, each tile its own, and brings
    them back with the result's stripes holding the table's entries. -/
def P : (K (F := F)).Pay (nD := nD) (Val := Elt F) (Name := ℕ) (U := UU) where
  st := fun q d c => bigSep Finset.univ fun s : Fin (grid0.bound 1) => stripePre d (coordsV (cG q c) s) (f0 d) (f1 d)
  dn := fun q d c => bigSep Finset.univ fun s : Fin (grid0.bound 1) => stripePost d (coordsV (cG q c) s) (f0 d)
  go := fun q d c i => stripePre d (coordsV (cG q c) (sG q i)) (f0 d) (f1 d)
  td := fun q d c i => stripePost d (coordsV (cG q c) (sG q i)) (f0 d)
  x := fun _ _ => iprop(emp)

instance P_storable : (P (F := F) f0 f1).IsStorable where
  st _ d c := by unfold P stripePre; infer_instance
  dn _ d c := by unfold P stripePost; infer_instance
  go _ _ _ _ := by unfold P stripePre; infer_instance
  td _ _ _ _ := by unfold P stripePost; infer_instance

/-! ## The launch theorem's obligations -/

theorem defs₀_vector (c : Fin τ.nSC) (s : Fin τ.nSub) :
    defs₀ (F := F) (.scVector c s) 0 ()
      = SparseCore.onTile hcore0 hsub0 (fun c s => cc0__sc_bulk_copy (coordsV c s)
          tabV (Memref.isWhole_whole _) outV (Memref.isWhole_whole _) scrV (Memref.isWhole_whole _) cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P f0 f1) v₀ 0 := by
  intro d c i O W hO _ _
  simp only [show (P f0 f1).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (f0 d) (f1 d) O W hO).trans (wp_mono frame _ _ fun _ => obl_post)

theorem bigSep_tasks (Φ : Fin (grid0.bound 1) → sProp 𝕄) :
    (bigSep Finset.univ fun i : Fin ((K (F := F)).nSub 0) => Φ (sG 0 i)) = bigSep Finset.univ Φ :=
  bigSep_congr fun _ _ => congrArg Φ (Fin.ext rfl)

theorem vecSplit : (K (F := F)).VecSplit' (P f0 f1) 0 := by
  intro d c
  show (bigSep Finset.univ fun s : Fin (grid0.bound 1) => stripePre d (coordsV (cG 0 c) s) (f0 d) (f1 d)) ⊢ |={Set.univ}=> iprop(
      (bigSep Finset.univ fun i : Fin ((K (F := F)).nSub 0) => stripePre d (coordsV (cG 0 c) (sG 0 i)) (f0 d) (f1 d))
      ∗ ((bigSep Finset.univ fun i : Fin ((K (F := F)).nSub 0) => stripePost d (coordsV (cG 0 c) (sG 0 i)) (f0 d))
          -∗ bigSep Finset.univ fun s : Fin (grid0.bound 1) => stripePost d (coordsV (cG 0 c) s) (f0 d)))
  rw [bigSep_tasks (F := F) (fun s => stripePre d (coordsV (cG 0 c) s) (f0 d) (f1 d)),
    bigSep_tasks (F := F) (fun s => stripePost d (coordsV (cG 0 c) s) (f0 d))]
  iintro H; imodintro
  isplitl [H]; · iexact H
  iintro H; iexact H

end Cert.KernelIdeal.Sc

end
-- ==== Proof.KiCall.lean ====
/-
  Around the copy kernel's call: the whole table and the whole result are dealt into the tiles' stripes (and a
  remainder, the columns from 16384 on, that no tile touches) and joined again afterwards, the result then holding
  the table's entries on every column below 16384 and what it held before on the others.
-/
import proofs.«208034_g25555055411476_cont_9to1_456_24_alg».proof.Proof.KiSc

noncomputable section

namespace Cert.KernelIdeal.Sc

open Cert.KernelIdeal Cert.KernelIdeal.Gen Cert.KernelIdeal.Stripe

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD)

/-- A family over the cores of the call and the tiles of each is one over the thirty-two tiles. -/
theorem bigSep_cores (Φ : Tiles → sProp 𝕄) :
    (bigSep Finset.univ fun c : Fin ((K (F := F)).nCore 0) => bigSep Finset.univ fun s : Fin (grid0.bound 1) => Φ (cG 0 c, s))
      = bigSep Finset.univ Φ := by
  rw [bigSep_univ_prod Φ]
  exact bigSep_congr fun _ _ => rfl

theorem tab_bulk (f : Buf (Elt F) (tabLoc d)) :
    (bigSep Finset.univ fun cs : Tiles => (tabLoc d ↦[tabSet (coordsV cs.1 cs.2)]{fullShare} f : sProp 𝕄)) = tabLoc d ↦[bulkTab]{fullShare} f :=
  (pointsTo_biUnion Finset.univ (ℓ := tabLoc d) (fun cs : Tiles => tabSet (coordsV cs.1 cs.2)) (fun cs _ cs' _ h => tabSet_disjoint cs cs' h)).symm

theorem out_bulk (f : Buf (Elt F) (outLoc d)) :
    (bigSep Finset.univ fun cs : Tiles => (outLoc d ↦[outSet (coordsV cs.1 cs.2)]{fullShare} f : sProp 𝕄)) = outLoc d ↦[bulkOut]{fullShare} f :=
  (pointsTo_biUnion Finset.univ (ℓ := outLoc d) (fun cs : Tiles => outSet (coordsV cs.1 cs.2)) (fun cs _ cs' _ h => outSet_disjoint cs cs' h)).symm

variable (f0 : (d : Dev nD) → Buf (Elt F) (tabLoc d)) (f1 : (d : Dev nD) → Buf (Elt F) (outLoc d))

/-- What the call takes for its cores: the table's and the result's columns below 16384. -/
theorem st0_eq : (bigSep Finset.univ fun c : Fin ((K (F := F)).nCore 0) => (P f0 f1).st 0 d c)
    = iprop((tabLoc d ↦[bulkTab]{fullShare} f0 d) ∗ (outLoc d ↦[bulkOut]{fullShare} f1 d)) := by
  show (bigSep Finset.univ fun c : Fin ((K (F := F)).nCore 0) => bigSep Finset.univ fun s : Fin (grid0.bound 1) =>
      stripePre d (coordsV (cG 0 c) s) (f0 d) (f1 d)) = _
  rw [bigSep_cores (F := F) (fun cs => stripePre d (coordsV cs.1 cs.2) (f0 d) (f1 d))]
  unfold stripePre
  rw [bigSep_sep', tab_bulk, out_bulk]

/-- What it hands back: the same columns, the result's holding the table's entries. -/
theorem dn0_eq : (bigSep Finset.univ fun c : Fin ((K (F := F)).nCore 0) => (P f0 f1).dn 0 d c)
    = iprop((tabLoc d ↦[bulkTab]{fullShare} f0 d) ∗ (outLoc d ↦[bulkOut]{fullShare} (copyCols (f0 d) : Buf (Elt F) (outLoc d)))) := by
  show (bigSep Finset.univ fun c : Fin ((K (F := F)).nCore 0) => bigSep Finset.univ fun s : Fin (grid0.bound 1) =>
      stripePost d (coordsV (cG 0 c) s) (f0 d)) = _
  rw [bigSep_cores (F := F) (fun cs => stripePost d (coordsV cs.1 cs.2) (f0 d))]
  unfold stripePost
  rw [bigSep_sep', tab_bulk, out_bulk]

/-- The result after the call: the table's entries on the columns below 16384, the old contents elsewhere. -/
def afterCall (g0 : Buf (Elt F) (tabLoc d)) (g1 : Buf (Elt F) (outLoc d)) : Buf (Elt F) (outLoc d) :=
  bulkOut.piecewise (copyCols g0 : Buf (Elt F) (outLoc d)) g1

theorem afterCall_lt (g0 : Buf (Elt F) (tabLoc d)) (g1 : Buf (Elt F) (outLoc d)) (y : S200x16906.Idx) (h : (y 1).val < 16384) :
    afterCall d g0 g1 y = copyCols g0 y :=
  Finset.piecewise_eq_of_mem _ _ _ ((mem_bulkOut y).mpr h)

/-- The two whole arrays, dealt: the call's part and the part that stays. -/
theorem call_split :
    (iprop((tabLoc d ↦{fullShare} f0 d) ∗ (outLoc d ↦{fullShare} f1 d)) : sProp 𝕄)
      ⊢ iprop((bigSep Finset.univ fun c : Fin ((K (F := F)).nCore 0) => (P f0 f1).st 0 d c)
          ∗ ((tabLoc d ↦[Finset.univ \ bulkTab]{fullShare} f0 d) ∗ (outLoc d ↦[Finset.univ \ bulkOut]{fullShare} f1 d))) := by
  rw [st0_eq]
  iintro ⟨Ht, Ho⟩
  ihave Ht' := (pointsTo_split_subset (Finset.subset_univ bulkTab)).1 $$ Ht
  ihave Ho' := (pointsTo_split_subset (Finset.subset_univ bulkOut)).1 $$ Ho
  icases Ht' with ⟨Ht1, Ht2⟩
  icases Ho' with ⟨Ho1, Ho2⟩
  isplitl [Ht1 Ho1]
  · isplitl [Ht1]; · iexact Ht1
    iexact Ho1
  · isplitl [Ht2]; · iexact Ht2
    iexact Ho2

/-- And joined again after the call. -/
theorem call_join :
    (iprop((bigSep Finset.univ fun c : Fin ((K (F := F)).nCore 0) => (P f0 f1).dn 0 d c)
        ∗ ((tabLoc d ↦[Finset.univ \ bulkTab]{fullShare} f0 d) ∗ (outLoc d ↦[Finset.univ \ bulkOut]{fullShare} f1 d))) : sProp 𝕄)
      ⊢ iprop((tabLoc d ↦{fullShare} f0 d) ∗ (outLoc d ↦{fullShare} afterCall d (f0 d) (f1 d))) := by
  rw [dn0_eq]
  iintro ⟨⟨Ht1, Ho1⟩, ⟨Ht2, Ho2⟩⟩
  isplitl [Ht1 Ht2]
  · iapply (pointsTo_split_subset (Finset.subset_univ bulkTab)).2
    isplitl [Ht1]; · iexact Ht1
    iexact Ht2
  · unfold afterCall
    iapply (pointsTo_join_subset (Finset.subset_univ bulkOut))
    isplitl [Ho1]; · iexact Ho1
    iexact Ho2

end Cert.KernelIdeal.Sc

end
-- ==== Proof.KiElem.lean ====
/-
  The launch element of the program's ghost state, and what it funds: the SparseCore handshakes' rounds, handed on as
  they are; the TensorCore pipeline's staging cells' rounds, turned into each device's cells' ghost state and duty
  tokens; the transfers' counters, not used.
-/
import proofs.«208034_g25555055411476_cont_9to1_456_24_alg».proof.Proof.KiSc
import proofs.«208034_g25555055411476_cont_9to1_456_24_alg».proof.Proof.Gen.KernelIdeal.Launch

noncomputable section

namespace Cert.KernelIdeal.Sc

open Cert.KernelIdeal Cert.KernelIdeal.Gen Cert.KernelIdeal.Stripe

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The pipeline has no prefetched table: its configuration is admitted as it stands. -/
abbrev adm : (p : Fin 1) → (pcfgs (F := F) p).Adm := fun p => (cfgs p).toPCfg_adm

/-- The launch element: the handshakes' rounds at their cells, the pipeline's rounds at its staging cells with the
    launch's duty tokens, the unit of the counters. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj),
      (1 : Counters)))

/-- What the program's proof starts from on device `d`: the pipeline's cells' ghost state and duty tokens. -/
def G (d : Dev nD) : sProp 𝕄 :=
  iprop(Pipeline.cellsGhost (Pipeline.pin (pcfgs (F := F)) adm) EP 0 d ∗ Pipeline.toksInit (Pipeline.pin (pcfgs (F := F)) adm) EP 0 d)

/-- With one pipeline, a device's share is that pipeline's. -/
theorem G_eq (d : Dev nD) :
    (G (F := F) d : sProp 𝕄)
      = iprop((bigSep Finset.univ fun p : Fin 1 => Pipeline.cellsGhost (Pipeline.pin (pcfgs (F := F)) adm) EP p d)
          ∗ (bigSep Finset.univ fun p : Fin 1 => (Pipeline.toksInit (Pipeline.pin (pcfgs (F := F)) adm) EP p d : sProp 𝕄))) := by
  unfold G
  rw [bigSep_univ_of_subsingleton (0 : Fin 1), bigSep_univ_of_subsingleton (0 : Fin 1)]

/-- Every device's share, all together: the ghost states of all devices and pipelines beside their duty tokens. -/
theorem bigSep_G :
    (bigSep Finset.univ fun d : Dev nD => (G (F := F) d : sProp 𝕄))
      = iprop((bigSep Finset.univ fun c : Dev nD => bigSep Finset.univ fun p : Fin 1 =>
            Pipeline.cellsGhost (Pipeline.pin (pcfgs (F := F)) adm) EP p c)
          ∗ (bigSep Finset.univ fun c : Dev nD => bigSep Finset.univ fun p : Fin 1 =>
            (Pipeline.toksInit (Pipeline.pin (pcfgs (F := F)) adm) EP p c : sProp 𝕄))) := by
  refine (bigSep_congr fun d _ => G_eq (F := F) d).trans ?_
  exact bigSep_sep' _ _ _

/-- The right half of the launch element, owned, gives the pipeline's rounds owned through their embedding; the
    counters' unit is dropped. -/
theorem own_pipeline (b : UP) (c : Counters) : (BI.own (embR (b, c)) : sProp 𝕄) ⊢ BI.own (EP b) := by
  unfold EP
  exact (own_pair_emb (embR : Emb (UP × Counters) 𝕄) b c).trans sep_elim_left

/-- Nothing rides with the threads beside the handshakes. -/
theorem bigSep_emp'' {I : Type} (s : Finset I) : (bigSep s fun _ => iprop(emp)) = (iprop(emp) : sProp 𝕄) := bigSep_emp_const s

/-- THE LAUNCH: the element owned gives the handshakes' rounds, every device's pipeline ghost state and duty tokens,
    and nothing more for any thread. -/
theorem hu₀ (f0 : (d : Dev nD) → Buf (Elt F) (tabLoc d)) (f1 : (d : Dev nD) → Buf (Elt F) (outLoc d)) :
    (ownU (u₀ (F := F)) : sProp 𝕄) ⊢ |={Set.univ}=> iprop(BI.own (EH (initOf (K (F := F)).hsCells (K (F := F)).hsToks))
        ∗ (bigSep Finset.univ fun d : Dev nD => G (F := F) d)
        ∗ bigSep Finset.univ fun thr : Thread nD τ => bigSep Finset.univ fun q : Fin 1 => (P f0 f1).x q thr) := by
  unfold u₀
  iintro Hu
  ihave H := (ownU_pair _ _) $$ Hu
  icases H with ⟨HH, HR⟩
  ihave HP := (own_pipeline (F := F) _ _) $$ HR
  imod (Pipeline.fund_ghost (Pipeline.pin (pcfgs (F := F)) adm) EP cellOf_inj) $$ HP with ⟨Hg, Ht⟩
  imodintro
  isplitl [HH]; · iexact HH
  isplitl [Hg Ht]
  · iapply (Entails.of_eq (bigSep_G (F := F)).symm)
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp'' _, bigSep_emp'']]
  iempintro

end Cert.KernelIdeal.Sc

end
-- ==== Proof.KiTail.lean ====
/-
  What the tail call leaves in the result: from column 16384 on, the padded tail's columns from 0 on; before
  that, what the result held.
-/
import proofs.«208034_g25555055411476_cont_9to1_456_24_alg».proof.KernelIdeal
import Idealize.ShloMosaic.Lib.ValueIdx

noncomputable section

namespace Cert.KernelIdeal.Tail

open Cert.KernelIdeal
open Idealize.ShloMosaic Idealize.ShloMosaic.ValueIdx

/-- The result after the tail call: columns from 16384 on are the tail block's columns from 0 on, the others are kept. -/
def tailWrite {α : Type} (f3 : S200x1024.Idx → α) (f4 : S200x16906.Idx → α) : S200x16906.Idx → α :=
  fun y => if h : 16384 ≤ (y 1).val then
      f3 (ix2 (⟨(y 0).val, idx2_lt0 y⟩ : Fin 200) (⟨(y 1).val - 16384, by have := idx2_lt1 y; omega⟩ : Fin 1024))
    else f4 y

theorem tailWrite_lt {α : Type} (f3 : S200x1024.Idx → α) (f4 : S200x16906.Idx → α) (y : S200x16906.Idx) (h : (y 1).val < 16384) :
    tailWrite f3 f4 y = f4 y := dif_neg (by omega)

theorem tailWrite_ge {α : Type} (f3 : S200x1024.Idx → α) (f4 : S200x16906.Idx → α) (y : S200x16906.Idx) (h : 16384 ≤ (y 1).val) :
    tailWrite f3 f4 y = f3 (ix2 (⟨(y 0).val, idx2_lt0 y⟩ : Fin 200) (⟨(y 1).val - 16384, by have := idx2_lt1 y; omega⟩ : Fin 1024)) := dif_pos h

end Cert.KernelIdeal.Tail

end
-- ==== Proof.Spec.lean ====
/-
  The function both programs compute: the first 16906 rows of a table of 16907 rows of 200 entries.
  Stated once, over any element type, index by index: entry (i, j) of the result is entry (i, j) of the table.
-/
import Idealize.ShloMosaic.Lib.ValueIdx

noncomputable section

namespace Cert.Spec

open Idealize.ShloMosaic Idealize.ShloMosaic.ValueIdx

/-- The table's shape: 16907 rows of 200 entries. -/
abbrev STab : Shape := ⟨2, ![16907, 200]⟩
/-- The result's shape: 16906 rows of 200 entries. -/
abbrev SOut : Shape := ⟨2, ![16906, 200]⟩

/-- Row `i` of the result names row `i` of the table: the same coordinates, the row bound weakened. -/
abbrev rowIdx (i : Fin 16906) (j : Fin 200) : STab.Idx := ix2 (⟨i.val, by omega⟩ : Fin 16907) j

/-- The first 16906 rows of the table: entry `(i, j)` is the table's entry `(i, j)`. -/
def rows {α : Type} (tab : STab.Idx → α) : SOut.Idx → α :=
  fun y => tab (rowIdx ⟨(y 0).val, idx2_lt0 y⟩ ⟨(y 1).val, idx2_lt1 y⟩)

theorem rows_ix2 {α : Type} (tab : STab.Idx → α) (i : Fin 16906) (j : Fin 200) :
    rows tab (ix2 i j) = tab (rowIdx i j) := rfl

end Cert.Spec

end
-- ==== Proof.KiValue.lean ====
/-
  The kernel-side program's result as a function of the table, read at an index.

  The table is transposed, so that its rows become columns. The columns below 16384 of the result are the transposed
  table's. The columns from 16384 on come from the transposed table's columns 16384 … 16906, cut out, padded on the
  right up to 1024 columns, and written over the result from column 16384 on: the result has 16906 columns, so only the
  first 522 columns of that block land in it, all of them inside the cut and none in the padding. Transposed back, entry
  (i, j) of the result is the table's entry (i, j).
-/
import proofs.«208034_g25555055411476_cont_9to1_456_24_alg».proof.KernelIdeal
import proofs.«208034_g25555055411476_cont_9to1_456_24_alg».proof.Proof.Gen.KernelIdeal
import proofs.«208034_g25555055411476_cont_9to1_456_24_alg».proof.Proof.Spec
import proofs.«208034_g25555055411476_cont_9to1_456_24_alg».proof.Proof.KiTail
import proofs.«208034_g25555055411476_cont_9to1_456_24_alg».proof.Proof.KiStripe
import Idealize.ShloMosaic.Lib.ValueLayout
import Idealize.ShloMosaic.Lib.KernelVsHost

noncomputable section

namespace Cert.KernelIdeal.Value

open Cert.KernelIdeal Cert.KernelIdeal.Gen
open Idealize.ShloMosaic Idealize.ShloMosaic.ValueIdx

variable {F : FTy → Type} [FloatOps F] [Facts]

/-- The table transposed: entry `(r, k)` is the table's entry `(k, r)`. -/
def f0 (tab : FVec F S16907x200 .f32) : FVec F S200x16907 .f32 :=
  transpose S200x16907 [1, 0] tab Facts₀.transposes_S16907x200_S200x16907_1_0

/-- The tail block: the transposed table's columns 16384 … 16906, then 501 columns of the padding value. -/
def f3 (tab : FVec F S16907x200 .f32) : FVec F S200x1024 .f32 :=
  pad S200x1024 ![0, 0] ![0, 501] ![0, 0]
    (extractStridedSlice S200x523 ![0, 16384] (f0 tab) Facts₀.slices_S200x16907_S200x523_0_16384)
    (sitofp .f32 (constantI S_ 32 0#32)) Facts₀.pads_S200x523_S200x1024_000_05010 Facts₀.h_S_

/-- The transposed table at `(r, k)` is the table at `(k, r)`. -/
theorem f0_apply (tab : FVec F S16907x200 .f32) (r : Fin 200) (k : Fin 16907) : f0 tab (ix2 r k) = tab (ix2 k r) := by
  unfold f0
  exact transpose_ix2_apply (a := 16907) (b := 200) tab Facts₀.transposes_S16907x200_S200x16907_1_0 r k

/-- The tail block at a column `k < 523` is inside the cut: the table's entry `(16384 + k, r)`. -/
theorem f3_apply (tab : FVec F S16907x200 .f32) (r : Fin 200) (k : Fin 1024) (hk : k.val < 523) :
    f3 tab (ix2 r k) = tab (ix2 (⟨16384 + k.val, by omega⟩ : Fin 16907) r) := by
  unfold f3
  refine (pad_apply_of_inside (![0, 0] : Fin 2 → ℕ) ![0, 501] ![0, 0] _ _ Facts₀.pads_S200x523_S200x1024_000_05010 Facts₀.h_S_
    (ix2 r k) (ix2 r (⟨k.val, hk⟩ : Fin 523)) fun a => ?_).trans ?_
  · match a with
    | ⟨0, _⟩ => show r.val = 0 + r.val * (0 + 1); omega
    | ⟨1, _⟩ => show k.val = 0 + k.val * (0 + 1); omega
  refine (extractStridedSlice_apply (![0, 16384] : Fin 2 → ℕ) (f0 tab) Facts₀.slices_S200x16907_S200x523_0_16384
    (ix2 r (⟨k.val, hk⟩ : Fin 523)) (ix2 r (⟨16384 + k.val, by omega⟩ : Fin 16907)) fun a => ?_).trans ?_
  · match a with
    | ⟨0, _⟩ => show r.val = 0 + r.val; omega
    | ⟨1, _⟩ => rfl
  exact f0_apply tab r _

/-- The result after the tail's write, at a column from 16384 on: the tail block's column that many further left. -/
theorem tailWrite_ix2_ge {α : Type} (t3 : S200x1024.Idx → α) (g1 : S200x16906.Idx → α) (r : Fin 200) (k : Fin 16906)
    (h : 16384 ≤ k.val) : Tail.tailWrite t3 g1 (ix2 r k) = t3 (ix2 r (⟨k.val - 16384, by omega⟩ : Fin 1024)) :=
  Tail.tailWrite_ge t3 g1 (ix2 r k) h

/-- The result after the tail's write, at a column below 16384: what was there. -/
theorem tailWrite_ix2_lt {α : Type} (t3 : S200x1024.Idx → α) (g1 : S200x16906.Idx → α) (r : Fin 200) (k : Fin 16906)
    (h : k.val < 16384) : Tail.tailWrite t3 g1 (ix2 r k) = g1 (ix2 r k) :=
  Tail.tailWrite_lt t3 g1 (ix2 r k) h

/-- The table's first columns read at `(r, k)`: the table's entry there. -/
theorem copyCols_ix2 {α : Type} (t0 : S200x16907.Idx → α) (r : Fin 200) (k : Fin 16906) :
    Stripe.copyCols t0 (ix2 r k) = t0 (ix2 r (⟨k.val, by omega⟩ : Fin 16907)) := rfl

/-- THE KERNEL-SIDE RESULT: with the columns below 16384 holding the transposed table's, the tail's write and the
    transpose back leave the first 16906 rows of the table. -/
theorem final_eq (tab : FVec F S16907x200 .f32) (g1 : FVec F S200x16906 .f32)
    (hg : ∀ y : S200x16906.Idx, (y 1).val < 16384 → g1 y = Stripe.copyCols (f0 tab) y) :
    transpose S16906x200 [1, 0] (Tail.tailWrite (f3 tab) g1) Facts₀.transposes_S200x16906_S16906x200_1_0
      = Cert.Spec.rows tab := by
  funext y
  obtain ⟨i, j, rfl⟩ : ∃ (i : Fin 16906) (j : Fin 200), y = ix2 i j := ⟨y 0, y 1, eq_ix2 y⟩
  rw [Cert.Spec.rows_ix2]
  refine (transpose_ix2_apply (a := 200) (b := 16906) (Tail.tailWrite (f3 tab) g1)
    Facts₀.transposes_S200x16906_S16906x200_1_0 i j).trans ?_
  by_cases h : 16384 ≤ i.val
  · have hi := i.isLt
    rw [tailWrite_ix2_ge _ _ j i h, f3_apply tab j _ (by show i.val - 16384 < 523; omega)]
    refine congrArg tab (congrArg (fun q : Fin 16907 => ix2 q j) (Fin.ext ?_))
    show 16384 + (i.val - 16384) = i.val
    omega
  · have h' : i.val < 16384 := by omega
    rw [tailWrite_ix2_lt _ _ j i h', hg (ix2 j i) h', copyCols_ix2, f0_apply]

end Cert.KernelIdeal.Value

end
-- ==== Proof.KiMainDefs.lean ====
/-
  @main on the TensorCore, the vocabulary: its ten arrays, its seven host operations, and what every array holds
  after each stretch of it — the table transposed; the copy kernel's call, which fills the result's columns below
  16384 with the transposed table's; the tail sliced off and padded to a block; the result copied; the tail call,
  which writes the block over the columns from 16384 on; the result transposed back.
-/
import proofs.«208034_g25555055411476_cont_9to1_456_24_alg».proof.Proof.KiCall
import proofs.«208034_g25555055411476_cont_9to1_456_24_alg».proof.Proof.KiElem
import proofs.«208034_g25555055411476_cont_9to1_456_24_alg».proof.Proof.KiTail
import proofs.«208034_g25555055411476_cont_9to1_456_24_alg».proof.Proof.KiValue

noncomputable section

namespace Cert.KernelIdeal.Sc

open Cert.KernelIdeal Cert.KernelIdeal.Gen Cert.KernelIdeal.Stripe Cert.KernelIdeal.Tail

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers and the operations -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev c' : DevRef τ sig := Proc.devRef .tc (main_c : Ref sig .tc)
abbrev cv' : DevRef τ sig := Proc.devRef .tc (main_call0_v0 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

/-- The TensorCore's unscoped buffers: @main's ten arrays. -/
abbrev S10 : Finset (DevRef τ sig) := {a0', a1', v0', v1', v2', c', cv', v3', v4', v5'}

abbrev opT : HloOp τ sig (Elt F) :=
  StableHlo.unary main_arg1 main_v0 ((transpose S200x16907 [1, 0] · Facts₀.transposes_S16907x200_S200x16907_1_0) : (⟨S16907x200, .f32⟩ : BufTy).Contents (Elt F) → (⟨S200x16907, .f32⟩ : BufTy).Contents (Elt F))
abbrev opS : HloOp τ sig (Elt F) :=
  StableHlo.unary main_v0 main_v2 ((extractStridedSlice S200x523 ![0, 16384] · Facts₀.slices_S200x16907_S200x523_0_16384) : (⟨S200x16907, .f32⟩ : BufTy).Contents (Elt F) → (⟨S200x523, .f32⟩ : BufTy).Contents (Elt F))
abbrev opC : HloOp τ sig (Elt F) := StableHlo.nullary main_c (constantI S_ 32 0#32)
abbrev opV : HloOp τ sig (Elt F) := StableHlo.TRef.unary (.of main_c : StableHlo.TRef sig ⟨S_, .i32⟩) main_call0.v0 (sitofp .f32)
abbrev opP : HloOp τ sig (Elt F) :=
  StableHlo.TRef.binary (.of main_v2 : StableHlo.TRef sig ⟨S200x523, .f32⟩) main_call0.v0 main_call0.v1 (fun x v => pad S200x1024 ![0, 0] ![0, 501] ![0, 0] x v Facts₀.pads_S200x523_S200x1024_000_05010 Facts₀.h_S_)
abbrev opI : HloOp τ sig (Elt F) := StableHlo.unary main_v1 main_v4 id
abbrev opU : HloOp τ sig (Elt F) :=
  StableHlo.unary main_v4 main_v5 ((transpose S16906x200 [1, 0] · Facts₀.transposes_S200x16906_S16906x200_1_0) : (⟨S200x16906, .f32⟩ : BufTy).Contents (Elt F) → (⟨S16906x200, .f32⟩ : BufTy).Contents (Elt F))

variable (d : Dev nD)

/-- The launch contents, -/
def V0 : Valuation τ sig (Elt F) := fun b => m (d, b)
/-- after the first transpose, -/
def V1 : Valuation τ sig (Elt F) := (opT (F := F)).result (V0 m d)
/-- The transposed table and the result as the copy kernel finds them. -/
def F0 : Buf (Elt F) (tabLoc d) := Value.f0 (m ((SparseCore.T d).loc main_arg1))
def F1 : Buf (Elt F) (outLoc d) := m (outLoc d)
/-- after the copy kernel's call, -/
def V2 : Valuation τ sig (Elt F) := Function.update (V1 m d) v1' (afterCall d (F0 m d) (F1 m d))
/-- after the slice, the constant, its conversion, the padding and the copy of the result, -/
def V7 : Valuation τ sig (Elt F) :=
  (opI (F := F)).result ((opP (F := F)).result ((opV (F := F)).result ((opC (F := F)).result ((opS (F := F)).result (V2 m d)))))
/-- after the tail call, -/
def V8 : Valuation τ sig (Elt F) := Function.update (V7 m d) v4' (tailWrite (V7 m d v3') (V7 m d v4'))
/-- and after the last transpose. -/
def V9 : Valuation τ sig (Elt F) := (opU (F := F)).result (V8 m d)

/-! ## The TensorCore's buffers as a set at a valuation -/

theorem unscoped_held : (unscopedBufs d (fun b => m ((SparseCore.T d).loc b)) : sProp 𝕄) = held (SparseCore.T d) S10 (V0 m d) := by
  unfold unscopedBufs held
  rw [show (Finset.univ.filter fun b : Ref sig .tc => ¬ b.isScoped)
        = {main_arg0, main_arg1, main_v0, main_v1, main_v2, main_c, main_call0_v0, main_v3, main_v4, main_v5} by decide,
    show (S10 : Finset (DevRef τ sig)) = Finset.map ⟨Proc.devRef .tc, Proc.devRef_injective _⟩
        {main_arg0, main_arg1, main_v0, main_v1, main_v2, main_c, main_call0_v0, main_v3, main_v4, main_v5} by decide,
    bigSep_map]
  rfl

/-- Two of the buffers taken out of the set. -/
theorem held_two {x y : DevRef τ sig} (hx : x ∈ S10) (hy : y ∈ S10) (hxy : x ≠ y) (V : Valuation τ sig (Elt F)) :
    (held (SparseCore.T d) S10 V : sProp 𝕄)
      = iprop(((((d, x) : Loc nD τ sig) ↦{fullShare} V x) ∗ (((d, y) : Loc nD τ sig) ↦{fullShare} V y)) ∗ held (SparseCore.T d) (S10 \ {x, y}) V) := by
  rw [held_sub_split (SparseCore.T d) (T := {x, y}) (by
    intro b hb; rcases Finset.mem_insert.mp hb with rfl | hb
    · exact hx
    · rw [Finset.mem_singleton.mp hb]; exact hy) V]
  unfold held
  rw [SparseCore.bigSep_insert' (by rw [Finset.mem_singleton]; exact hxy), bigSep_singleton]

/-- The others do not see an update of one of the two. -/
theorem held_rest_update {x y : DevRef τ sig} (V : Valuation τ sig (Elt F)) (g : Buf (Elt F) ((d, y) : Loc nD τ sig)) :
    (held (SparseCore.T d) (S10 \ {x, y}) (Function.update V y g) : sProp 𝕄) = held (SparseCore.T d) (S10 \ {x, y}) V :=
  held_congr (SparseCore.T d) fun b hb => Function.update_of_ne (fun e => by
    subst e; exact (Finset.mem_sdiff.mp hb).2 (Finset.mem_insert_of_mem (Finset.mem_singleton_self _))) _ _

theorem V1_v0 : V1 m d v0' = F0 m d := StableHlo.unary_result' _ _ _ (V0 m d)
theorem V1_v1 : V1 m d v1' = F1 m d := StableHlo.unary_result_ne' _ _ _ (V0 m d) (show (main_v1 : Ref sig .tc) ≠ main_v0 by decide)

/-- The region's theorem, as @main's proof uses it: from the padded block and the result held whole, the tail call
    runs to the result overwritten from column 16384 on. -/
def RegionWp : Prop :=
  ∀ (c : Dev nD) (f3 : Buf (Elt F) ((c.tc : Thread nD τ).loc main_v3)) (f4 : Buf (Elt F) ((c.tc : Thread nD τ).loc main_v4)) (W : Waits sig (HIx 1))
    {α : Type} (k : PUnit → Prog (TpuEff nD τ sig (Elt F) (Pipeline.Sig Λ₀ (Fin 1) fun p => (pcfgs (F := F) p).Adm) .tc) α) (Q : α → sProp 𝕄),
    iprop((iprop(boundary (c.tc : Thread nD τ) ∗ ((c.tc : Thread nD τ).loc main_v3 ↦{fullShare} f3) ∗ ((c.tc : Thread nD τ).loc main_v4 ↦{fullShare} tailWrite f3 f4)
              ∗ ∃ W', ⌜∀ p ∈ W', p ∈ W ∨ p.2 = none⌝ ∗ owes (c.tc : Thread nD τ) 0 W')
            -∗ wp frame (wpE (D (F := F)) 𝒱 (c.tc : Thread nD τ) none) Set.univ (k ⟨⟩) Q)
        ∗ boundary (c.tc : Thread nD τ) ∗ ((c.tc : Thread nD τ).loc main_v3 ↦{fullShare} f3) ∗ ((c.tc : Thread nD τ).loc main_v4 ↦{fullShare} f4)
        ∗ owes (c.tc : Thread nD τ) 0 W ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (D (F := F)) 𝒱 (c.tc : Thread nD τ) none) Set.univ (.op (.customCall (Pipeline.entry 0) ()) k) Q

/-- What @main leaves the claim: every array at the last valuation. -/
abbrev FIN : sProp 𝕄 := held (SparseCore.T d) S10 (V9 m d)

/-- The operations' buffers are among @main's ten arrays. -/
theorem hopT : (opT (F := F)).bufs ⊆ S10 := show ({a1', v0'} : Finset (DevRef τ sig)) ⊆ S10 by decide
theorem hopS : (opS (F := F)).bufs ⊆ S10 := show ({v0', v2'} : Finset (DevRef τ sig)) ⊆ S10 by decide
theorem hopC : (opC (F := F)).bufs ⊆ S10 := show ({c'} : Finset (DevRef τ sig)) ⊆ S10 by decide
theorem hopV : (opV (F := F)).bufs ⊆ S10 := show ({c', cv'} : Finset (DevRef τ sig)) ⊆ S10 by decide
theorem hopP : (opP (F := F)).bufs ⊆ S10 := show ({v2', cv', v3'} : Finset (DevRef τ sig)) ⊆ S10 by decide
theorem hopI : (opI (F := F)).bufs ⊆ S10 := show ({v1', v4'} : Finset (DevRef τ sig)) ⊆ S10 by decide
theorem hopU : (opU (F := F)).bufs ⊆ S10 := show ({v4', v5'} : Finset (DevRef τ sig)) ⊆ S10 by decide

end Cert.KernelIdeal.Sc

end
-- ==== Proof.KiMain.lean ====
/-
  @main on the TensorCore, run: each host operation from the ten arrays held at a valuation; the copy kernel's call
  from the table's and the result's columns below 16384, dealt to the tiles and joined again; the tail call from the
  padded block and the result; what is left is every array at the last valuation and the TensorCore owing nothing.
-/
import proofs.«208034_g25555055411476_cont_9to1_456_24_alg».proof.Proof.KiMainDefs

set_option Elab.async false

noncomputable section

namespace Cert.KernelIdeal.Sc

open Cert.KernelIdeal Cert.KernelIdeal.Gen Cert.KernelIdeal.Stripe Cert.KernelIdeal.Tail

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

theorem hv0 : v0' ∈ (S10 : Finset (DevRef τ sig)) := by decide
theorem hv1 : v1' ∈ (S10 : Finset (DevRef τ sig)) := by decide
theorem hv3 : v3' ∈ (S10 : Finset (DevRef τ sig)) := by decide
theorem hv4 : v4' ∈ (S10 : Finset (DevRef τ sig)) := by decide
theorem hv01 : (v0' : DevRef τ sig) ≠ v1' := by decide
theorem hv34 : (v3' : DevRef τ sig) ≠ v4' := by decide

theorem V2_tab (d : Dev nD) : V2 m d v0' = F0 m d := (Function.update_of_ne hv01 _ _).trans (V1_v0 m d)
theorem V2_out (d : Dev nD) : V2 m d v1' = afterCall d (F0 m d) (F1 m d) := Function.update_self _ _ _
theorem V8_v3 (d : Dev nD) : V8 m d v3' = V7 m d v3' := Function.update_of_ne hv34 _ _
theorem V8_v4 (d : Dev nD) : V8 m d v4' = tailWrite (V7 m d v3') (V7 m d v4') := Function.update_self _ _ _

theorem hmain (hreg : RegionWp (F := F)) (κ : GSem nD τ sig → ℕ) (d : Dev nD) :
    iprop((K (F := F)).ctx EH (P (F0 m) (F1 m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscoped_held]
  simp only [main, fn_pad.body, wp_bind, wp_pure]
  iintro ⟨#Hctx, Hst, ⟨Hb, Hheld, -, -⟩, ⟨Hcg, Htk⟩⟩
  -- the table transposed
  iapply (wp_hlo_within 𝒱 (SparseCore.T d) none Set.univ (op := opT) (S := S10) hopT (V := V0 m d)) $$ [Hb Hheld]
  · isplitl [Hb]; · iexact Hb
    iexact Hheld
  iintro ⟨Hb, Hheld⟩
  rw [wp_ret]; imodintro
  -- the copy kernel's call: the two arrays out of the set, dealt, and back
  rw [show (opT (F := F)).result (V0 m d) = V1 m d from rfl]
  ihave H := (Entails.of_eq (held_two (F := F) d hv0 hv1 hv01 (V1 m d))) $$ Hheld
  icases H with ⟨⟨Hv0, Hv1⟩, Hrest⟩
  rw [V1_v0 m d, V1_v1 m d]
  ihave Hsp := (call_split (F := F) d (F0 m) (F1 m)) $$ [Hv0 Hv1]
  · isplitl [Hv0]; · iexact Hv0
    iexact Hv1
  icases Hsp with ⟨Hst0, Hkeep⟩
  iapply ((K (F := F)).wp_run (D (F := F)) 𝒱 (EH := EH) (P := P (F0 m) (F1 m)) κ d 0) $$ [Hst Hst0 Hb Hrest Hkeep Hcg Htk]
  isplitr; · iexact Hctx
  isplitl [Hst]; · iexact Hst
  isplitl [Hst0]; · iexact Hst0
  iintro ⟨Hst, Hdn⟩
  ihave Hj := (call_join (F := F) d (F0 m) (F1 m)) $$ [Hdn Hkeep]
  · isplitl [Hdn]; · iexact Hdn
    iexact Hkeep
  icases Hj with ⟨Hv0, Hv1⟩
  ihave Hheld := (Entails.of_eq (held_two (F := F) d hv0 hv1 hv01 (V2 m d)).symm) $$ [Hv0 Hv1 Hrest]
  · rw [V2_tab m d, V2_out m d]
    isplitl [Hv0 Hv1]
    · isplitl [Hv0]; · iexact Hv0
      iexact Hv1
    · unfold V2; rw [held_rest_update]; iexact Hrest
  -- the tail sliced off the transposed table, the padding value, the padded block, the result copied
  iapply (wp_hlo_within 𝒱 (SparseCore.T d) none Set.univ (op := opS) (S := S10) hopS (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := opC) (S := S10) hopC (V := (opS (F := F)).result (V2 m d))) $$ [Hb Hheld]
  · isplitl [Hb]; · iexact Hb
    iexact Hheld
  iintro ⟨Hb, Hheld⟩
  rw [wp_ret]; imodintro
  iapply (wp_hlo_within 𝒱 (SparseCore.T d) none Set.univ (op := opV) (S := S10) hopV (V := (opC (F := F)).result ((opS (F := F)).result (V2 m d)))) $$ [Hb Hheld]
  · isplitl [Hb]; · iexact Hb
    iexact Hheld
  iintro ⟨Hb, Hheld⟩
  rw [wp_ret]; imodintro
  iapply (wp_hlo_within 𝒱 (SparseCore.T d) none Set.univ (op := opP) (S := S10) hopP (V := (opV (F := F)).result ((opC (F := F)).result ((opS (F := F)).result (V2 m d))))) $$ [Hb Hheld]
  · isplitl [Hb]; · iexact Hb
    iexact Hheld
  iintro ⟨Hb, Hheld⟩
  rw [wp_ret]; imodintro
  imodintro
  iapply (wp_hlo_within 𝒱 (SparseCore.T d) none Set.univ (op := opI) (S := S10) hopI (V := (opP (F := F)).result ((opV (F := F)).result ((opC (F := F)).result ((opS (F := F)).result (V2 m d)))))) $$ [Hb Hheld]
  · isplitl [Hb]; · iexact Hb
    iexact Hheld
  iintro ⟨Hb, Hheld⟩
  rw [wp_ret]; imodintro
  -- the tail call: the block and the result out of the set, the TensorCore owing nothing
  rw [show (opI (F := F)).result ((opP (F := F)).result ((opV (F := F)).result ((opC (F := F)).result ((opS (F := F)).result (V2 m d))))) = V7 m d from rfl]
  ihave H := (Entails.of_eq (held_two (F := F) d hv3 hv4 hv34 (V7 m d))) $$ Hheld
  icases H with ⟨⟨H3, H4⟩, Hrest⟩
  unfold SparseCore.Cfg.tcSt
  icases Hst with ⟨⟨%W, %hW, HO⟩, Htail⟩
  rw [(K (F := F)).Otc_end d (n := (0 : Fin 1).val + 1) (le_refl _)]
  ihave Hlev := (SparseCore.Cfg.ctx_levAts κ) $$ Hctx
  iapply ((K (F := F)).wp_liftProg (D (F := F)) 𝒱 (SparseCore.T d) Set.univ none (.op (.customCall (Pipeline.entry 0) ()) .ret) _)
  iapply (hreg d (V7 m d v3') (V7 m d v4') W Prog.ret _) $$ [Hb H3 H4 HO Hlev Hcg Htk Hrest Htail]
  isplitl [Hrest Htail]
  · iintro ⟨Hb, H3, H4, %W', %hW', HO⟩
    rw [wp_ret]; imodintro
    ihave Hheld := (Entails.of_eq (held_two (F := F) d hv3 hv4 hv34 (V8 m d)).symm) $$ [H3 H4 Hrest]
    · rw [V8_v3 m d, V8_v4 m d]
      isplitl [H3 H4]
      · isplitl [H3]; · iexact H3
        iexact H4
      · unfold V8; rw [held_rest_update]; iexact Hrest
    -- the result transposed back
    iapply (wp_hlo_within 𝒱 (SparseCore.T d) none Set.univ (op := opU) (S := S10) hopU (V := V8 m d)) $$ [Hb Hheld]
    · isplitl [Hb]; · iexact Hb
      iexact Hheld
    iintro ⟨Hb, Hheld⟩
    rw [wp_ret]; imodintro
    imodintro
    isplitl [HO Htail]
    · isplitl [HO]
      · iexists W'; isplitr
        · ipureintro; intro p hp
          rcases hW' p hp with h | h
          · exact hW p h
          · rw [h]; exact Nat.zero_le _
        · iexact HO
      · iexact Htail
    · iexact Hheld
  isplitl [Hb]; · iexact Hb
  isplitl [H3]; · iexact H3
  isplitl [H4]; · iexact H4
  isplitl [HO]; · iexact HO
  isplitl [Hlev]; · iexact Hlev
  isplitl [Hcg]; · iexact Hcg
  iexact Htk

end Cert.KernelIdeal.Sc

end
-- ==== Proof.KiFin.lean ====
/-
  What the program's last state says about memory: after the last transpose the two arguments hold what they held at
  the launch, and the result holds the first 16906 rows of the table.
-/
import proofs.«208034_g25555055411476_cont_9to1_456_24_alg».proof.Proof.KiMainDefs

noncomputable section

namespace Cert.KernelIdeal.Sc

open Cert.KernelIdeal Cert.KernelIdeal.Gen Cert.KernelIdeal.Stripe Cert.KernelIdeal.Tail

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)

variable {F : FTy → Type} [FloatOps F]

local notation "𝕄" => MT nD τ sig (HIx 1) (Elt F) ℕ UU ℕ

variable (m : (ℓ : Loc nD τ sig) → Buf (Elt F) ℓ) (d : Dev nD)

/-! ## The valuations at single buffers -/

/-- An update at one array is not seen at another. -/
theorem upd_ne {x y : Ref sig .tc} (h : x ≠ y) (W : Valuation τ sig (Elt F)) (g : Buf (Elt F) ((d, Proc.devRef .tc y) : Loc nD τ sig)) :
    Function.update W (Proc.devRef .tc y) g (Proc.devRef .tc x) = W (Proc.devRef .tc x) :=
  Function.update_of_ne (StableHlo.devRef_ne_of_ne h) _ _

/-- An array that none of the operations and neither call writes holds its launch contents to the end. -/
theorem V9_of_ne {r : Ref sig .tc} (h0 : r ≠ main_v0) (h1 : r ≠ main_v1) (h2 : r ≠ main_v2) (hc : r ≠ main_c)
    (hcv : r ≠ main_call0_v0) (h3 : r ≠ main_v3) (h4 : r ≠ main_v4) (h5 : r ≠ main_v5) :
    V9 m d (Proc.devRef .tc r) = m (d, Proc.devRef .tc r) := by
  unfold V9
  rw [StableHlo.unary_result_ne' _ _ _ _ h5]
  unfold V8
  rw [upd_ne d h4]
  unfold V7
  rw [StableHlo.unary_result_ne' _ _ _ _ h4, StableHlo.binary_result_ne' _ _ _ _ _ h3, StableHlo.unary_result_ne' _ _ _ _ hcv,
    StableHlo.nullary_result_ne' _ _ _ hc, StableHlo.unary_result_ne' _ _ _ _ h2]
  unfold V2
  rw [upd_ne d h1]
  unfold V1
  rw [StableHlo.unary_result_ne' _ _ _ _ h0]
  rfl

theorem V9_a0 : V9 m d a0' = m ((SparseCore.T d).loc main_arg0) :=
  V9_of_ne m d (by decide) (by decide) (by decide) (by decide) (by decide) (by decide) (by decide) (by decide)

theorem V9_a1 : V9 m d a1' = m ((SparseCore.T d).loc main_arg1) :=
  V9_of_ne m d (by decide) (by decide) (by decide) (by decide) (by decide) (by decide) (by decide) (by decide)

/-- The transposed table is still in its array when the tail is sliced off. -/
theorem V2_v0 : V2 m d v0' = F0 m d := by
  unfold V2
  rw [upd_ne d (show (main_v0 : Ref sig .tc) ≠ main_v1 by decide)]
  exact V1_v0 m d

/-- The result after the copy kernel's call. -/
theorem V2_v1 : V2 m d v1' = afterCall d (F0 m d) (F1 m d) := by
  unfold V2
  exact Function.update_self _ _ _

/-- The padded block is the tail block of the table. -/
theorem V7_v3 : V7 m d v3' = Value.f3 (m ((SparseCore.T d).loc main_arg1)) := by
  unfold V7
  rw [StableHlo.unary_result_ne' _ _ _ _ (show (main_v3 : Ref sig .tc) ≠ main_v4 by decide), StableHlo.binary_result',
    StableHlo.unary_result_ne' _ _ _ _ (show (main_v2 : Ref sig .tc) ≠ main_call0_v0 by decide),
    StableHlo.nullary_result_ne' _ _ _ (show (main_v2 : Ref sig .tc) ≠ main_c by decide),
    StableHlo.unary_result', StableHlo.unary_result', StableHlo.nullary_result', V2_v0]
  rfl

/-- The copy of the result holds the result after the copy kernel's call. -/
theorem V7_v4 : V7 m d v4' = afterCall d (F0 m d) (F1 m d) := by
  unfold V7
  rw [StableHlo.unary_result', StableHlo.binary_result_ne' _ _ _ _ _ (show (main_v1 : Ref sig .tc) ≠ main_v3 by decide),
    StableHlo.unary_result_ne' _ _ _ _ (show (main_v1 : Ref sig .tc) ≠ main_call0_v0 by decide),
    StableHlo.nullary_result_ne' _ _ _ (show (main_v1 : Ref sig .tc) ≠ main_c by decide),
    StableHlo.unary_result_ne' _ _ _ _ (show (main_v1 : Ref sig .tc) ≠ main_v2 by decide), V2_v1]
  exact id_eq _

/-- THE RESULT: the first 16906 rows of the table. -/
theorem V9_v5 : V9 m d v5' = Cert.Spec.rows (m ((SparseCore.T d).loc main_arg1)) := by
  unfold V9
  rw [StableHlo.unary_result']
  unfold V8
  rw [Function.update_self, V7_v3, V7_v4]
  exact Value.final_eq (m ((SparseCore.T d).loc main_arg1)) (afterCall d (F0 m d) (F1 m d))
    (fun y h => afterCall_lt d (F0 m d) (F1 m d) y h)

/-! ## The last state and memory -/

/-- What the claim says of device `d`'s memory. -/
def fq (d : Dev nD) (s' : Phys nD τ sig (Elt F)) : Prop :=
  s'.mem.mem ((SparseCore.T d).loc main_v5) = Cert.Spec.rows (m ((SparseCore.T d).loc main_arg1))
    ∧ s'.mem.mem ((SparseCore.T d).loc main_arg0) = m ((SparseCore.T d).loc main_arg0)
    ∧ s'.mem.mem ((SparseCore.T d).loc main_arg1) = m ((SparseCore.T d).loc main_arg1)

/-- One of the ten arrays out of the set. -/
theorem held_elim {x : DevRef τ sig} (hx : x ∈ S10) (W : Valuation τ sig (Elt F)) :
    (held (SparseCore.T d) S10 W : sProp 𝕄) ⊢ (((d, x) : Loc nD τ sig) ↦{fullShare} W x) := by
  unfold held
  exact bigSep_elim hx

/-- An array held at a valuation holds, in the state's memory, the valuation's contents. -/
theorem agree_at {x : DevRef τ sig} (hx : x ∈ S10) (W : Valuation τ sig (Elt F)) (s' : Phys nD τ sig (Elt F)) :
    iprop(held (SparseCore.T d) S10 W ∗ SI s') ⊢ (⌜s'.mem.mem ((d, x) : Loc nD τ sig) = W x⌝ : sProp 𝕄) := by
  iintro ⟨H, HSI⟩
  ihave Hx := (held_elim d hx W) $$ H
  ihave Hag := (SI_pointsTo_agree (st := s') (ℓ := ((d, x) : Loc nD τ sig)) (I := Finset.univ) (q := fullShare) (f := W x)) $$ [HSI Hx]
  · isplitl [HSI] <;> iassumption
  icases Hag with %h
  ipureintro; exact funext fun i => h i (Finset.mem_univ i)

/-- The arrays held at the last valuation agree with the state's memory. -/
theorem hfin (d : Dev nD) (s' : Phys nD τ sig (Elt F)) : iprop(FIN m d ∗ SI s') ⊢ (⌜fq m d s'⌝ : sProp 𝕄) := by
  unfold FIN
  iintro H
  ihave H1 := (persistent_entails_right (agree_at d (x := v5') (by decide) (V9 m d) s')) $$ H
  icases H1 with ⟨%h5, H⟩
  ihave H2 := (persistent_entails_right (agree_at d (x := a0') (by decide) (V9 m d) s')) $$ H
  icases H2 with ⟨%h0, H⟩
  ihave H3 := (agree_at d (x := a1') (by decide) (V9 m d) s') $$ H
  icases H3 with %h1
  ipureintro
  exact ⟨h5.trans (V9_v5 m d), h0.trans (V9_a0 m d), h1.trans (V9_a1 m d)⟩

/-- What the claim says of the whole memory. -/
def QC : PUnit × MemSt nD τ sig (Elt F) → Prop := fun r => ∀ c : Dev nD,
  r.2.mem ((SparseCore.T c).loc main_v5) = Cert.Spec.rows (m ((SparseCore.T c).loc main_arg1))
    ∧ r.2.mem ((SparseCore.T c).loc main_arg0) = m ((SparseCore.T c).loc main_arg0)
    ∧ r.2.mem ((SparseCore.T c).loc main_arg1) = m ((SparseCore.T c).loc main_arg1)

theorem hQ : ∀ s' : Phys nD τ sig (Elt F), (∀ d, fq m d s') → QC m (⟨⟩, s'.mem) := fun _ h => h

end Cert.KernelIdeal.Sc

end
-- ==== Proof.KiRegion.lean ====
/-
  The TensorCore region of the kernel-side program: the one pipelined call that copies the first 522 columns of
  `main_v3` (200 x 1024) onto columns 16384 .. 16905 of `main_v4` (200 x 16906).

  The pipeline has one grid point and two windows. Window 0 is `main_v3` whole, fetched. Window 1 is the block
  of `main_v4` at block index (0, 16): columns 16384 .. 17407, of which only 16384 .. 16905 lie inside the array,
  so the write-back is cut to those 522 columns. The body loads window 0's staging buffer whole and stores it
  (through a shape cast between equal shapes: the identity) whole into window 1's staging buffer. Hence after the
  region `main_v4 r (16384 + j) = main_v3 r j` for `j < 522`, every other column of `main_v4` is kept, and
  `main_v3` is unchanged (`tailWrite`).

  The proof: the proof data `dat1` (both staging buffers hold `main_v3`'s contents after the body; no invariant,
  nothing owed, full shares); the body obligation from the load and store rules on whole buffers; the final array
  in closed form (one cut block write, an `updateSlice` at offsets (0, 16384)); the region record; and the
  library's region rule.
-/
import proofs.«208034_g25555055411476_cont_9to1_456_24_alg».proof.Proof.Gen.KernelIdeal.Launch
import proofs.«208034_g25555055411476_cont_9to1_456_24_alg».proof.Proof.Gen.KernelIdeal.Points
import proofs.«208034_g25555055411476_cont_9to1_456_24_alg».proof.Proof.Gen.KernelIdeal.Skeleton
import proofs.«208034_g25555055411476_cont_9to1_456_24_alg».proof.Proof.KiTail
import Idealize.ShloMosaic.Lib.Pipeline.Kit
import Idealize.ShloMosaic.Lib.Pipeline.Regions
import Idealize.ShloMosaic.Lib.Pipeline.Value
import Idealize.ShloMosaic.Lib.SparseCore.Cells
import Idealize.ShloMosaic.Lib.ValueIdx
import Idealize.ShloMosaic.Lib.Tactic

noncomputable section

namespace Cert.KernelIdeal.Region

open Cert.KernelIdeal Cert.KernelIdeal.Gen Cert.KernelIdeal.Tail

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type} [FloatOps F]
variable {U : Type} [URA U]

local notation "𝕄" => MT nD τ sig (HIx 1) (Elt F) ℕ U ℕ

/-- The kernel's variants: none. -/
abbrev 𝒱₀ : Variants := Variants.none

/-- The pipelines' prefetched tables: none has one. -/
abbrev adm : (p : Fin 1) → (pcfgs (F := F) p).Adm := fun p => (cfgs p).toPCfg_adm

/-! ## The proof data -/

/-- The pairs the core's waits may have recorded around the region: those recorded before it, and the
    pipeline's own, which are at the index `none`. -/
def recW (W : Waits sig (HIx 1)) : Set (SemLoc sig × HIx 1) := {p | p ∈ W ∨ p.2 = none}

/-- The proof data of the one pipeline on core `c`: the arrays at their entry contents `f3`, `f4`; after the body
    both staging buffers hold `f3` (the body stores what it loaded); no invariant; nothing owed; full shares. -/
def dat1 (f3 : S200x1024.Idx → Elt F .f32) (f4 : S200x16906.Idx → Elt F .f32) (W : Waits sig (HIx 1)) (c : Dev nD) :
    Dat τ (Elt F) (HIx 1) ℕ U ℕ cfg1 c where
  A w := match w with
    | ⟨0, _⟩ => f3
    | ⟨1, _⟩ => f4
  after w _ := match w with
    | ⟨0, _⟩ => f3
    | ⟨1, _⟩ => f3
  Φ _ := iprop(emp)
  q _ := fullShare
  owed _ := 0
  recorded _ := recW W

/-! ## What the body finds in the staging buffers -/

/-- Window 0's block at the one point is the whole of `main_v3`: an element of the block sits in the array at its
    own coordinates (the block index is (0, 0)). -/
theorem emb_blk0 (t : Fin cfg1.N) (x : (win1_0.xblock (grid1.coords t)).Idx) (a : Fin 2) :
    (((win1_0.blk t).view.emb x) a : Nat) = (x a : Nat) := by
  refine (win1_0.rect_emb_val t x a).trans ?_
  match a with
  | ⟨0, _⟩ => show 0 * 200 + (x 0 : Nat) = (x 0 : Nat); omega
  | ⟨1, _⟩ => show 0 * 1024 + (x 1 : Nat) = (x 1 : Nat); omega

/-- Window 0's staging buffer, just fetched, holds `f3`: all of it, the window is not cut. -/
theorem before_0 (f3 : S200x1024.Idx → Elt F .f32) (f4 : S200x16906.Idx → Elt F .f32) (W : Waits sig (HIx 1)) (c : Dev nD)
    (t : Fin cfg1.N) (d) : (dat1 (U := U) f3 f4 W c).before (0 : Fin 2) t d = f3 := by
  unfold Dat.before; rw [if_pos (fetch1_0 t)]
  funext j
  unfold Dat.fetched Window.fill
  split
  · unfold Dat.blockOf
    rw [View.read_apply]
    show f3 _ = f3 j
    refine congrArg f3 (funext fun a => Fin.ext ?_)
    exact emb_blk0 t _ a
  · next h => exact absurd rfl h

/-- Window 1's buffer is an output's: at the one point, the first, it holds what nothing names. -/
theorem before_1 (f3 : S200x1024.Idx → Elt F .f32) (f4 : S200x16906.Idx → Elt F .f32) (W : Waits sig (HIx 1)) (c : Dev nD)
    (t : Fin cfg1.N) (d) : (dat1 (U := U) f3 f4 W c).before (1 : Fin 2) t d = d := by
  obtain rfl := fin_N1 t
  unfold Dat.before
  rw [if_neg (by decide)]
  exact if_pos rfl

/-! ## The kernel body's obligation -/

/-- The kernel body on the staging buffers: it loads window 0's whole, loads window 1's (unused), and stores the first
    load, cast between equal shapes, whole into window 1's. Window 1's buffer ends holding what window 0's holds,
    which is unchanged. -/
theorem sound_body (c : Dev nD) (E : Set ℕ) (i : grid1.Coords) (s0 : Fin 1) (s1 : Fin 1)
    (X0 X1 : S200x1024.Idx → Elt F .f32) (K : PUnit → sProp 𝕄) :
    iprop((owns (c : Thread nD τ) (stage1_0 s0) fullShare X0 ∗ owns (c : Thread nD τ) (stage1_1 s1) fullShare X1)
          ∗ (iprop(owns (c : Thread nD τ) (stage1_0 s0) fullShare X0 ∗ owns (c : Thread nD τ) (stage1_1 s1) fullShare X0) -∗ K ⟨⟩))
      ⊢ wp frame (wpE (defs₀ (F := F)) 𝒱₀ c none) E
          (cc1__tc_tail_body i (Memref.whole main_v1) (Memref.isWhole_whole _) (stage1_0 s0) (hstage1_0 s0) (stage1_1 s1) (hstage1_1 s1)) K := by
  have hz : (![0, 0] : Fin 2 → Nat) = fun _ => 0 := funext fun a => by fin_cases a <;> rfl
  fin_cases s0; fin_cases s1
  have hr0 : (Memref.whole cc1_stg0_0 : Memref sig .tc _ _ _).view.readAt (Elt F) (Rect.unit (s := S200x1024) ![0, 0] S200x1024.size
      inb_S200x1024_S200x1024_0_0).toLoadRect = id := funext (Memref.readAt_unit_zero (Elt F) cc1_stg0_0 hz _)
  have hw1 : ∀ f w, (((Memref.whole cc1_stg1_0).access (Rect.unit (s := S200x1024) ![0, 0] S200x1024.size inb_S200x1024_S200x1024_0_0)) :
      View sig .tc _ _ _).write (Elt F) f w Finset.univ = w := Memref.write_access_unit_zero_univ (Elt F) cc1_stg1_0 hz _
  simp only [owns_whole, cc1__tc_tail_body_eq_skeleton]; unfold cc1__tc_tail_body_skel
  simp only [Prog.lift, Prog.bind_op, Prog.bind_ret]
  iintro ⟨⟨H0, H1⟩, Hk⟩
  sl_steps
  iapply Hk
  rw [hr0, hw1]
  have hp : k1_pay1 (id X0) = X0 := by unfold k1_pay1; exact shapeCast_self _ _
  rw [hp]
  isplitl [H0]
  · iexact H0
  · iexact H1

/-- The library's body obligation, from `sound_body` at the point's staging buffers: window 0's buffer arrives
    holding `f3` (`before_0`), window 1's holding anything (`before_1`); both leave holding `f3`, which is what the
    proof data names after the body — for window 1, whose write-back is cut, on the part the transfer moves, which
    is all its obligation asks. -/
theorem body_obligation (f3 : S200x1024.Idx → Elt F .f32) (f4 : S200x16906.Idx → Elt F .f32) (W : Waits sig (HIx 1)) (c : Dev nD) :
    BodyObligationLoose (dat1 (U := U) f3 f4 W c) (defs₀ (F := F)) 𝒱₀ (none : HIx 1) Set.univ := fun t => by
  rw [bigSep_W1, bigSep_W1]
  simp only
  rw [show (dat1 (U := U) f3 f4 W c).Φ t.succ = (dat1 (U := U) f3 f4 W c).Φ t.castSucc from rfl,
    show (dat1 (U := U) f3 f4 W c).owesAt none t.succ = (dat1 (U := U) f3 f4 W c).owesAt none t.castSucc from rfl]
  iintro ⟨HΦ, Ho, ⟨%d0, H0⟩, ⟨%d1, H1⟩⟩
  rw [before_0 f3 f4 W c t d0, before_1 f3 f4 W c t d1]
  iapply (sound_body (F := F) (U := U) c Set.univ (grid1.coords t) (cfg1.slots t 0) (cfg1.slots t 1) f3 d1 _)
  isplitl [H0 H1]
  · isplitl [H0]
    · iexact H0
    · iexact H1
  iintro ⟨H0, H1⟩
  isplitl [HΦ]; · iexact HΦ
  isplitl [Ho]; · iexact Ho
  isplitl [H0]
  · iexact H0
  · iexists f3
    dsimp only [dat1]
    rw [Window.fill_cut]
    iexact H1

/-! ## The arrays after the region, in closed form -/

/-- `main_v3` is the kernel's input: it ends holding what it held. -/
theorem arrAt_0 (f3 : S200x1024.Idx → Elt F .f32) (f4 : S200x16906.Idx → Elt F .f32) (W : Waits sig (HIx 1)) (c : Dev nD) (n : Nat) :
    (dat1 (U := U) f3 f4 W c).arrAt (0 : Fin 2) n = f3 :=
  (dat1 (U := U) f3 f4 W c).arrAt_in (0 : Fin 2) rfl n

/-- `main_v4` after the one write-back: its entry contents overwritten, through the block at (0, 16) cut at the
    array's end, by the moved part of what the body left in the staging buffer. -/
theorem arrAt_1 (f3 : S200x1024.Idx → Elt F .f32) (f4 : S200x16906.Idx → Elt F .f32) (W : Waits sig (HIx 1)) (c : Dev nD) :
    (dat1 (U := U) f3 f4 W c).arrAt (1 : Fin 2) cfg1.N
      = (win1_1.blk t1_0).view.write (Elt F) f4 (win1_1.cut (grid1.coords t1_0) f3) Finset.univ := by
  rw [show cfg1.N = t1_0.val + 1 from rfl, (dat1 (U := U) f3 f4 W c).arrAt_succ (1 : Fin 2) t1_0, if_pos (flush1_1 _)]
  rfl

/-- An update of a 200 x 16906 array through the rectangle at offsets (0, 16384) of sizes (200, 522), by the
    leading 200 x 522 part of a 200 x 1024 block, is `tailWrite`. The offsets and sizes are variables equated to their
    values, so that no step compares a numeral with a sum. -/
theorem updateSlice_tail {α : Type} (off size : Fin 2 → Nat) (inb : ∀ a, off a + size a ≤ S200x16906.size a)
    (ho0 : off 0 = 0) (ho1 : off 1 = 16384) (hs0 : size 0 = 200) (hs1 : size 1 = 522)
    (f3 : S200x1024.Idx → α) (f4 : S200x16906.Idx → α)
    (emb : (⟨2, size⟩ : Shape).Idx → S200x1024.Idx) (hemb : ∀ x (a : Fin 2), ((emb x) a).val = (x a).val) :
    updateSlice (s := S200x16906) (u := ⟨2, size⟩) f4 (fun x => f3 (emb x)) off ⟨rfl, inb⟩ = tailWrite f3 f4 := by
  funext y
  have h0 := ValueIdx.idx2_lt0 y
  have h1 := ValueIdx.idx2_lt1 y
  unfold updateSlice
  by_cases h : 16384 ≤ (y 1).val
  · rw [tailWrite_ge f3 f4 y h, dif_pos]
    · refine congrArg f3 (funext fun a => Fin.ext ?_)
      rw [hemb]
      match a with
      | ⟨0, _⟩ => show (y 0).val - off 0 = (y 0).val; rw [ho0]; omega
      | ⟨1, _⟩ => show (y 1).val - off 1 = (y 1).val - 16384; rw [ho1]
    · intro a
      match a with
      | ⟨0, _⟩ => show off 0 ≤ (y 0).val ∧ (y 0).val < off 0 + size 0; rw [ho0, hs0]; omega
      | ⟨1, _⟩ => show off 1 ≤ (y 1).val ∧ (y 1).val < off 1 + size 1; rw [ho1, hs1]; omega
  · rw [tailWrite_lt f3 f4 y (by omega), dif_neg]
    intro hin
    have h2 : off 1 ≤ (y 1).val := (hin 1).1
    rw [ho1] at h2
    exact h h2

/-- That write is `tailWrite`: the block's part inside the array is rows 0 .. 199, columns 16384 .. 16905, and its
    element (r, j) takes the staging buffer's element (r, j). -/
theorem write_tail (f3 : S200x1024.Idx → Elt F .f32) (f4 : S200x16906.Idx → Elt F .f32) :
    (win1_1.blk t1_0).view.write (Elt F) f4 (win1_1.cut (grid1.coords t1_0) f3) Finset.univ = tailWrite f3 f4 := by
  -- the block's offsets in the array and the sizes of its part inside the array
  have o0 : win1_1.index t1_0 0 * win1_1.size 0 = 0 := by decide
  have o1 : win1_1.index t1_0 1 * win1_1.size 1 = 16384 := by decide
  have s0 : win1_1.xsize (grid1.coords t1_0) 0 = 200 := by decide
  have s1 : win1_1.xsize (grid1.coords t1_0) 1 = 522 := by decide
  refine (View.write_whole_slice_unit (Val := Elt F) main_v4 _ _ _ f4 _).trans ?_
  exact updateSlice_tail (fun a => win1_1.index t1_0 a * win1_1.size a) (win1_1.xsize (grid1.coords t1_0))
    (fun a => Pipeline.Clip.inb (win1_1.hclip (grid1.coords t1_0) a)) o0 o1 s0 s1 f3 f4
    (win1_1.xinj (grid1.coords t1_0)) (fun _ _ => rfl)

/-- `main_v4` after the region. -/
theorem arrAt_1_eq (f3 : S200x1024.Idx → Elt F .f32) (f4 : S200x16906.Idx → Elt F .f32) (W : Waits sig (HIx 1)) (c : Dev nD) :
    (dat1 (U := U) f3 f4 W c).arrAt (1 : Fin 2) cfg1.N = tailWrite f3 f4 :=
  (arrAt_1 f3 f4 W c).trans (write_tail f3 f4)

/-! ## The region record -/

/-- The proof data of every pipeline of the program: the one. -/
def pdats (f3 : S200x1024.Idx → Elt F .f32) (f4 : S200x16906.Idx → Elt F .f32) (W : Waits sig (HIx 1)) :
    (p : Fin 1) → (c : Dev nD) → Dat τ (Elt F) (HIx 1) ℕ U ℕ (Pipeline.pin (pcfgs (F := F)) adm p) c
  | ⟨0, _⟩ => fun c => dat1 f3 f4 W c

/-- A buffer of core `c` held whole at the full share. -/
abbrev pl (c : Dev nD) (b : Ref sig .tc) (f : b.ty.Contents (Elt F)) : sProp 𝕄 := ((c : Thread nD τ).loc b) ↦{fullShare} f

/-- The region's two arrays at contents `Fa` are `main_v3` and `main_v4` held. -/
theorem arrays_eq (f3 : S200x1024.Idx → Elt F .f32) (f4 : S200x16906.Idx → Elt F .f32) (W : Waits sig (HIx 1)) (c : Dev nD) (Fa) :
    ((pdats (U := U) f3 f4 W 0 c).arrays Fa : sProp 𝕄) = iprop(pl c main_v3 (Fa 0) ∗ pl c main_v4 (Fa 1)) := by
  rw [Pipeline.arrays_eq (Pipeline.pin (pcfgs (F := F)) adm) (pdats (U := U) f3 f4 W) 0 c launch1.arr_whole
    ((pdats (U := U) f3 f4 W 0 c).share_full fun _ => rfl) Fa, bigSep_W1]

variable (EP : Emb (URounds (GSem nD τ sig) Unit) (MT nD τ sig (HIx 1) (Elt F) ℕ U ℕ))
  [EP.LandsIn (upEmb : UEmb _ (MT nD τ sig (HIx 1) (Elt F) ℕ U ℕ))]
variable (L : GSem nD τ sig → Finset (HIx 1)) (lv : GSem nD τ sig → HIx 1 → ℕ)

/-- THE REGION: `main_v3`, `main_v4` and what the core owes (nothing) go in; `main_v3` unchanged, `main_v4` with its
    tail columns written and the core still owing nothing come out, its recorded pairs those it had and the
    pipeline's own. -/
def reg (f3 : S200x1024.Idx → Elt F .f32) (f4 : S200x16906.Idx → Elt F .f32) (W : Waits sig (HIx 1)) :
    Pipeline.RegionSeg (pcfgs (F := F)) adm (pdats (U := U) f3 f4 W) (none : HIx 1) defs₀ 𝒱₀ L lv 0 where
  win := launch1.win.to₀
  block_pos := launch1.block_pos
  stage_whole := launch1.stage_whole
  K := PEmpty
  osem k := k.elim
  ho := Pipeline.OwnSemFacts.none _
  hbody c := body_obligation f3 f4 W c
  hwaits c := Pipeline.hwaits_of_owed_zero (pcfgs (F := F)) adm (pdats (U := U) f3 f4 W) none L lv 0 (fun _ _ => rfl) c
  pre c := iprop(pl c main_v3 f3 ∗ pl c main_v4 f4 ∗ owes (c : Thread nD τ) 0 W)
  post c := iprop(pl c main_v3 f3 ∗ pl c main_v4 (tailWrite f3 f4)
    ∗ ∃ W', ⌜∀ p ∈ W', p ∈ W ∨ p.2 = none⌝ ∗ owes (c : Thread nD τ) 0 W')
  X _ := iprop(emp)
  Y _ := iprop(emp)
  Z _ := iprop(emp)
  hentry c := by
    rw [Pipeline.ownSems0_none, arrays_eq]
    iintro ⟨⟨H3, H4, HO⟩, -, -⟩
    imodintro
    isplitl [H3 H4]
    · isplitl [H3]
      · iexact H3
      · iexact H4
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (Or.inl hp)
      iexact HO
    isplitr <;> iempintro
  hin c := by iintro -; iempintro
  hout c := by
    rw [Pipeline.ownSems0_none, scopedRest1_eq]
    iintro -; isplitr; · iempintro
    isplitr <;> iempintro
  hexit c := by
    rw [arrays_eq]
    rw [show (pdats (U := U) f3 f4 W 0 c).arrAt 0 (Pipeline.pin (pcfgs (F := F)) adm 0).N = f3 from arrAt_0 f3 f4 W c _,
      show (pdats (U := U) f3 f4 W 0 c).arrAt 1 (Pipeline.pin (pcfgs (F := F)) adm 0).N = tailWrite f3 f4 from arrAt_1_eq f3 f4 W c]
    iintro ⟨⟨H3, H4⟩, HO, -, -⟩
    imodintro
    isplitl [H3]; · iexact H3
    isplitl [H4]; · iexact H4
    unfold Pipeline.Dat.owesAt Pipeline.owesWithin
    icases HO with ⟨%W', %hW', HO⟩
    iexists W'; isplitr
    · ipureintro
      intro p hp
      rcases hW' hp with h | ⟨w, s, rfl⟩
      · exact h
      · exact Or.inr rfl
    iexact HO

/-! ## The region's rule -/

/-- The TensorCore call on core `c`: from the region boundary, `main_v3` at `f3`, `main_v4` at `f4`, the core owing
    nothing with recorded pairs `W`, the level facts and the pipeline's ghost state, the call runs to the boundary,
    `main_v3` at `f3`, `main_v4` at `tailWrite f3 f4`, the core owing nothing, its recorded pairs among `W` and the
    pairs at the index `none`. -/
theorem region_wp (c : Dev nD)
    (f3 : Buf (Elt F) ((c.tc : Thread nD τ).loc main_v3)) (f4 : Buf (Elt F) ((c.tc : Thread nD τ).loc main_v4)) (W : Waits sig (HIx 1))
    {α : Type} (k : PUnit → Prog (TpuEff nD τ sig (Elt F) (Pipeline.Sig Λ₀ (Fin 1) fun p => (pcfgs (F := F) p).Adm) .tc) α) (Q : α → sProp 𝕄) :
    iprop((iprop(boundary (c.tc : Thread nD τ) ∗ ((c.tc : Thread nD τ).loc main_v3 ↦{fullShare} f3) ∗ ((c.tc : Thread nD τ).loc main_v4 ↦{fullShare} tailWrite f3 f4)
                ∗ ∃ W', ⌜∀ p ∈ W', p ∈ W ∨ p.2 = none⌝ ∗ owes (c.tc : Thread nD τ) 0 W')
              -∗ wp frame (wpE (Pipeline.defs (pcfgs (F := F)) defs₀) (Variants.lift 𝒱₀) (c.tc : Thread nD τ) none) Set.univ (k ⟨⟩) Q)
          ∗ boundary (c.tc : Thread nD τ) ∗ ((c.tc : Thread nD τ).loc main_v3 ↦{fullShare} f3) ∗ ((c.tc : Thread nD τ).loc main_v4 ↦{fullShare} f4)
          ∗ owes (c.tc : Thread nD τ) 0 W ∗ levAts L lv
          ∗ Pipeline.cellsGhost (Pipeline.pin (pcfgs (F := F)) adm) EP 0 c ∗ Pipeline.toksInit (Pipeline.pin (pcfgs (F := F)) adm) EP 0 c)
        ⊢ wp frame (wpE (Pipeline.defs (pcfgs (F := F)) defs₀) (Variants.lift 𝒱₀) (c.tc : Thread nD τ) none) Set.univ
            (.op (.customCall (Pipeline.entry 0) ()) k) Q := by
  have h := Pipeline.RegionSeg.wp (pcfgs (F := F)) adm (pdats (U := U) f3 f4 W) (none : HIx 1) cellOf_inj EP defs₀ 𝒱₀ L lv
    (reg L lv f3 f4 W) c none (fun _ hu => by cases hu) k Q
  have hpre : (reg (U := U) L lv f3 f4 W).pre c = iprop(pl c main_v3 f3 ∗ pl c main_v4 f4 ∗ owes (c : Thread nD τ) 0 W) := rfl
  rw [hpre] at h
  iintro ⟨Hk, Hb, H3, H4, HO, HL, HG, HT⟩
  iapply h
  isplitl [Hk]; · iexact Hk
  isplitl [Hb]; · iexact Hb
  isplitl [H3 H4 HO]
  · isplitl [H3]; · iexact H3
    isplitl [H4]; · iexact H4
    iexact HO
  isplitl [HL]; · iexact HL
  isplitl [HG]; · iexact HG
  iexact HT

end Cert.KernelIdeal.Region

end
-- ==== Proof.KiRun.lean ====
/-
  The program's run: every weakly fair execution of @main, the sequencers and the thirty-two tiles terminates,
  nothing faulting, the last array holding the table's first 16906 rows and the two arguments what they held.
-/
import proofs.«208034_g25555055411476_cont_9to1_456_24_alg».proof.Proof.KiMain
import proofs.«208034_g25555055411476_cont_9to1_456_24_alg».proof.Proof.KiFin
import proofs.«208034_g25555055411476_cont_9to1_456_24_alg».proof.Proof.KiRegion

set_option Elab.async false

noncomputable section

namespace Cert.KernelIdeal.Sc

open Cert.KernelIdeal Cert.KernelIdeal.Gen Cert.KernelIdeal.Stripe Cert.KernelIdeal.Tail

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-- The tail call's theorem at this program's ghost state and levels. -/
theorem hreg : RegionWp (F := F) :=
  fun c f3 f4 W _ k Q => Cert.KernelIdeal.Region.region_wp (F := F) EP (K (F := F)).L (K (F := F)).lev c f3 f4 W k Q

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (F0 m) (F1 m)) facts v₀
    (fun q hq => match q with | 0 => nomatch hq)
    (fun q _ => match q with | 0 => tileObl (F0 m) (F1 m) facts)
    (fun q _ => match q with | 0 => SparseCore.Cfg.VecSplit.of_plain (vecSplit (F0 m) (F1 m)))
    m ρ main (fun d => G (F := F) d) (FIN m) (u₀ (F := F)) (sep_elim_left.trans (hu₀ (F0 m) (F1 m))) (hmain m ρ hreg) (fq m) (hfin m) (QC m) (hQ m)

end Cert.KernelIdeal.Sc

end
-- ==== Proof.KbStripe.lean ====
/-
  The stripes of the copy kernel, as sets of array elements and as values. Tile (c, s) owns the 512 columns
  from 1024 s + 512 c on, of every one of the 200 rows; a write of the table's stripe through the result's
  stripe leaves, at every element of that stripe, the table's entry of the same row and column.
-/
import proofs.«208034_g25555055411476_cont_9to1_456_24_alg».proof.Kernel
import proofs.«208034_g25555055411476_cont_9to1_456_24_alg».proof.Proof.Gen.Kernel
import Idealize.ShloMosaic.Lib.ValueIdx
import Idealize.ShloMosaic.Lib.Writes

noncomputable section

namespace Cert.Kernel.Stripe

open Cert.Kernel Cert.Kernel.Gen
open Idealize.ShloMosaic Idealize.ShloMosaic.ValueIdx

abbrev tabV : Memref sig .scVector .hbm S200x16907 .f32 := Memref.whole main_v0_scv
abbrev outV : Memref sig .scVector .hbm S200x16906 .f32 := Memref.whole main_v1_scv

/-- The table's stripe of tile `L`: all 200 rows, the 512 columns from the tile's offset. -/
abbrev tabRect (L : grid0.Coords) : Rect S200x16907 := Rect.unit (s := S200x16907) (k0_off1 L) S200x512.size (k0_off1_inb L)
/-- The result's stripe of tile `L`: the same rows and columns of the result. -/
abbrev outRect (L : grid0.Coords) : Rect S200x16906 := Rect.unit (s := S200x16906) (k0_off2 L) S200x512.size (k0_off2_inb L)
abbrev tabK (L : grid0.Coords) : Memref sig .scVector .hbm S200x512 .f32 := (tabV).slice (tabRect L) (fun _ => rfl)
abbrev outK (L : grid0.Coords) : Memref sig .scVector .hbm S200x512 .f32 := (outV).slice (outRect L) (fun _ => rfl)
abbrev tabSet (L : grid0.Coords) : Finset S200x16907.Idx := (tabK L).view.set
abbrev outSet (L : grid0.Coords) : Finset S200x16906.Idx := (outK L).view.set

/-- The tile's first column. -/
def col0 (L : grid0.Coords) : Nat := 1024 * (L 1).val + 512 * (L 0).val

theorem col0_le (L : grid0.Coords) : col0 L + 512 ≤ 16384 := by
  have h0 : (L 0).val < 2 := (L 0).isLt
  have h1 : (L 1).val < 16 := (L 1).isLt
  unfold col0; omega

theorem mem_outSet (L : grid0.Coords) (i : S200x16906.Idx) : i ∈ outSet L ↔ col0 L ≤ (i 1).val ∧ (i 1).val < col0 L + 512 := by
  show i ∈ ((View.whole main_v1_scv).slice (outRect L)).set ↔ _
  rw [View.set_slice_whole, Rect.mem_set_unit, k0_off2_eq]
  constructor
  · intro h; have := h 1; exact this
  · intro h a
    match a with
    | ⟨0, _⟩ => exact ⟨Nat.zero_le _, by have := idx2_lt0 i; show (i 0).val < 0 + 200; omega⟩
    | ⟨1, _⟩ => exact h

theorem mem_tabSet (L : grid0.Coords) (i : S200x16907.Idx) : i ∈ tabSet L ↔ col0 L ≤ (i 1).val ∧ (i 1).val < col0 L + 512 := by
  show i ∈ ((View.whole main_v0_scv).slice (tabRect L)).set ↔ _
  rw [View.set_slice_whole, Rect.mem_set_unit, k0_off1_eq]
  constructor
  · intro h; have := h 1; exact this
  · intro h a
    match a with
    | ⟨0, _⟩ => exact ⟨Nat.zero_le _, by have := idx2_lt0 i; show (i 0).val < 0 + 200; omega⟩
    | ⟨1, _⟩ => exact h

/-- The result's index `(r, k)` names the table's entry `(r, k)`: the column bound widened by one. -/
abbrev widen (y : S200x16906.Idx) : S200x16907.Idx :=
  ix2 (⟨(y 0).val, idx2_lt0 y⟩ : Fin 200) (⟨(y 1).val, by have := idx2_lt1 y; omega⟩ : Fin 16907)

/-- The table read at the result's indices: the first 16906 columns. -/
def copyCols {α : Type} (f0 : S200x16907.Idx → α) : S200x16906.Idx → α := fun y => f0 (widen y)

variable {F : FTy → Type}

/-- Column `k` of the stripe, row `r`. -/
abbrev inStripe (L : grid0.Coords) (r : Fin 200) (k : Fin 512) : S200x512.Idx := ix2 r k

set_option maxHeartbeats 40000 in
theorem out_emb (L : grid0.Coords) (r : Fin 200) (k : Fin 512) :
    (outRect L).emb (inStripe L r k) = ix2 r (⟨col0 L + k.val, by have := col0_le L; omega⟩ : Fin 16906) := by
  funext a; apply Fin.ext
  rw [Rect.emb_apply]
  show (k0_off2 L) a + 1 * (inStripe L r k a).val = _
  rw [k0_off2_eq]
  match a with
  | ⟨0, _⟩ => show 0 + 1 * r.val = r.val; omega
  | ⟨1, _⟩ => show col0 L + 1 * k.val = col0 L + k.val; omega

set_option maxHeartbeats 40000 in
theorem tab_emb (L : grid0.Coords) (r : Fin 200) (k : Fin 512) :
    (tabRect L).emb (inStripe L r k) = ix2 r (⟨col0 L + k.val, by have := col0_le L; omega⟩ : Fin 16907) := by
  funext a; apply Fin.ext
  rw [Rect.emb_apply]
  show (k0_off1 L) a + 1 * (inStripe L r k a).val = _
  rw [k0_off1_eq]
  match a with
  | ⟨0, _⟩ => show 0 + 1 * r.val = r.val; omega
  | ⟨1, _⟩ => show col0 L + 1 * k.val = col0 L + k.val; omega

set_option maxHeartbeats 80000 in
/-- The result read through a tile's stripe, when it holds the table's first columns, is the table read through the
    tile's stripe of it: the two stripes name the same rows and columns. -/
theorem read_copyCols (L : grid0.Coords) (f0 : S200x16907.Idx → Elt F .f32) :
    (outK L).view.read (Elt F) (copyCols f0) = (tabK L).view.read (Elt F) f0 := by
  funext x
  obtain ⟨r, k, rfl⟩ : ∃ (r : Fin 200) (k : Fin 512), x = ix2 r k := ⟨x 0, x 1, eq_ix2 x⟩
  rw [View.read_apply, View.read_apply]
  show copyCols f0 ((outRect L).emb (inStripe L r k)) = f0 ((tabRect L).emb (inStripe L r k))
  rw [out_emb, tab_emb]
  rfl

end Cert.Kernel.Stripe

end
-- ==== Proof.KbStripeSets.lean ====
/-
  The thirty-two stripes as a family: tile (c, s) owns columns 1024 s + 512 c to 1024 s + 512 c + 511, so two
  different tiles own disjoint stripes and together the stripes are exactly the columns below 16384.
-/
import proofs.«208034_g25555055411476_cont_9to1_456_24_alg».proof.Proof.KbStripe

noncomputable section

namespace Cert.Kernel.Stripe

open Cert.Kernel Cert.Kernel.Gen
open Idealize.ShloMosaic Idealize.ShloMosaic.ValueIdx

/-- The grid point of tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem col0_coordsV (c : Fin (grid0.bound 0)) (s : Fin (grid0.bound 1)) : col0 (coordsV c s) = 1024 * s.val + 512 * c.val := rfl

abbrev Tiles : Type := Fin (grid0.bound 0) × Fin (grid0.bound 1)

theorem tiles_lt (cs : Tiles) : cs.1.val < 2 ∧ cs.2.val < 16 := ⟨cs.1.isLt, cs.2.isLt⟩

theorem tile_eq_of_col0 (cs cs' : Tiles) (h : 1024 * cs.2.val + 512 * cs.1.val = 1024 * cs'.2.val + 512 * cs'.1.val) : cs = cs' := by
  obtain ⟨h1, h2⟩ := tiles_lt cs
  obtain ⟨h1', h2'⟩ := tiles_lt cs'
  exact Prod.ext (Fin.ext (by omega)) (Fin.ext (by omega))

theorem outSet_disjoint (cs cs' : Tiles) (h : cs ≠ cs') : Disjoint (outSet (coordsV cs.1 cs.2)) (outSet (coordsV cs'.1 cs'.2)) := by
  rw [Finset.disjoint_left]
  intro i hi hi'
  rw [mem_outSet, col0_coordsV] at hi hi'
  obtain ⟨h1, h2⟩ := tiles_lt cs
  obtain ⟨h1', h2'⟩ := tiles_lt cs'
  exact h (tile_eq_of_col0 cs cs' (by omega))

theorem tabSet_disjoint (cs cs' : Tiles) (h : cs ≠ cs') : Disjoint (tabSet (coordsV cs.1 cs.2)) (tabSet (coordsV cs'.1 cs'.2)) := by
  rw [Finset.disjoint_left]
  intro i hi hi'
  rw [mem_tabSet, col0_coordsV] at hi hi'
  obtain ⟨h1, h2⟩ := tiles_lt cs
  obtain ⟨h1', h2'⟩ := tiles_lt cs'
  exact h (tile_eq_of_col0 cs cs' (by omega))

/-- The columns the tiles write: all the stripes of the result. -/
def bulkOut : Finset S200x16906.Idx := (Finset.univ : Finset Tiles).biUnion fun cs => outSet (coordsV cs.1 cs.2)
/-- The columns the tiles read: all the stripes of the table. -/
def bulkTab : Finset S200x16907.Idx := (Finset.univ : Finset Tiles).biUnion fun cs => tabSet (coordsV cs.1 cs.2)

/-- The tile that owns column `k < 16384`. -/
def tileOf (k : Nat) (hk : k < 16384) : Tiles :=
  (⟨(k / 512) % 2, Nat.mod_lt _ (by decide)⟩, ⟨k / 1024, by show k / 1024 < 16; omega⟩)

theorem tileOf_spec (k : Nat) (hk : k < 16384) :
    1024 * (tileOf k hk).2.val + 512 * (tileOf k hk).1.val ≤ k ∧ k < 1024 * (tileOf k hk).2.val + 512 * (tileOf k hk).1.val + 512 := by
  show 1024 * (k / 1024) + 512 * ((k / 512) % 2) ≤ k ∧ k < 1024 * (k / 1024) + 512 * ((k / 512) % 2) + 512
  omega

theorem mem_bulkOut (i : S200x16906.Idx) : i ∈ bulkOut ↔ (i 1).val < 16384 := by
  unfold bulkOut
  rw [Finset.mem_biUnion]
  constructor
  · rintro ⟨cs, -, hi⟩
    rw [mem_outSet] at hi
    have := col0_le (coordsV cs.1 cs.2); omega
  · intro hk
    refine ⟨tileOf (i 1).val hk, Finset.mem_univ _, ?_⟩
    rw [mem_outSet, col0_coordsV]
    exact tileOf_spec _ hk

theorem mem_bulkTab (i : S200x16907.Idx) : i ∈ bulkTab ↔ (i 1).val < 16384 := by
  unfold bulkTab
  rw [Finset.mem_biUnion]
  constructor
  · rintro ⟨cs, -, hi⟩
    rw [mem_tabSet] at hi
    have := col0_le (coordsV cs.1 cs.2); omega
  · intro hk
    refine ⟨tileOf (i 1).val hk, Finset.mem_univ _, ?_⟩
    rw [mem_tabSet, col0_coordsV]
    exact tileOf_spec _ hk

end Cert.Kernel.Stripe

end
-- ==== Proof.KbSc.lean ====
/-
  The vector-subcore copy kernel, one tile's task. Tile (c, s) of the thirty-two moves the stripe of 512 columns
  starting at column 1024 s + 512 c of the transposed table into its own scratch and from there into the same
  columns of the result: afterwards the result's stripe holds the table's stripe, entry by entry.
-/
import proofs.«208034_g25555055411476_cont_9to1_456_24_alg».proof.Defs
import Idealize.ShloMosaic.Lib.SparseCore.Launch
import Idealize.ShloMosaic.Lib.StableHlo.Run
import Idealize.ShloMosaic.Lib.Pipeline.Kit
import Idealize.ShloMosaic.Lib.Tactic
import proofs.«208034_g25555055411476_cont_9to1_456_24_alg».proof.Proof.Gen.Kernel
import proofs.«208034_g25555055411476_cont_9to1_456_24_alg».proof.Proof.Gen.Kernel.Skeleton
import proofs.«208034_g25555055411476_cont_9to1_456_24_alg».proof.Proof.Gen.Kernel.Launch
import proofs.«208034_g25555055411476_cont_9to1_456_24_alg».proof.Proof.KbStripe
import proofs.«208034_g25555055411476_cont_9to1_456_24_alg».proof.Proof.KbStripeSets
import proofs.«208034_g25555055411476_cont_9to1_456_24_alg».proof.Proof.LibWholeWrite

noncomputable section

namespace Cert.Kernel.Sc

open Cert.Kernel Cert.Kernel.Gen Cert.Kernel.Stripe

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-! ## The arrays and the stripes -/

variable (d : Dev nD)

abbrev tabLoc : Loc nD τ sig := (SparseCore.T d).loc main_v0
abbrev outLoc : Loc nD τ sig := (SparseCore.T d).loc main_v1
abbrev scrV : Memref sig .scVector .vmem S200x512 .f32 := Memref.whole cc0_scratch0

abbrev cV (L : grid0.Coords) : Fin τ.nSC := (L 0).castLE hcore0
abbrev jV (L : grid0.Coords) : Fin τ.nSub := (L 1).castLE hsub0

variable [FloatOps F]

/-- What a tile is handed: its stripe of the table and its stripe of the result, at the contents `f0`, `f1`. -/
def stripePre (L : grid0.Coords) (f0 : Buf (Elt F) (tabLoc d)) (f1 : Buf (Elt F) (outLoc d)) : sProp 𝕄 :=
  iprop((tabLoc d ↦[tabSet L]{fullShare} f0) ∗ (outLoc d ↦[outSet L]{fullShare} f1))
/-- What it hands back: the table's stripe as it was, the result's stripe holding the table's entries. -/
def stripePost (L : grid0.Coords) (f0 : Buf (Elt F) (tabLoc d)) : sProp 𝕄 :=
  iprop((tabLoc d ↦[tabSet L]{fullShare} f0) ∗ (outLoc d ↦[outSet L]{fullShare} (copyCols f0 : Buf (Elt F) (outLoc d))))

section Tile
variable (L : grid0.Coords)

abbrev cAcell : GSem nD τ sig := (V d (cV L) (jV L), .dma cc0_scoped0.sem)
abbrev cBcell : GSem nD τ sig := (V d (cV L) (jV L), .dma cc0_scoped1.sem)

theorem ownSems0_V :
    (ownSems0 (V d (cV L) (jV L)) : sProp 𝕄)
      = iprop(semVal (cAcell d L) 0 ∗ semVal (cBcell d L) 0
          ∗ bigSep (((ownCells (V d (cV L) (jV L))).erase (cAcell d L)).erase (cBcell d L)) fun g => semVal g 0) := by
  unfold SparseCore.Cfg.ownSems0
  rw [SparseCore.bigSep_erase' ((mem_ownCells (g := cAcell d L)).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc0_scoped1.sem : SemLoc sig).isScoped .scVector = true; decide⟩⟩)]

theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

theorem pts_tabK (f : Buf (Elt F) (tabLoc d)) :
    ((tabK L).view.loc (V d (cV L) (jV L)) ↦[(tabK L).view.set]{fullShare} f : sProp 𝕄) = tabLoc d ↦[tabSet L]{fullShare} f := rfl
theorem pts_outK (f : Buf (Elt F) (outLoc d)) :
    ((outK L).view.loc (V d (cV L) (jV L)) ↦[(outK L).view.set]{fullShare} f : sProp 𝕄) = outLoc d ↦[outSet L]{fullShare} f := rfl
theorem pts_scr (f : Buf (Elt F) ((V d (cV L) (jV L)).loc cc0_scratch0)) :
    ((scrV).view.loc (V d (cV L) (jV L)) ↦{fullShare} f : sProp 𝕄) = (V d (cV L) (jV L)).loc cc0_scratch0 ↦{fullShare} f := rfl

/-- What the second copy lands: the scratch, which holds the table's stripe whatever it held before, written
    through the result's stripe leaves that stripe at the table's entries. -/
theorem out_landed (f0 : Buf (Elt F) (tabLoc d)) (f1 : Buf (Elt F) (outLoc d)) (fs : Buf (Elt F) ((V d (cV L) (jV L)).loc cc0_scratch0)) :
    ((outK L).view.loc (V d (cV L) (jV L)) ↦[(outK L).view.set]{fullShare}
        (outK L).view.writes (Elt F) f1 [⟨Rect.whole S200x512,
          ReadAs.same.apply (View.read (Elt F) scrV.view (View.write (Elt F) scrV.view fs
            (ReadAs.same.apply (View.read (Elt F) (tabK L).view f0)) Finset.univ))⟩] : sProp 𝕄)
      = outLoc d ↦[outSet L]{fullShare} (copyCols f0 : Buf (Elt F) (outLoc d)) := by
  refine (View.pointsTo_writes_whole_congr (V d (cV L) (jV L)) (outK L).view fullShare f1 (copyCols f0) _ ?_).trans (pts_outK (F := F) d L _)
  rw [read_copyCols]
  show _ = View.read (Elt F) scrV.view (View.write (Elt F) scrV.view fs (View.read (Elt F) (tabK L).view f0) Finset.univ)
  rw [View.read_write_univ]

/-- One tile's task: its stripe of the table read into the scratch, the scratch written to its stripe of the result. -/
theorem tile_body (hF : (K (F := F)).Facts) (f0 : Buf (Elt F) (tabLoc d)) (f1 : Buf (Elt F) (outLoc d))
    (O : CellTallies nD τ sig (HIx 1)) (W : Waits sig (HIx 1)) (hO : ∀ g, O g none = 0) :
    (iprop(levAts (K (F := F)).L (K (F := F)).lev ∗ emp ∗ stripePre d L f0 f1
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_bulk_copy L tabV (Memref.isWhole_whole _) outV (Memref.isWhole_whole _) scrV (Memref.isWhole_whole _) cc0_scoped0 cc0_scoped1)
          fun _ => (iprop(stripePost d L f0 ∗ scopedBufs (V d (cV L) (jV L)) ∗ scopedSems0 (V d (cV L) (jV L))
            ∗ ∃ W', ⌜∀ p ∈ W', p ∈ W ∨ p.2 = none⌝ ∗ owes (V d (cV L) (jV L)) O W') : sProp 𝕄) := by
  simp only [cc0__sc_bulk_copy_eq_skeleton]; unfold cc0__sc_bulk_copy_skel
  rw [(K (F := F)).scopedBufs_V hF d (cV L) (jV L), SparseCore.Cfg.scopedSems0_V (Val := Elt F) d (cV L) (jV L), ownSems0_V, ownBufs_V]
  unfold stripePre stripePost
  iintro ⟨#Hlv, -, ⟨Ht, Ho⟩, ⟨⟨%fs, Hs⟩, Hbufs⟩, ⟨HsemA, HsemB, Hsems⟩, HO⟩
  ihave Hmw := ((K (F := F)).mayWaits_none (thr := V d (cV L) (jV L)) hO) $$ Hlv
  ihave Ht' := (Entails.of_eq (pts_tabK (F := F) d L _).symm) $$ Ht
  ihave Ho' := (Entails.of_eq (pts_outK (F := F) d L _).symm) $$ Ho
  ihave Hs' := (Entails.of_eq (pts_scr (F := F) d L _).symm) $$ Hs
  sl_exec
  sl_unfold_run_names
  sl_step
  isplitl [Ht' Ho']
  · isplitl [Ht']
    · iapply (Entails.of_eq (pts_tabK (F := F) d L _)); iexact Ht'
    · iapply (Entails.of_eq (out_landed (F := F) d L f0 f1 fs)); iexact Ho'
  isplitl [Hs' Hbufs]
  · isplitl [Hs']
    · iexists _; iapply (Entails.of_eq (pts_scr (F := F) d L _)); iexact Hs'
    · iexact Hbufs
  isplitl [HsemA HsemB Hsems]
  · isplitl [HsemA]; · iexact HsemA
    isplitl [HsemB]; · iexact HsemB
    iexact Hsems
  iexists (insert (SemLoc.dma cc0_scoped1.sem, (default : HIx 1)) (insert (SemLoc.dma cc0_scoped0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

end Tile

/-! ## What the handshakes carry -/

/-- Core `c` of the call's grid, as a grid coordinate. -/
abbrev cG (q : Fin 1) (c : Fin ((K (F := F)).nCore q)) : Fin (grid0.bound 0) := ⟨c.val, lt_of_lt_of_le c.isLt (Gen.hscCore q)⟩
/-- Tile `i` of the call's grid, as a grid coordinate. -/
abbrev sG (q : Fin 1) (i : Fin ((K (F := F)).nSub q)) : Fin (grid0.bound 1) := ⟨i.val, lt_of_lt_of_le i.isLt (Gen.hscSub q)⟩

variable (f0 : (d : Dev nD) → Buf (Elt F) (tabLoc d)) (f1 : (d : Dev nD) → Buf (Elt F) (outLoc d))

/-- The call hands each core its sixteen tiles' stripes of the table and of the result, each tile its own, and brings
    them back with the result's stripes holding the table's entries. -/
def P : (K (F := F)).Pay (nD := nD) (Val := Elt F) (Name := ℕ) (U := UU) where
  st := fun q d c => bigSep Finset.univ fun s : Fin (grid0.bound 1) => stripePre d (coordsV (cG q c) s) (f0 d) (f1 d)
  dn := fun q d c => bigSep Finset.univ fun s : Fin (grid0.bound 1) => stripePost d (coordsV (cG q c) s) (f0 d)
  go := fun q d c i => stripePre d (coordsV (cG q c) (sG q i)) (f0 d) (f1 d)
  td := fun q d c i => stripePost d (coordsV (cG q c) (sG q i)) (f0 d)
  x := fun _ _ => iprop(emp)

instance P_storable : (P (F := F) f0 f1).IsStorable where
  st _ d c := by unfold P stripePre; infer_instance
  dn _ d c := by unfold P stripePost; infer_instance
  go _ _ _ _ := by unfold P stripePre; infer_instance
  td _ _ _ _ := by unfold P stripePost; infer_instance

/-! ## The launch theorem's obligations -/

theorem defs₀_vector (c : Fin τ.nSC) (s : Fin τ.nSub) :
    defs₀ (F := F) (.scVector c s) 0 ()
      = SparseCore.onTile hcore0 hsub0 (fun c s => cc0__sc_bulk_copy (coordsV c s)
          tabV (Memref.isWhole_whole _) outV (Memref.isWhole_whole _) scrV (Memref.isWhole_whole _) cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P f0 f1) v₀ 0 := by
  intro d c i O W hO _ _
  simp only [show (P f0 f1).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (f0 d) (f1 d) O W hO).trans (wp_mono frame _ _ fun _ => obl_post)

theorem bigSep_tasks (Φ : Fin (grid0.bound 1) → sProp 𝕄) :
    (bigSep Finset.univ fun i : Fin ((K (F := F)).nSub 0) => Φ (sG 0 i)) = bigSep Finset.univ Φ :=
  bigSep_congr fun _ _ => congrArg Φ (Fin.ext rfl)

theorem vecSplit : (K (F := F)).VecSplit' (P f0 f1) 0 := by
  intro d c
  show (bigSep Finset.univ fun s : Fin (grid0.bound 1) => stripePre d (coordsV (cG 0 c) s) (f0 d) (f1 d)) ⊢ |={Set.univ}=> iprop(
      (bigSep Finset.univ fun i : Fin ((K (F := F)).nSub 0) => stripePre d (coordsV (cG 0 c) (sG 0 i)) (f0 d) (f1 d))
      ∗ ((bigSep Finset.univ fun i : Fin ((K (F := F)).nSub 0) => stripePost d (coordsV (cG 0 c) (sG 0 i)) (f0 d))
          -∗ bigSep Finset.univ fun s : Fin (grid0.bound 1) => stripePost d (coordsV (cG 0 c) s) (f0 d)))
  rw [bigSep_tasks (F := F) (fun s => stripePre d (coordsV (cG 0 c) s) (f0 d) (f1 d)),
    bigSep_tasks (F := F) (fun s => stripePost d (coordsV (cG 0 c) s) (f0 d))]
  iintro H; imodintro
  isplitl [H]; · iexact H
  iintro H; iexact H

end Cert.Kernel.Sc

end
-- ==== Proof.KbCall.lean ====
/-
  Around the copy kernel's call: the whole table and the whole result are dealt into the tiles' stripes (and a
  remainder, the columns from 16384 on, that no tile touches) and joined again afterwards, the result then holding
  the table's entries on every column below 16384 and what it held before on the others.
-/
import proofs.«208034_g25555055411476_cont_9to1_456_24_alg».proof.Proof.KbSc

noncomputable section

namespace Cert.Kernel.Sc

open Cert.Kernel Cert.Kernel.Gen Cert.Kernel.Stripe

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD)

/-- A family over the cores of the call and the tiles of each is one over the thirty-two tiles. -/
theorem bigSep_cores (Φ : Tiles → sProp 𝕄) :
    (bigSep Finset.univ fun c : Fin ((K (F := F)).nCore 0) => bigSep Finset.univ fun s : Fin (grid0.bound 1) => Φ (cG 0 c, s))
      = bigSep Finset.univ Φ := by
  rw [bigSep_univ_prod Φ]
  exact bigSep_congr fun _ _ => rfl

theorem tab_bulk (f : Buf (Elt F) (tabLoc d)) :
    (bigSep Finset.univ fun cs : Tiles => (tabLoc d ↦[tabSet (coordsV cs.1 cs.2)]{fullShare} f : sProp 𝕄)) = tabLoc d ↦[bulkTab]{fullShare} f :=
  (pointsTo_biUnion Finset.univ (ℓ := tabLoc d) (fun cs : Tiles => tabSet (coordsV cs.1 cs.2)) (fun cs _ cs' _ h => tabSet_disjoint cs cs' h)).symm

theorem out_bulk (f : Buf (Elt F) (outLoc d)) :
    (bigSep Finset.univ fun cs : Tiles => (outLoc d ↦[outSet (coordsV cs.1 cs.2)]{fullShare} f : sProp 𝕄)) = outLoc d ↦[bulkOut]{fullShare} f :=
  (pointsTo_biUnion Finset.univ (ℓ := outLoc d) (fun cs : Tiles => outSet (coordsV cs.1 cs.2)) (fun cs _ cs' _ h => outSet_disjoint cs cs' h)).symm

variable (f0 : (d : Dev nD) → Buf (Elt F) (tabLoc d)) (f1 : (d : Dev nD) → Buf (Elt F) (outLoc d))

/-- What the call takes for its cores: the table's and the result's columns below 16384. -/
theorem st0_eq : (bigSep Finset.univ fun c : Fin ((K (F := F)).nCore 0) => (P f0 f1).st 0 d c)
    = iprop((tabLoc d ↦[bulkTab]{fullShare} f0 d) ∗ (outLoc d ↦[bulkOut]{fullShare} f1 d)) := by
  show (bigSep Finset.univ fun c : Fin ((K (F := F)).nCore 0) => bigSep Finset.univ fun s : Fin (grid0.bound 1) =>
      stripePre d (coordsV (cG 0 c) s) (f0 d) (f1 d)) = _
  rw [bigSep_cores (F := F) (fun cs => stripePre d (coordsV cs.1 cs.2) (f0 d) (f1 d))]
  unfold stripePre
  rw [bigSep_sep', tab_bulk, out_bulk]

/-- What it hands back: the same columns, the result's holding the table's entries. -/
theorem dn0_eq : (bigSep Finset.univ fun c : Fin ((K (F := F)).nCore 0) => (P f0 f1).dn 0 d c)
    = iprop((tabLoc d ↦[bulkTab]{fullShare} f0 d) ∗ (outLoc d ↦[bulkOut]{fullShare} (copyCols (f0 d) : Buf (Elt F) (outLoc d)))) := by
  show (bigSep Finset.univ fun c : Fin ((K (F := F)).nCore 0) => bigSep Finset.univ fun s : Fin (grid0.bound 1) =>
      stripePost d (coordsV (cG 0 c) s) (f0 d)) = _
  rw [bigSep_cores (F := F) (fun cs => stripePost d (coordsV cs.1 cs.2) (f0 d))]
  unfold stripePost
  rw [bigSep_sep', tab_bulk, out_bulk]

/-- The result after the call: the table's entries on the columns below 16384, the old contents elsewhere. -/
def afterCall (g0 : Buf (Elt F) (tabLoc d)) (g1 : Buf (Elt F) (outLoc d)) : Buf (Elt F) (outLoc d) :=
  bulkOut.piecewise (copyCols g0 : Buf (Elt F) (outLoc d)) g1

theorem afterCall_lt (g0 : Buf (Elt F) (tabLoc d)) (g1 : Buf (Elt F) (outLoc d)) (y : S200x16906.Idx) (h : (y 1).val < 16384) :
    afterCall d g0 g1 y = copyCols g0 y :=
  Finset.piecewise_eq_of_mem _ _ _ ((mem_bulkOut y).mpr h)

/-- The two whole arrays, dealt: the call's part and the part that stays. -/
theorem call_split :
    (iprop((tabLoc d ↦{fullShare} f0 d) ∗ (outLoc d ↦{fullShare} f1 d)) : sProp 𝕄)
      ⊢ iprop((bigSep Finset.univ fun c : Fin ((K (F := F)).nCore 0) => (P f0 f1).st 0 d c)
          ∗ ((tabLoc d ↦[Finset.univ \ bulkTab]{fullShare} f0 d) ∗ (outLoc d ↦[Finset.univ \ bulkOut]{fullShare} f1 d))) := by
  rw [st0_eq]
  iintro ⟨Ht, Ho⟩
  ihave Ht' := (pointsTo_split_subset (Finset.subset_univ bulkTab)).1 $$ Ht
  ihave Ho' := (pointsTo_split_subset (Finset.subset_univ bulkOut)).1 $$ Ho
  icases Ht' with ⟨Ht1, Ht2⟩
  icases Ho' with ⟨Ho1, Ho2⟩
  isplitl [Ht1 Ho1]
  · isplitl [Ht1]; · iexact Ht1
    iexact Ho1
  · isplitl [Ht2]; · iexact Ht2
    iexact Ho2

/-- And joined again after the call. -/
theorem call_join :
    (iprop((bigSep Finset.univ fun c : Fin ((K (F := F)).nCore 0) => (P f0 f1).dn 0 d c)
        ∗ ((tabLoc d ↦[Finset.univ \ bulkTab]{fullShare} f0 d) ∗ (outLoc d ↦[Finset.univ \ bulkOut]{fullShare} f1 d))) : sProp 𝕄)
      ⊢ iprop((tabLoc d ↦{fullShare} f0 d) ∗ (outLoc d ↦{fullShare} afterCall d (f0 d) (f1 d))) := by
  rw [dn0_eq]
  iintro ⟨⟨Ht1, Ho1⟩, ⟨Ht2, Ho2⟩⟩
  isplitl [Ht1 Ht2]
  · iapply (pointsTo_split_subset (Finset.subset_univ bulkTab)).2
    isplitl [Ht1]; · iexact Ht1
    iexact Ht2
  · unfold afterCall
    iapply (pointsTo_join_subset (Finset.subset_univ bulkOut))
    isplitl [Ho1]; · iexact Ho1
    iexact Ho2

end Cert.Kernel.Sc

end
-- ==== Proof.KbElem.lean ====
/-
  The launch element of the program's ghost state, and what it funds: the SparseCore handshakes' rounds, handed on as
  they are; the TensorCore pipeline's staging cells' rounds, turned into each device's cells' ghost state and duty
  tokens; the transfers' counters, not used.
-/
import proofs.«208034_g25555055411476_cont_9to1_456_24_alg».proof.Proof.KbSc
import proofs.«208034_g25555055411476_cont_9to1_456_24_alg».proof.Proof.Gen.Kernel.Launch

noncomputable section

namespace Cert.Kernel.Sc

open Cert.Kernel Cert.Kernel.Gen Cert.Kernel.Stripe

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The pipeline has no prefetched table: its configuration is admitted as it stands. -/
abbrev adm : (p : Fin 1) → (pcfgs (F := F) p).Adm := fun p => (cfgs p).toPCfg_adm

/-- The launch element: the handshakes' rounds at their cells, the pipeline's rounds at its staging cells with the
    launch's duty tokens, the unit of the counters. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj),
      (1 : Counters)))

/-- What the program's proof starts from on device `d`: the pipeline's cells' ghost state and duty tokens. -/
def G (d : Dev nD) : sProp 𝕄 :=
  iprop(Pipeline.cellsGhost (Pipeline.pin (pcfgs (F := F)) adm) EP 0 d ∗ Pipeline.toksInit (Pipeline.pin (pcfgs (F := F)) adm) EP 0 d)

/-- With one pipeline, a device's share is that pipeline's. -/
theorem G_eq (d : Dev nD) :
    (G (F := F) d : sProp 𝕄)
      = iprop((bigSep Finset.univ fun p : Fin 1 => Pipeline.cellsGhost (Pipeline.pin (pcfgs (F := F)) adm) EP p d)
          ∗ (bigSep Finset.univ fun p : Fin 1 => (Pipeline.toksInit (Pipeline.pin (pcfgs (F := F)) adm) EP p d : sProp 𝕄))) := by
  unfold G
  rw [bigSep_univ_of_subsingleton (0 : Fin 1), bigSep_univ_of_subsingleton (0 : Fin 1)]

/-- Every device's share, all together: the ghost states of all devices and pipelines beside their duty tokens. -/
theorem bigSep_G :
    (bigSep Finset.univ fun d : Dev nD => (G (F := F) d : sProp 𝕄))
      = iprop((bigSep Finset.univ fun c : Dev nD => bigSep Finset.univ fun p : Fin 1 =>
            Pipeline.cellsGhost (Pipeline.pin (pcfgs (F := F)) adm) EP p c)
          ∗ (bigSep Finset.univ fun c : Dev nD => bigSep Finset.univ fun p : Fin 1 =>
            (Pipeline.toksInit (Pipeline.pin (pcfgs (F := F)) adm) EP p c : sProp 𝕄))) := by
  refine (bigSep_congr fun d _ => G_eq (F := F) d).trans ?_
  exact bigSep_sep' _ _ _

/-- The right half of the launch element, owned, gives the pipeline's rounds owned through their embedding; the
    counters' unit is dropped. -/
theorem own_pipeline (b : UP) (c : Counters) : (BI.own (embR (b, c)) : sProp 𝕄) ⊢ BI.own (EP b) := by
  unfold EP
  exact (own_pair_emb (embR : Emb (UP × Counters) 𝕄) b c).trans sep_elim_left

/-- Nothing rides with the threads beside the handshakes. -/
theorem bigSep_emp'' {I : Type} (s : Finset I) : (bigSep s fun _ => iprop(emp)) = (iprop(emp) : sProp 𝕄) := bigSep_emp_const s

/-- THE LAUNCH: the element owned gives the handshakes' rounds, every device's pipeline ghost state and duty tokens,
    and nothing more for any thread. -/
theorem hu₀ (f0 : (d : Dev nD) → Buf (Elt F) (tabLoc d)) (f1 : (d : Dev nD) → Buf (Elt F) (outLoc d)) :
    (ownU (u₀ (F := F)) : sProp 𝕄) ⊢ |={Set.univ}=> iprop(BI.own (EH (initOf (K (F := F)).hsCells (K (F := F)).hsToks))
        ∗ (bigSep Finset.univ fun d : Dev nD => G (F := F) d)
        ∗ bigSep Finset.univ fun thr : Thread nD τ => bigSep Finset.univ fun q : Fin 1 => (P f0 f1).x q thr) := by
  unfold u₀
  iintro Hu
  ihave H := (ownU_pair _ _) $$ Hu
  icases H with ⟨HH, HR⟩
  ihave HP := (own_pipeline (F := F) _ _) $$ HR
  imod (Pipeline.fund_ghost (Pipeline.pin (pcfgs (F := F)) adm) EP cellOf_inj) $$ HP with ⟨Hg, Ht⟩
  imodintro
  isplitl [HH]; · iexact HH
  isplitl [Hg Ht]
  · iapply (Entails.of_eq (bigSep_G (F := F)).symm)
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp'' _, bigSep_emp'']]
  iempintro

end Cert.Kernel.Sc

end
-- ==== Proof.KbTail.lean ====
/-
  What the tail call leaves in the result: from column 16384 on, the padded tail's columns from 0 on; before
  that, what the result held.
-/
import proofs.«208034_g25555055411476_cont_9to1_456_24_alg».proof.Kernel
import Idealize.ShloMosaic.Lib.ValueIdx

noncomputable section

namespace Cert.Kernel.Tail

open Cert.Kernel
open Idealize.ShloMosaic Idealize.ShloMosaic.ValueIdx

/-- The result after the tail call: columns from 16384 on are the tail block's columns from 0 on, the others are kept. -/
def tailWrite {α : Type} (f3 : S200x1024.Idx → α) (f4 : S200x16906.Idx → α) : S200x16906.Idx → α :=
  fun y => if h : 16384 ≤ (y 1).val then
      f3 (ix2 (⟨(y 0).val, idx2_lt0 y⟩ : Fin 200) (⟨(y 1).val - 16384, by have := idx2_lt1 y; omega⟩ : Fin 1024))
    else f4 y

theorem tailWrite_lt {α : Type} (f3 : S200x1024.Idx → α) (f4 : S200x16906.Idx → α) (y : S200x16906.Idx) (h : (y 1).val < 16384) :
    tailWrite f3 f4 y = f4 y := dif_neg (by omega)

theorem tailWrite_ge {α : Type} (f3 : S200x1024.Idx → α) (f4 : S200x16906.Idx → α) (y : S200x16906.Idx) (h : 16384 ≤ (y 1).val) :
    tailWrite f3 f4 y = f3 (ix2 (⟨(y 0).val, idx2_lt0 y⟩ : Fin 200) (⟨(y 1).val - 16384, by have := idx2_lt1 y; omega⟩ : Fin 1024)) := dif_pos h

end Cert.Kernel.Tail

end
-- ==== Proof.KbValue.lean ====
/-
  The kernel-side program's result as a function of the table, read at an index.

  The table is transposed, so that its rows become columns. The columns below 16384 of the result are the transposed
  table's. The columns from 16384 on come from the transposed table's columns 16384 … 16906, cut out, padded on the
  right up to 1024 columns, and written over the result from column 16384 on: the result has 16906 columns, so only the
  first 522 columns of that block land in it, all of them inside the cut and none in the padding. Transposed back, entry
  (i, j) of the result is the table's entry (i, j).
-/
import proofs.«208034_g25555055411476_cont_9to1_456_24_alg».proof.Kernel
import proofs.«208034_g25555055411476_cont_9to1_456_24_alg».proof.Proof.Gen.Kernel
import proofs.«208034_g25555055411476_cont_9to1_456_24_alg».proof.Proof.Spec
import proofs.«208034_g25555055411476_cont_9to1_456_24_alg».proof.Proof.KbTail
import proofs.«208034_g25555055411476_cont_9to1_456_24_alg».proof.Proof.KbStripe
import Idealize.ShloMosaic.Lib.ValueLayout
import Idealize.ShloMosaic.Lib.KernelVsHost

noncomputable section

namespace Cert.Kernel.Value

open Cert.Kernel Cert.Kernel.Gen
open Idealize.ShloMosaic Idealize.ShloMosaic.ValueIdx

variable {F : FTy → Type} [FloatOps F] [Facts]

/-- The table transposed: entry `(r, k)` is the table's entry `(k, r)`. -/
def f0 (tab : FVec F S16907x200 .f32) : FVec F S200x16907 .f32 :=
  transpose S200x16907 [1, 0] tab Facts₀.transposes_S16907x200_S200x16907_1_0

/-- The tail block: the transposed table's columns 16384 … 16906, then 501 columns of the padding value. -/
def f3 (tab : FVec F S16907x200 .f32) : FVec F S200x1024 .f32 :=
  pad S200x1024 ![0, 0] ![0, 501] ![0, 0]
    (extractStridedSlice S200x523 ![0, 16384] (f0 tab) Facts₀.slices_S200x16907_S200x523_0_16384)
    (sitofp .f32 (constantI S_ 32 0#32)) Facts₀.pads_S200x523_S200x1024_000_05010 Facts₀.h_S_

/-- The transposed table at `(r, k)` is the table at `(k, r)`. -/
theorem f0_apply (tab : FVec F S16907x200 .f32) (r : Fin 200) (k : Fin 16907) : f0 tab (ix2 r k) = tab (ix2 k r) := by
  unfold f0
  exact transpose_ix2_apply (a := 16907) (b := 200) tab Facts₀.transposes_S16907x200_S200x16907_1_0 r k

/-- The tail block at a column `k < 523` is inside the cut: the table's entry `(16384 + k, r)`. -/
theorem f3_apply (tab : FVec F S16907x200 .f32) (r : Fin 200) (k : Fin 1024) (hk : k.val < 523) :
    f3 tab (ix2 r k) = tab (ix2 (⟨16384 + k.val, by omega⟩ : Fin 16907) r) := by
  unfold f3
  refine (pad_apply_of_inside (![0, 0] : Fin 2 → ℕ) ![0, 501] ![0, 0] _ _ Facts₀.pads_S200x523_S200x1024_000_05010 Facts₀.h_S_
    (ix2 r k) (ix2 r (⟨k.val, hk⟩ : Fin 523)) fun a => ?_).trans ?_
  · match a with
    | ⟨0, _⟩ => show r.val = 0 + r.val * (0 + 1); omega
    | ⟨1, _⟩ => show k.val = 0 + k.val * (0 + 1); omega
  refine (extractStridedSlice_apply (![0, 16384] : Fin 2 → ℕ) (f0 tab) Facts₀.slices_S200x16907_S200x523_0_16384
    (ix2 r (⟨k.val, hk⟩ : Fin 523)) (ix2 r (⟨16384 + k.val, by omega⟩ : Fin 16907)) fun a => ?_).trans ?_
  · match a with
    | ⟨0, _⟩ => show r.val = 0 + r.val; omega
    | ⟨1, _⟩ => rfl
  exact f0_apply tab r _

/-- The result after the tail's write, at a column from 16384 on: the tail block's column that many further left. -/
theorem tailWrite_ix2_ge {α : Type} (t3 : S200x1024.Idx → α) (g1 : S200x16906.Idx → α) (r : Fin 200) (k : Fin 16906)
    (h : 16384 ≤ k.val) : Tail.tailWrite t3 g1 (ix2 r k) = t3 (ix2 r (⟨k.val - 16384, by omega⟩ : Fin 1024)) :=
  Tail.tailWrite_ge t3 g1 (ix2 r k) h

/-- The result after the tail's write, at a column below 16384: what was there. -/
theorem tailWrite_ix2_lt {α : Type} (t3 : S200x1024.Idx → α) (g1 : S200x16906.Idx → α) (r : Fin 200) (k : Fin 16906)
    (h : k.val < 16384) : Tail.tailWrite t3 g1 (ix2 r k) = g1 (ix2 r k) :=
  Tail.tailWrite_lt t3 g1 (ix2 r k) h

/-- The table's first columns read at `(r, k)`: the table's entry there. -/
theorem copyCols_ix2 {α : Type} (t0 : S200x16907.Idx → α) (r : Fin 200) (k : Fin 16906) :
    Stripe.copyCols t0 (ix2 r k) = t0 (ix2 r (⟨k.val, by omega⟩ : Fin 16907)) := rfl

/-- THE KERNEL-SIDE RESULT: with the columns below 16384 holding the transposed table's, the tail's write and the
    transpose back leave the first 16906 rows of the table. -/
theorem final_eq (tab : FVec F S16907x200 .f32) (g1 : FVec F S200x16906 .f32)
    (hg : ∀ y : S200x16906.Idx, (y 1).val < 16384 → g1 y = Stripe.copyCols (f0 tab) y) :
    transpose S16906x200 [1, 0] (Tail.tailWrite (f3 tab) g1) Facts₀.transposes_S200x16906_S16906x200_1_0
      = Cert.Spec.rows tab := by
  funext y
  obtain ⟨i, j, rfl⟩ : ∃ (i : Fin 16906) (j : Fin 200), y = ix2 i j := ⟨y 0, y 1, eq_ix2 y⟩
  rw [Cert.Spec.rows_ix2]
  refine (transpose_ix2_apply (a := 200) (b := 16906) (Tail.tailWrite (f3 tab) g1)
    Facts₀.transposes_S200x16906_S16906x200_1_0 i j).trans ?_
  by_cases h : 16384 ≤ i.val
  · have hi := i.isLt
    rw [tailWrite_ix2_ge _ _ j i h, f3_apply tab j _ (by show i.val - 16384 < 523; omega)]
    refine congrArg tab (congrArg (fun q : Fin 16907 => ix2 q j) (Fin.ext ?_))
    show 16384 + (i.val - 16384) = i.val
    omega
  · have h' : i.val < 16384 := by omega
    rw [tailWrite_ix2_lt _ _ j i h', hg (ix2 j i) h', copyCols_ix2, f0_apply]

end Cert.Kernel.Value

end
-- ==== Proof.KbMainDefs.lean ====
/-
  @main on the TensorCore, the vocabulary: its ten arrays, its seven host operations, and what every array holds
  after each stretch of it — the table transposed; the copy kernel's call, which fills the result's columns below
  16384 with the transposed table's; the tail sliced off and padded to a block; the result copied; the tail call,
  which writes the block over the columns from 16384 on; the result transposed back.
-/
import proofs.«208034_g25555055411476_cont_9to1_456_24_alg».proof.Proof.KbCall
import proofs.«208034_g25555055411476_cont_9to1_456_24_alg».proof.Proof.KbElem
import proofs.«208034_g25555055411476_cont_9to1_456_24_alg».proof.Proof.KbTail
import proofs.«208034_g25555055411476_cont_9to1_456_24_alg».proof.Proof.KbValue

noncomputable section

namespace Cert.Kernel.Sc

open Cert.Kernel Cert.Kernel.Gen Cert.Kernel.Stripe Cert.Kernel.Tail

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers and the operations -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev c' : DevRef τ sig := Proc.devRef .tc (main_c : Ref sig .tc)
abbrev cv' : DevRef τ sig := Proc.devRef .tc (main_call0_v0 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

/-- The TensorCore's unscoped buffers: @main's ten arrays. -/
abbrev S10 : Finset (DevRef τ sig) := {a0', a1', v0', v1', v2', c', cv', v3', v4', v5'}

abbrev opT : HloOp τ sig (Elt F) :=
  StableHlo.unary main_arg1 main_v0 ((transpose S200x16907 [1, 0] · Facts₀.transposes_S16907x200_S200x16907_1_0) : (⟨S16907x200, .f32⟩ : BufTy).Contents (Elt F) → (⟨S200x16907, .f32⟩ : BufTy).Contents (Elt F))
abbrev opS : HloOp τ sig (Elt F) :=
  StableHlo.unary main_v0 main_v2 ((extractStridedSlice S200x523 ![0, 16384] · Facts₀.slices_S200x16907_S200x523_0_16384) : (⟨S200x16907, .f32⟩ : BufTy).Contents (Elt F) → (⟨S200x523, .f32⟩ : BufTy).Contents (Elt F))
abbrev opC : HloOp τ sig (Elt F) := StableHlo.nullary main_c (constantI S_ 32 0#32)
abbrev opV : HloOp τ sig (Elt F) := StableHlo.TRef.unary (.of main_c : StableHlo.TRef sig ⟨S_, .i32⟩) main_call0.v0 (sitofp .f32)
abbrev opP : HloOp τ sig (Elt F) :=
  StableHlo.TRef.binary (.of main_v2 : StableHlo.TRef sig ⟨S200x523, .f32⟩) main_call0.v0 main_call0.v1 (fun x v => pad S200x1024 ![0, 0] ![0, 501] ![0, 0] x v Facts₀.pads_S200x523_S200x1024_000_05010 Facts₀.h_S_)
abbrev opI : HloOp τ sig (Elt F) := StableHlo.unary main_v1 main_v4 id
abbrev opU : HloOp τ sig (Elt F) :=
  StableHlo.unary main_v4 main_v5 ((transpose S16906x200 [1, 0] · Facts₀.transposes_S200x16906_S16906x200_1_0) : (⟨S200x16906, .f32⟩ : BufTy).Contents (Elt F) → (⟨S16906x200, .f32⟩ : BufTy).Contents (Elt F))

variable (d : Dev nD)

/-- The launch contents, -/
def V0 : Valuation τ sig (Elt F) := fun b => m (d, b)
/-- after the first transpose, -/
def V1 : Valuation τ sig (Elt F) := (opT (F := F)).result (V0 m d)
/-- The transposed table and the result as the copy kernel finds them. -/
def F0 : Buf (Elt F) (tabLoc d) := Value.f0 (m ((SparseCore.T d).loc main_arg1))
def F1 : Buf (Elt F) (outLoc d) := m (outLoc d)
/-- after the copy kernel's call, -/
def V2 : Valuation τ sig (Elt F) := Function.update (V1 m d) v1' (afterCall d (F0 m d) (F1 m d))
/-- after the slice, the constant, its conversion, the padding and the copy of the result, -/
def V7 : Valuation τ sig (Elt F) :=
  (opI (F := F)).result ((opP (F := F)).result ((opV (F := F)).result ((opC (F := F)).result ((opS (F := F)).result (V2 m d)))))
/-- after the tail call, -/
def V8 : Valuation τ sig (Elt F) := Function.update (V7 m d) v4' (tailWrite (V7 m d v3') (V7 m d v4'))
/-- and after the last transpose. -/
def V9 : Valuation τ sig (Elt F) := (opU (F := F)).result (V8 m d)

/-! ## The TensorCore's buffers as a set at a valuation -/

theorem unscoped_held : (unscopedBufs d (fun b => m ((SparseCore.T d).loc b)) : sProp 𝕄) = held (SparseCore.T d) S10 (V0 m d) := by
  unfold unscopedBufs held
  rw [show (Finset.univ.filter fun b : Ref sig .tc => ¬ b.isScoped)
        = {main_arg0, main_arg1, main_v0, main_v1, main_v2, main_c, main_call0_v0, main_v3, main_v4, main_v5} by decide,
    show (S10 : Finset (DevRef τ sig)) = Finset.map ⟨Proc.devRef .tc, Proc.devRef_injective _⟩
        {main_arg0, main_arg1, main_v0, main_v1, main_v2, main_c, main_call0_v0, main_v3, main_v4, main_v5} by decide,
    bigSep_map]
  rfl

/-- Two of the buffers taken out of the set. -/
theorem held_two {x y : DevRef τ sig} (hx : x ∈ S10) (hy : y ∈ S10) (hxy : x ≠ y) (V : Valuation τ sig (Elt F)) :
    (held (SparseCore.T d) S10 V : sProp 𝕄)
      = iprop(((((d, x) : Loc nD τ sig) ↦{fullShare} V x) ∗ (((d, y) : Loc nD τ sig) ↦{fullShare} V y)) ∗ held (SparseCore.T d) (S10 \ {x, y}) V) := by
  rw [held_sub_split (SparseCore.T d) (T := {x, y}) (by
    intro b hb; rcases Finset.mem_insert.mp hb with rfl | hb
    · exact hx
    · rw [Finset.mem_singleton.mp hb]; exact hy) V]
  unfold held
  rw [SparseCore.bigSep_insert' (by rw [Finset.mem_singleton]; exact hxy), bigSep_singleton]

/-- The others do not see an update of one of the two. -/
theorem held_rest_update {x y : DevRef τ sig} (V : Valuation τ sig (Elt F)) (g : Buf (Elt F) ((d, y) : Loc nD τ sig)) :
    (held (SparseCore.T d) (S10 \ {x, y}) (Function.update V y g) : sProp 𝕄) = held (SparseCore.T d) (S10 \ {x, y}) V :=
  held_congr (SparseCore.T d) fun b hb => Function.update_of_ne (fun e => by
    subst e; exact (Finset.mem_sdiff.mp hb).2 (Finset.mem_insert_of_mem (Finset.mem_singleton_self _))) _ _

theorem V1_v0 : V1 m d v0' = F0 m d := StableHlo.unary_result' _ _ _ (V0 m d)
theorem V1_v1 : V1 m d v1' = F1 m d := StableHlo.unary_result_ne' _ _ _ (V0 m d) (show (main_v1 : Ref sig .tc) ≠ main_v0 by decide)

/-- The region's theorem, as @main's proof uses it: from the padded block and the result held whole, the tail call
    runs to the result overwritten from column 16384 on. -/
def RegionWp : Prop :=
  ∀ (c : Dev nD) (f3 : Buf (Elt F) ((c.tc : Thread nD τ).loc main_v3)) (f4 : Buf (Elt F) ((c.tc : Thread nD τ).loc main_v4)) (W : Waits sig (HIx 1))
    {α : Type} (k : PUnit → Prog (TpuEff nD τ sig (Elt F) (Pipeline.Sig Λ₀ (Fin 1) fun p => (pcfgs (F := F) p).Adm) .tc) α) (Q : α → sProp 𝕄),
    iprop((iprop(boundary (c.tc : Thread nD τ) ∗ ((c.tc : Thread nD τ).loc main_v3 ↦{fullShare} f3) ∗ ((c.tc : Thread nD τ).loc main_v4 ↦{fullShare} tailWrite f3 f4)
              ∗ ∃ W', ⌜∀ p ∈ W', p ∈ W ∨ p.2 = none⌝ ∗ owes (c.tc : Thread nD τ) 0 W')
            -∗ wp frame (wpE (D (F := F)) 𝒱 (c.tc : Thread nD τ) none) Set.univ (k ⟨⟩) Q)
        ∗ boundary (c.tc : Thread nD τ) ∗ ((c.tc : Thread nD τ).loc main_v3 ↦{fullShare} f3) ∗ ((c.tc : Thread nD τ).loc main_v4 ↦{fullShare} f4)
        ∗ owes (c.tc : Thread nD τ) 0 W ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (D (F := F)) 𝒱 (c.tc : Thread nD τ) none) Set.univ (.op (.customCall (Pipeline.entry 0) ()) k) Q

/-- What @main leaves the claim: every array at the last valuation. -/
abbrev FIN : sProp 𝕄 := held (SparseCore.T d) S10 (V9 m d)

/-- The operations' buffers are among @main's ten arrays. -/
theorem hopT : (opT (F := F)).bufs ⊆ S10 := show ({a1', v0'} : Finset (DevRef τ sig)) ⊆ S10 by decide
theorem hopS : (opS (F := F)).bufs ⊆ S10 := show ({v0', v2'} : Finset (DevRef τ sig)) ⊆ S10 by decide
theorem hopC : (opC (F := F)).bufs ⊆ S10 := show ({c'} : Finset (DevRef τ sig)) ⊆ S10 by decide
theorem hopV : (opV (F := F)).bufs ⊆ S10 := show ({c', cv'} : Finset (DevRef τ sig)) ⊆ S10 by decide
theorem hopP : (opP (F := F)).bufs ⊆ S10 := show ({v2', cv', v3'} : Finset (DevRef τ sig)) ⊆ S10 by decide
theorem hopI : (opI (F := F)).bufs ⊆ S10 := show ({v1', v4'} : Finset (DevRef τ sig)) ⊆ S10 by decide
theorem hopU : (opU (F := F)).bufs ⊆ S10 := show ({v4', v5'} : Finset (DevRef τ sig)) ⊆ S10 by decide

end Cert.Kernel.Sc

end
-- ==== Proof.KbMain.lean ====
/-
  @main on the TensorCore, run: each host operation from the ten arrays held at a valuation; the copy kernel's call
  from the table's and the result's columns below 16384, dealt to the tiles and joined again; the tail call from the
  padded block and the result; what is left is every array at the last valuation and the TensorCore owing nothing.
-/
import proofs.«208034_g25555055411476_cont_9to1_456_24_alg».proof.Proof.KbMainDefs

set_option Elab.async false

noncomputable section

namespace Cert.Kernel.Sc

open Cert.Kernel Cert.Kernel.Gen Cert.Kernel.Stripe Cert.Kernel.Tail

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

theorem hv0 : v0' ∈ (S10 : Finset (DevRef τ sig)) := by decide
theorem hv1 : v1' ∈ (S10 : Finset (DevRef τ sig)) := by decide
theorem hv3 : v3' ∈ (S10 : Finset (DevRef τ sig)) := by decide
theorem hv4 : v4' ∈ (S10 : Finset (DevRef τ sig)) := by decide
theorem hv01 : (v0' : DevRef τ sig) ≠ v1' := by decide
theorem hv34 : (v3' : DevRef τ sig) ≠ v4' := by decide

theorem V2_tab (d : Dev nD) : V2 m d v0' = F0 m d := (Function.update_of_ne hv01 _ _).trans (V1_v0 m d)
theorem V2_out (d : Dev nD) : V2 m d v1' = afterCall d (F0 m d) (F1 m d) := Function.update_self _ _ _
theorem V8_v3 (d : Dev nD) : V8 m d v3' = V7 m d v3' := Function.update_of_ne hv34 _ _
theorem V8_v4 (d : Dev nD) : V8 m d v4' = tailWrite (V7 m d v3') (V7 m d v4') := Function.update_self _ _ _

theorem hmain (hreg : RegionWp (F := F)) (κ : GSem nD τ sig → ℕ) (d : Dev nD) :
    iprop((K (F := F)).ctx EH (P (F0 m) (F1 m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscoped_held]
  simp only [main, fn_pad.body, wp_bind, wp_pure]
  iintro ⟨#Hctx, Hst, ⟨Hb, Hheld, -, -⟩, ⟨Hcg, Htk⟩⟩
  -- the table transposed
  iapply (wp_hlo_within 𝒱 (SparseCore.T d) none Set.univ (op := opT) (S := S10) hopT (V := V0 m d)) $$ [Hb Hheld]
  · isplitl [Hb]; · iexact Hb
    iexact Hheld
  iintro ⟨Hb, Hheld⟩
  rw [wp_ret]; imodintro
  -- the copy kernel's call: the two arrays out of the set, dealt, and back
  rw [show (opT (F := F)).result (V0 m d) = V1 m d from rfl]
  ihave H := (Entails.of_eq (held_two (F := F) d hv0 hv1 hv01 (V1 m d))) $$ Hheld
  icases H with ⟨⟨Hv0, Hv1⟩, Hrest⟩
  rw [V1_v0 m d, V1_v1 m d]
  ihave Hsp := (call_split (F := F) d (F0 m) (F1 m)) $$ [Hv0 Hv1]
  · isplitl [Hv0]; · iexact Hv0
    iexact Hv1
  icases Hsp with ⟨Hst0, Hkeep⟩
  iapply ((K (F := F)).wp_run (D (F := F)) 𝒱 (EH := EH) (P := P (F0 m) (F1 m)) κ d 0) $$ [Hst Hst0 Hb Hrest Hkeep Hcg Htk]
  isplitr; · iexact Hctx
  isplitl [Hst]; · iexact Hst
  isplitl [Hst0]; · iexact Hst0
  iintro ⟨Hst, Hdn⟩
  ihave Hj := (call_join (F := F) d (F0 m) (F1 m)) $$ [Hdn Hkeep]
  · isplitl [Hdn]; · iexact Hdn
    iexact Hkeep
  icases Hj with ⟨Hv0, Hv1⟩
  ihave Hheld := (Entails.of_eq (held_two (F := F) d hv0 hv1 hv01 (V2 m d)).symm) $$ [Hv0 Hv1 Hrest]
  · rw [V2_tab m d, V2_out m d]
    isplitl [Hv0 Hv1]
    · isplitl [Hv0]; · iexact Hv0
      iexact Hv1
    · unfold V2; rw [held_rest_update]; iexact Hrest
  -- the tail sliced off the transposed table, the padding value, the padded block, the result copied
  iapply (wp_hlo_within 𝒱 (SparseCore.T d) none Set.univ (op := opS) (S := S10) hopS (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := opC) (S := S10) hopC (V := (opS (F := F)).result (V2 m d))) $$ [Hb Hheld]
  · isplitl [Hb]; · iexact Hb
    iexact Hheld
  iintro ⟨Hb, Hheld⟩
  rw [wp_ret]; imodintro
  iapply (wp_hlo_within 𝒱 (SparseCore.T d) none Set.univ (op := opV) (S := S10) hopV (V := (opC (F := F)).result ((opS (F := F)).result (V2 m d)))) $$ [Hb Hheld]
  · isplitl [Hb]; · iexact Hb
    iexact Hheld
  iintro ⟨Hb, Hheld⟩
  rw [wp_ret]; imodintro
  iapply (wp_hlo_within 𝒱 (SparseCore.T d) none Set.univ (op := opP) (S := S10) hopP (V := (opV (F := F)).result ((opC (F := F)).result ((opS (F := F)).result (V2 m d))))) $$ [Hb Hheld]
  · isplitl [Hb]; · iexact Hb
    iexact Hheld
  iintro ⟨Hb, Hheld⟩
  rw [wp_ret]; imodintro
  imodintro
  iapply (wp_hlo_within 𝒱 (SparseCore.T d) none Set.univ (op := opI) (S := S10) hopI (V := (opP (F := F)).result ((opV (F := F)).result ((opC (F := F)).result ((opS (F := F)).result (V2 m d)))))) $$ [Hb Hheld]
  · isplitl [Hb]; · iexact Hb
    iexact Hheld
  iintro ⟨Hb, Hheld⟩
  rw [wp_ret]; imodintro
  -- the tail call: the block and the result out of the set, the TensorCore owing nothing
  rw [show (opI (F := F)).result ((opP (F := F)).result ((opV (F := F)).result ((opC (F := F)).result ((opS (F := F)).result (V2 m d))))) = V7 m d from rfl]
  ihave H := (Entails.of_eq (held_two (F := F) d hv3 hv4 hv34 (V7 m d))) $$ Hheld
  icases H with ⟨⟨H3, H4⟩, Hrest⟩
  unfold SparseCore.Cfg.tcSt
  icases Hst with ⟨⟨%W, %hW, HO⟩, Htail⟩
  rw [(K (F := F)).Otc_end d (n := (0 : Fin 1).val + 1) (le_refl _)]
  ihave Hlev := (SparseCore.Cfg.ctx_levAts κ) $$ Hctx
  iapply ((K (F := F)).wp_liftProg (D (F := F)) 𝒱 (SparseCore.T d) Set.univ none (.op (.customCall (Pipeline.entry 0) ()) .ret) _)
  iapply (hreg d (V7 m d v3') (V7 m d v4') W Prog.ret _) $$ [Hb H3 H4 HO Hlev Hcg Htk Hrest Htail]
  isplitl [Hrest Htail]
  · iintro ⟨Hb, H3, H4, %W', %hW', HO⟩
    rw [wp_ret]; imodintro
    ihave Hheld := (Entails.of_eq (held_two (F := F) d hv3 hv4 hv34 (V8 m d)).symm) $$ [H3 H4 Hrest]
    · rw [V8_v3 m d, V8_v4 m d]
      isplitl [H3 H4]
      · isplitl [H3]; · iexact H3
        iexact H4
      · unfold V8; rw [held_rest_update]; iexact Hrest
    -- the result transposed back
    iapply (wp_hlo_within 𝒱 (SparseCore.T d) none Set.univ (op := opU) (S := S10) hopU (V := V8 m d)) $$ [Hb Hheld]
    · isplitl [Hb]; · iexact Hb
      iexact Hheld
    iintro ⟨Hb, Hheld⟩
    rw [wp_ret]; imodintro
    imodintro
    isplitl [HO Htail]
    · isplitl [HO]
      · iexists W'; isplitr
        · ipureintro; intro p hp
          rcases hW' p hp with h | h
          · exact hW p h
          · rw [h]; exact Nat.zero_le _
        · iexact HO
      · iexact Htail
    · iexact Hheld
  isplitl [Hb]; · iexact Hb
  isplitl [H3]; · iexact H3
  isplitl [H4]; · iexact H4
  isplitl [HO]; · iexact HO
  isplitl [Hlev]; · iexact Hlev
  isplitl [Hcg]; · iexact Hcg
  iexact Htk

end Cert.Kernel.Sc

end
-- ==== Proof.KbFin.lean ====
/-
  What the program's last state says about memory: after the last transpose the two arguments hold what they held at
  the launch, and the result holds the first 16906 rows of the table.
-/
import proofs.«208034_g25555055411476_cont_9to1_456_24_alg».proof.Proof.KbMainDefs

noncomputable section

namespace Cert.Kernel.Sc

open Cert.Kernel Cert.Kernel.Gen Cert.Kernel.Stripe Cert.Kernel.Tail

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)

variable {F : FTy → Type} [FloatOps F]

local notation "𝕄" => MT nD τ sig (HIx 1) (Elt F) ℕ UU ℕ

variable (m : (ℓ : Loc nD τ sig) → Buf (Elt F) ℓ) (d : Dev nD)

/-! ## The valuations at single buffers -/

/-- An update at one array is not seen at another. -/
theorem upd_ne {x y : Ref sig .tc} (h : x ≠ y) (W : Valuation τ sig (Elt F)) (g : Buf (Elt F) ((d, Proc.devRef .tc y) : Loc nD τ sig)) :
    Function.update W (Proc.devRef .tc y) g (Proc.devRef .tc x) = W (Proc.devRef .tc x) :=
  Function.update_of_ne (StableHlo.devRef_ne_of_ne h) _ _

/-- An array that none of the operations and neither call writes holds its launch contents to the end. -/
theorem V9_of_ne {r : Ref sig .tc} (h0 : r ≠ main_v0) (h1 : r ≠ main_v1) (h2 : r ≠ main_v2) (hc : r ≠ main_c)
    (hcv : r ≠ main_call0_v0) (h3 : r ≠ main_v3) (h4 : r ≠ main_v4) (h5 : r ≠ main_v5) :
    V9 m d (Proc.devRef .tc r) = m (d, Proc.devRef .tc r) := by
  unfold V9
  rw [StableHlo.unary_result_ne' _ _ _ _ h5]
  unfold V8
  rw [upd_ne d h4]
  unfold V7
  rw [StableHlo.unary_result_ne' _ _ _ _ h4, StableHlo.binary_result_ne' _ _ _ _ _ h3, StableHlo.unary_result_ne' _ _ _ _ hcv,
    StableHlo.nullary_result_ne' _ _ _ hc, StableHlo.unary_result_ne' _ _ _ _ h2]
  unfold V2
  rw [upd_ne d h1]
  unfold V1
  rw [StableHlo.unary_result_ne' _ _ _ _ h0]
  rfl

theorem V9_a0 : V9 m d a0' = m ((SparseCore.T d).loc main_arg0) :=
  V9_of_ne m d (by decide) (by decide) (by decide) (by decide) (by decide) (by decide) (by decide) (by decide)

theorem V9_a1 : V9 m d a1' = m ((SparseCore.T d).loc main_arg1) :=
  V9_of_ne m d (by decide) (by decide) (by decide) (by decide) (by decide) (by decide) (by decide) (by decide)

/-- The transposed table is still in its array when the tail is sliced off. -/
theorem V2_v0 : V2 m d v0' = F0 m d := by
  unfold V2
  rw [upd_ne d (show (main_v0 : Ref sig .tc) ≠ main_v1 by decide)]
  exact V1_v0 m d

/-- The result after the copy kernel's call. -/
theorem V2_v1 : V2 m d v1' = afterCall d (F0 m d) (F1 m d) := by
  unfold V2
  exact Function.update_self _ _ _

/-- The padded block is the tail block of the table. -/
theorem V7_v3 : V7 m d v3' = Value.f3 (m ((SparseCore.T d).loc main_arg1)) := by
  unfold V7
  rw [StableHlo.unary_result_ne' _ _ _ _ (show (main_v3 : Ref sig .tc) ≠ main_v4 by decide), StableHlo.binary_result',
    StableHlo.unary_result_ne' _ _ _ _ (show (main_v2 : Ref sig .tc) ≠ main_call0_v0 by decide),
    StableHlo.nullary_result_ne' _ _ _ (show (main_v2 : Ref sig .tc) ≠ main_c by decide),
    StableHlo.unary_result', StableHlo.unary_result', StableHlo.nullary_result', V2_v0]
  rfl

/-- The copy of the result holds the result after the copy kernel's call. -/
theorem V7_v4 : V7 m d v4' = afterCall d (F0 m d) (F1 m d) := by
  unfold V7
  rw [StableHlo.unary_result', StableHlo.binary_result_ne' _ _ _ _ _ (show (main_v1 : Ref sig .tc) ≠ main_v3 by decide),
    StableHlo.unary_result_ne' _ _ _ _ (show (main_v1 : Ref sig .tc) ≠ main_call0_v0 by decide),
    StableHlo.nullary_result_ne' _ _ _ (show (main_v1 : Ref sig .tc) ≠ main_c by decide),
    StableHlo.unary_result_ne' _ _ _ _ (show (main_v1 : Ref sig .tc) ≠ main_v2 by decide), V2_v1]
  exact id_eq _

/-- THE RESULT: the first 16906 rows of the table. -/
theorem V9_v5 : V9 m d v5' = Cert.Spec.rows (m ((SparseCore.T d).loc main_arg1)) := by
  unfold V9
  rw [StableHlo.unary_result']
  unfold V8
  rw [Function.update_self, V7_v3, V7_v4]
  exact Value.final_eq (m ((SparseCore.T d).loc main_arg1)) (afterCall d (F0 m d) (F1 m d))
    (fun y h => afterCall_lt d (F0 m d) (F1 m d) y h)

/-! ## The last state and memory -/

/-- What the claim says of device `d`'s memory. -/
def fq (d : Dev nD) (s' : Phys nD τ sig (Elt F)) : Prop :=
  s'.mem.mem ((SparseCore.T d).loc main_v5) = Cert.Spec.rows (m ((SparseCore.T d).loc main_arg1))
    ∧ s'.mem.mem ((SparseCore.T d).loc main_arg0) = m ((SparseCore.T d).loc main_arg0)
    ∧ s'.mem.mem ((SparseCore.T d).loc main_arg1) = m ((SparseCore.T d).loc main_arg1)

/-- One of the ten arrays out of the set. -/
theorem held_elim {x : DevRef τ sig} (hx : x ∈ S10) (W : Valuation τ sig (Elt F)) :
    (held (SparseCore.T d) S10 W : sProp 𝕄) ⊢ (((d, x) : Loc nD τ sig) ↦{fullShare} W x) := by
  unfold held
  exact bigSep_elim hx

/-- An array held at a valuation holds, in the state's memory, the valuation's contents. -/
theorem agree_at {x : DevRef τ sig} (hx : x ∈ S10) (W : Valuation τ sig (Elt F)) (s' : Phys nD τ sig (Elt F)) :
    iprop(held (SparseCore.T d) S10 W ∗ SI s') ⊢ (⌜s'.mem.mem ((d, x) : Loc nD τ sig) = W x⌝ : sProp 𝕄) := by
  iintro ⟨H, HSI⟩
  ihave Hx := (held_elim d hx W) $$ H
  ihave Hag := (SI_pointsTo_agree (st := s') (ℓ := ((d, x) : Loc nD τ sig)) (I := Finset.univ) (q := fullShare) (f := W x)) $$ [HSI Hx]
  · isplitl [HSI] <;> iassumption
  icases Hag with %h
  ipureintro; exact funext fun i => h i (Finset.mem_univ i)

/-- The arrays held at the last valuation agree with the state's memory. -/
theorem hfin (d : Dev nD) (s' : Phys nD τ sig (Elt F)) : iprop(FIN m d ∗ SI s') ⊢ (⌜fq m d s'⌝ : sProp 𝕄) := by
  unfold FIN
  iintro H
  ihave H1 := (persistent_entails_right (agree_at d (x := v5') (by decide) (V9 m d) s')) $$ H
  icases H1 with ⟨%h5, H⟩
  ihave H2 := (persistent_entails_right (agree_at d (x := a0') (by decide) (V9 m d) s')) $$ H
  icases H2 with ⟨%h0, H⟩
  ihave H3 := (agree_at d (x := a1') (by decide) (V9 m d) s') $$ H
  icases H3 with %h1
  ipureintro
  exact ⟨h5.trans (V9_v5 m d), h0.trans (V9_a0 m d), h1.trans (V9_a1 m d)⟩

/-- What the claim says of the whole memory. -/
def QC : PUnit × MemSt nD τ sig (Elt F) → Prop := fun r => ∀ c : Dev nD,
  r.2.mem ((SparseCore.T c).loc main_v5) = Cert.Spec.rows (m ((SparseCore.T c).loc main_arg1))
    ∧ r.2.mem ((SparseCore.T c).loc main_arg0) = m ((SparseCore.T c).loc main_arg0)
    ∧ r.2.mem ((SparseCore.T c).loc main_arg1) = m ((SparseCore.T c).loc main_arg1)

theorem hQ : ∀ s' : Phys nD τ sig (Elt F), (∀ d, fq m d s') → QC m (⟨⟩, s'.mem) := fun _ h => h

end Cert.Kernel.Sc

end
-- ==== Proof.KbRegion.lean ====
/-
  The TensorCore region of the kernel-side program: the one pipelined call that copies the first 522 columns of
  `main_v3` (200 x 1024) onto columns 16384 .. 16905 of `main_v4` (200 x 16906).

  The pipeline has one grid point and two windows. Window 0 is `main_v3` whole, fetched. Window 1 is the block
  of `main_v4` at block index (0, 16): columns 16384 .. 17407, of which only 16384 .. 16905 lie inside the array,
  so the write-back is cut to those 522 columns. The body loads window 0's staging buffer whole and stores it
  (through a shape cast between equal shapes: the identity) whole into window 1's staging buffer. Hence after the
  region `main_v4 r (16384 + j) = main_v3 r j` for `j < 522`, every other column of `main_v4` is kept, and
  `main_v3` is unchanged (`tailWrite`).

  The proof: the proof data `dat1` (both staging buffers hold `main_v3`'s contents after the body; no invariant,
  nothing owed, full shares); the body obligation from the load and store rules on whole buffers; the final array
  in closed form (one cut block write, an `updateSlice` at offsets (0, 16384)); the region record; and the
  library's region rule.
-/
import proofs.«208034_g25555055411476_cont_9to1_456_24_alg».proof.Proof.Gen.Kernel.Launch
import proofs.«208034_g25555055411476_cont_9to1_456_24_alg».proof.Proof.Gen.Kernel.Points
import proofs.«208034_g25555055411476_cont_9to1_456_24_alg».proof.Proof.Gen.Kernel.Skeleton
import proofs.«208034_g25555055411476_cont_9to1_456_24_alg».proof.Proof.KbTail
import Idealize.ShloMosaic.Lib.Pipeline.Kit
import Idealize.ShloMosaic.Lib.Pipeline.Regions
import Idealize.ShloMosaic.Lib.Pipeline.Value
import Idealize.ShloMosaic.Lib.SparseCore.Cells
import Idealize.ShloMosaic.Lib.ValueIdx
import Idealize.ShloMosaic.Lib.Tactic

noncomputable section

namespace Cert.Kernel.Region

open Cert.Kernel Cert.Kernel.Gen Cert.Kernel.Tail

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type} [FloatOps F]
variable {U : Type} [URA U]

local notation "𝕄" => MT nD τ sig (HIx 1) (Elt F) ℕ U ℕ

/-- The kernel's variants: none. -/
abbrev 𝒱₀ : Variants := Variants.none

/-- The pipelines' prefetched tables: none has one. -/
abbrev adm : (p : Fin 1) → (pcfgs (F := F) p).Adm := fun p => (cfgs p).toPCfg_adm

/-! ## The proof data -/

/-- The pairs the core's waits may have recorded around the region: those recorded before it, and the
    pipeline's own, which are at the index `none`. -/
def recW (W : Waits sig (HIx 1)) : Set (SemLoc sig × HIx 1) := {p | p ∈ W ∨ p.2 = none}

/-- The proof data of the one pipeline on core `c`: the arrays at their entry contents `f3`, `f4`; after the body
    both staging buffers hold `f3` (the body stores what it loaded); no invariant; nothing owed; full shares. -/
def dat1 (f3 : S200x1024.Idx → Elt F .f32) (f4 : S200x16906.Idx → Elt F .f32) (W : Waits sig (HIx 1)) (c : Dev nD) :
    Dat τ (Elt F) (HIx 1) ℕ U ℕ cfg1 c where
  A w := match w with
    | ⟨0, _⟩ => f3
    | ⟨1, _⟩ => f4
  after w _ := match w with
    | ⟨0, _⟩ => f3
    | ⟨1, _⟩ => f3
  Φ _ := iprop(emp)
  q _ := fullShare
  owed _ := 0
  recorded _ := recW W

/-! ## What the body finds in the staging buffers -/

/-- Window 0's block at the one point is the whole of `main_v3`: an element of the block sits in the array at its
    own coordinates (the block index is (0, 0)). -/
theorem emb_blk0 (t : Fin cfg1.N) (x : (win1_0.xblock (grid1.coords t)).Idx) (a : Fin 2) :
    (((win1_0.blk t).view.emb x) a : Nat) = (x a : Nat) := by
  refine (win1_0.rect_emb_val t x a).trans ?_
  match a with
  | ⟨0, _⟩ => show 0 * 200 + (x 0 : Nat) = (x 0 : Nat); omega
  | ⟨1, _⟩ => show 0 * 1024 + (x 1 : Nat) = (x 1 : Nat); omega

/-- Window 0's staging buffer, just fetched, holds `f3`: all of it, the window is not cut. -/
theorem before_0 (f3 : S200x1024.Idx → Elt F .f32) (f4 : S200x16906.Idx → Elt F .f32) (W : Waits sig (HIx 1)) (c : Dev nD)
    (t : Fin cfg1.N) (d) : (dat1 (U := U) f3 f4 W c).before (0 : Fin 2) t d = f3 := by
  unfold Dat.before; rw [if_pos (fetch1_0 t)]
  funext j
  unfold Dat.fetched Window.fill
  split
  · unfold Dat.blockOf
    rw [View.read_apply]
    show f3 _ = f3 j
    refine congrArg f3 (funext fun a => Fin.ext ?_)
    exact emb_blk0 t _ a
  · next h => exact absurd rfl h

/-- Window 1's buffer is an output's: at the one point, the first, it holds what nothing names. -/
theorem before_1 (f3 : S200x1024.Idx → Elt F .f32) (f4 : S200x16906.Idx → Elt F .f32) (W : Waits sig (HIx 1)) (c : Dev nD)
    (t : Fin cfg1.N) (d) : (dat1 (U := U) f3 f4 W c).before (1 : Fin 2) t d = d := by
  obtain rfl := fin_N1 t
  unfold Dat.before
  rw [if_neg (by decide)]
  exact if_pos rfl

/-! ## The kernel body's obligation -/

/-- The kernel body on the staging buffers: it loads window 0's whole, loads window 1's (unused), and stores the first
    load, cast between equal shapes, whole into window 1's. Window 1's buffer ends holding what window 0's holds,
    which is unchanged. -/
theorem sound_body (c : Dev nD) (E : Set ℕ) (i : grid1.Coords) (s0 : Fin 1) (s1 : Fin 1)
    (X0 X1 : S200x1024.Idx → Elt F .f32) (K : PUnit → sProp 𝕄) :
    iprop((owns (c : Thread nD τ) (stage1_0 s0) fullShare X0 ∗ owns (c : Thread nD τ) (stage1_1 s1) fullShare X1)
          ∗ (iprop(owns (c : Thread nD τ) (stage1_0 s0) fullShare X0 ∗ owns (c : Thread nD τ) (stage1_1 s1) fullShare X0) -∗ K ⟨⟩))
      ⊢ wp frame (wpE (defs₀ (F := F)) 𝒱₀ c none) E
          (cc1__tc_tail_body i (Memref.whole main_v1) (Memref.isWhole_whole _) (stage1_0 s0) (hstage1_0 s0) (stage1_1 s1) (hstage1_1 s1)) K := by
  have hz : (![0, 0] : Fin 2 → Nat) = fun _ => 0 := funext fun a => by fin_cases a <;> rfl
  fin_cases s0; fin_cases s1
  have hr0 : (Memref.whole cc1_stg0_0 : Memref sig .tc _ _ _).view.readAt (Elt F) (Rect.unit (s := S200x1024) ![0, 0] S200x1024.size
      inb_S200x1024_S200x1024_0_0).toLoadRect = id := funext (Memref.readAt_unit_zero (Elt F) cc1_stg0_0 hz _)
  have hw1 : ∀ f w, (((Memref.whole cc1_stg1_0).access (Rect.unit (s := S200x1024) ![0, 0] S200x1024.size inb_S200x1024_S200x1024_0_0)) :
      View sig .tc _ _ _).write (Elt F) f w Finset.univ = w := Memref.write_access_unit_zero_univ (Elt F) cc1_stg1_0 hz _
  simp only [owns_whole, cc1__tc_tail_body_eq_skeleton]; unfold cc1__tc_tail_body_skel
  simp only [Prog.lift, Prog.bind_op, Prog.bind_ret]
  iintro ⟨⟨H0, H1⟩, Hk⟩
  sl_steps
  iapply Hk
  rw [hr0, hw1]
  have hp : k1_pay1 (id X0) = X0 := by unfold k1_pay1; exact shapeCast_self _ _
  rw [hp]
  isplitl [H0]
  · iexact H0
  · iexact H1

/-- The library's body obligation, from `sound_body` at the point's staging buffers: window 0's buffer arrives
    holding `f3` (`before_0`), window 1's holding anything (`before_1`); both leave holding `f3`, which is what the
    proof data names after the body — for window 1, whose write-back is cut, on the part the transfer moves, which
    is all its obligation asks. -/
theorem body_obligation (f3 : S200x1024.Idx → Elt F .f32) (f4 : S200x16906.Idx → Elt F .f32) (W : Waits sig (HIx 1)) (c : Dev nD) :
    BodyObligationLoose (dat1 (U := U) f3 f4 W c) (defs₀ (F := F)) 𝒱₀ (none : HIx 1) Set.univ := fun t => by
  rw [bigSep_W1, bigSep_W1]
  simp only
  rw [show (dat1 (U := U) f3 f4 W c).Φ t.succ = (dat1 (U := U) f3 f4 W c).Φ t.castSucc from rfl,
    show (dat1 (U := U) f3 f4 W c).owesAt none t.succ = (dat1 (U := U) f3 f4 W c).owesAt none t.castSucc from rfl]
  iintro ⟨HΦ, Ho, ⟨%d0, H0⟩, ⟨%d1, H1⟩⟩
  rw [before_0 f3 f4 W c t d0, before_1 f3 f4 W c t d1]
  iapply (sound_body (F := F) (U := U) c Set.univ (grid1.coords t) (cfg1.slots t 0) (cfg1.slots t 1) f3 d1 _)
  isplitl [H0 H1]
  · isplitl [H0]
    · iexact H0
    · iexact H1
  iintro ⟨H0, H1⟩
  isplitl [HΦ]; · iexact HΦ
  isplitl [Ho]; · iexact Ho
  isplitl [H0]
  · iexact H0
  · iexists f3
    dsimp only [dat1]
    rw [Window.fill_cut]
    iexact H1

/-! ## The arrays after the region, in closed form -/

/-- `main_v3` is the kernel's input: it ends holding what it held. -/
theorem arrAt_0 (f3 : S200x1024.Idx → Elt F .f32) (f4 : S200x16906.Idx → Elt F .f32) (W : Waits sig (HIx 1)) (c : Dev nD) (n : Nat) :
    (dat1 (U := U) f3 f4 W c).arrAt (0 : Fin 2) n = f3 :=
  (dat1 (U := U) f3 f4 W c).arrAt_in (0 : Fin 2) rfl n

/-- `main_v4` after the one write-back: its entry contents overwritten, through the block at (0, 16) cut at the
    array's end, by the moved part of what the body left in the staging buffer. -/
theorem arrAt_1 (f3 : S200x1024.Idx → Elt F .f32) (f4 : S200x16906.Idx → Elt F .f32) (W : Waits sig (HIx 1)) (c : Dev nD) :
    (dat1 (U := U) f3 f4 W c).arrAt (1 : Fin 2) cfg1.N
      = (win1_1.blk t1_0).view.write (Elt F) f4 (win1_1.cut (grid1.coords t1_0) f3) Finset.univ := by
  rw [show cfg1.N = t1_0.val + 1 from rfl, (dat1 (U := U) f3 f4 W c).arrAt_succ (1 : Fin 2) t1_0, if_pos (flush1_1 _)]
  rfl

/-- An update of a 200 x 16906 array through the rectangle at offsets (0, 16384) of sizes (200, 522), by the
    leading 200 x 522 part of a 200 x 1024 block, is `tailWrite`. The offsets and sizes are variables equated to their
    values, so that no step compares a numeral with a sum. -/
theorem updateSlice_tail {α : Type} (off size : Fin 2 → Nat) (inb : ∀ a, off a + size a ≤ S200x16906.size a)
    (ho0 : off 0 = 0) (ho1 : off 1 = 16384) (hs0 : size 0 = 200) (hs1 : size 1 = 522)
    (f3 : S200x1024.Idx → α) (f4 : S200x16906.Idx → α)
    (emb : (⟨2, size⟩ : Shape).Idx → S200x1024.Idx) (hemb : ∀ x (a : Fin 2), ((emb x) a).val = (x a).val) :
    updateSlice (s := S200x16906) (u := ⟨2, size⟩) f4 (fun x => f3 (emb x)) off ⟨rfl, inb⟩ = tailWrite f3 f4 := by
  funext y
  have h0 := ValueIdx.idx2_lt0 y
  have h1 := ValueIdx.idx2_lt1 y
  unfold updateSlice
  by_cases h : 16384 ≤ (y 1).val
  · rw [tailWrite_ge f3 f4 y h, dif_pos]
    · refine congrArg f3 (funext fun a => Fin.ext ?_)
      rw [hemb]
      match a with
      | ⟨0, _⟩ => show (y 0).val - off 0 = (y 0).val; rw [ho0]; omega
      | ⟨1, _⟩ => show (y 1).val - off 1 = (y 1).val - 16384; rw [ho1]
    · intro a
      match a with
      | ⟨0, _⟩ => show off 0 ≤ (y 0).val ∧ (y 0).val < off 0 + size 0; rw [ho0, hs0]; omega
      | ⟨1, _⟩ => show off 1 ≤ (y 1).val ∧ (y 1).val < off 1 + size 1; rw [ho1, hs1]; omega
  · rw [tailWrite_lt f3 f4 y (by omega), dif_neg]
    intro hin
    have h2 : off 1 ≤ (y 1).val := (hin 1).1
    rw [ho1] at h2
    exact h h2

/-- That write is `tailWrite`: the block's part inside the array is rows 0 .. 199, columns 16384 .. 16905, and its
    element (r, j) takes the staging buffer's element (r, j). -/
theorem write_tail (f3 : S200x1024.Idx → Elt F .f32) (f4 : S200x16906.Idx → Elt F .f32) :
    (win1_1.blk t1_0).view.write (Elt F) f4 (win1_1.cut (grid1.coords t1_0) f3) Finset.univ = tailWrite f3 f4 := by
  -- the block's offsets in the array and the sizes of its part inside the array
  have o0 : win1_1.index t1_0 0 * win1_1.size 0 = 0 := by decide
  have o1 : win1_1.index t1_0 1 * win1_1.size 1 = 16384 := by decide
  have s0 : win1_1.xsize (grid1.coords t1_0) 0 = 200 := by decide
  have s1 : win1_1.xsize (grid1.coords t1_0) 1 = 522 := by decide
  refine (View.write_whole_slice_unit (Val := Elt F) main_v4 _ _ _ f4 _).trans ?_
  exact updateSlice_tail (fun a => win1_1.index t1_0 a * win1_1.size a) (win1_1.xsize (grid1.coords t1_0))
    (fun a => Pipeline.Clip.inb (win1_1.hclip (grid1.coords t1_0) a)) o0 o1 s0 s1 f3 f4
    (win1_1.xinj (grid1.coords t1_0)) (fun _ _ => rfl)

/-- `main_v4` after the region. -/
theorem arrAt_1_eq (f3 : S200x1024.Idx → Elt F .f32) (f4 : S200x16906.Idx → Elt F .f32) (W : Waits sig (HIx 1)) (c : Dev nD) :
    (dat1 (U := U) f3 f4 W c).arrAt (1 : Fin 2) cfg1.N = tailWrite f3 f4 :=
  (arrAt_1 f3 f4 W c).trans (write_tail f3 f4)

/-! ## The region record -/

/-- The proof data of every pipeline of the program: the one. -/
def pdats (f3 : S200x1024.Idx → Elt F .f32) (f4 : S200x16906.Idx → Elt F .f32) (W : Waits sig (HIx 1)) :
    (p : Fin 1) → (c : Dev nD) → Dat τ (Elt F) (HIx 1) ℕ U ℕ (Pipeline.pin (pcfgs (F := F)) adm p) c
  | ⟨0, _⟩ => fun c => dat1 f3 f4 W c

/-- A buffer of core `c` held whole at the full share. -/
abbrev pl (c : Dev nD) (b : Ref sig .tc) (f : b.ty.Contents (Elt F)) : sProp 𝕄 := ((c : Thread nD τ).loc b) ↦{fullShare} f

/-- The region's two arrays at contents `Fa` are `main_v3` and `main_v4` held. -/
theorem arrays_eq (f3 : S200x1024.Idx → Elt F .f32) (f4 : S200x16906.Idx → Elt F .f32) (W : Waits sig (HIx 1)) (c : Dev nD) (Fa) :
    ((pdats (U := U) f3 f4 W 0 c).arrays Fa : sProp 𝕄) = iprop(pl c main_v3 (Fa 0) ∗ pl c main_v4 (Fa 1)) := by
  rw [Pipeline.arrays_eq (Pipeline.pin (pcfgs (F := F)) adm) (pdats (U := U) f3 f4 W) 0 c launch1.arr_whole
    ((pdats (U := U) f3 f4 W 0 c).share_full fun _ => rfl) Fa, bigSep_W1]

variable (EP : Emb (URounds (GSem nD τ sig) Unit) (MT nD τ sig (HIx 1) (Elt F) ℕ U ℕ))
  [EP.LandsIn (upEmb : UEmb _ (MT nD τ sig (HIx 1) (Elt F) ℕ U ℕ))]
variable (L : GSem nD τ sig → Finset (HIx 1)) (lv : GSem nD τ sig → HIx 1 → ℕ)

/-- THE REGION: `main_v3`, `main_v4` and what the core owes (nothing) go in; `main_v3` unchanged, `main_v4` with its
    tail columns written and the core still owing nothing come out, its recorded pairs those it had and the
    pipeline's own. -/
def reg (f3 : S200x1024.Idx → Elt F .f32) (f4 : S200x16906.Idx → Elt F .f32) (W : Waits sig (HIx 1)) :
    Pipeline.RegionSeg (pcfgs (F := F)) adm (pdats (U := U) f3 f4 W) (none : HIx 1) defs₀ 𝒱₀ L lv 0 where
  win := launch1.win.to₀
  block_pos := launch1.block_pos
  stage_whole := launch1.stage_whole
  K := PEmpty
  osem k := k.elim
  ho := Pipeline.OwnSemFacts.none _
  hbody c := body_obligation f3 f4 W c
  hwaits c := Pipeline.hwaits_of_owed_zero (pcfgs (F := F)) adm (pdats (U := U) f3 f4 W) none L lv 0 (fun _ _ => rfl) c
  pre c := iprop(pl c main_v3 f3 ∗ pl c main_v4 f4 ∗ owes (c : Thread nD τ) 0 W)
  post c := iprop(pl c main_v3 f3 ∗ pl c main_v4 (tailWrite f3 f4)
    ∗ ∃ W', ⌜∀ p ∈ W', p ∈ W ∨ p.2 = none⌝ ∗ owes (c : Thread nD τ) 0 W')
  X _ := iprop(emp)
  Y _ := iprop(emp)
  Z _ := iprop(emp)
  hentry c := by
    rw [Pipeline.ownSems0_none, arrays_eq]
    iintro ⟨⟨H3, H4, HO⟩, -, -⟩
    imodintro
    isplitl [H3 H4]
    · isplitl [H3]
      · iexact H3
      · iexact H4
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (Or.inl hp)
      iexact HO
    isplitr <;> iempintro
  hin c := by iintro -; iempintro
  hout c := by
    rw [Pipeline.ownSems0_none, scopedRest1_eq]
    iintro -; isplitr; · iempintro
    isplitr <;> iempintro
  hexit c := by
    rw [arrays_eq]
    rw [show (pdats (U := U) f3 f4 W 0 c).arrAt 0 (Pipeline.pin (pcfgs (F := F)) adm 0).N = f3 from arrAt_0 f3 f4 W c _,
      show (pdats (U := U) f3 f4 W 0 c).arrAt 1 (Pipeline.pin (pcfgs (F := F)) adm 0).N = tailWrite f3 f4 from arrAt_1_eq f3 f4 W c]
    iintro ⟨⟨H3, H4⟩, HO, -, -⟩
    imodintro
    isplitl [H3]; · iexact H3
    isplitl [H4]; · iexact H4
    unfold Pipeline.Dat.owesAt Pipeline.owesWithin
    icases HO with ⟨%W', %hW', HO⟩
    iexists W'; isplitr
    · ipureintro
      intro p hp
      rcases hW' hp with h | ⟨w, s, rfl⟩
      · exact h
      · exact Or.inr rfl
    iexact HO

/-! ## The region's rule -/

/-- The TensorCore call on core `c`: from the region boundary, `main_v3` at `f3`, `main_v4` at `f4`, the core owing
    nothing with recorded pairs `W`, the level facts and the pipeline's ghost state, the call runs to the boundary,
    `main_v3` at `f3`, `main_v4` at `tailWrite f3 f4`, the core owing nothing, its recorded pairs among `W` and the
    pairs at the index `none`. -/
theorem region_wp (c : Dev nD)
    (f3 : Buf (Elt F) ((c.tc : Thread nD τ).loc main_v3)) (f4 : Buf (Elt F) ((c.tc : Thread nD τ).loc main_v4)) (W : Waits sig (HIx 1))
    {α : Type} (k : PUnit → Prog (TpuEff nD τ sig (Elt F) (Pipeline.Sig Λ₀ (Fin 1) fun p => (pcfgs (F := F) p).Adm) .tc) α) (Q : α → sProp 𝕄) :
    iprop((iprop(boundary (c.tc : Thread nD τ) ∗ ((c.tc : Thread nD τ).loc main_v3 ↦{fullShare} f3) ∗ ((c.tc : Thread nD τ).loc main_v4 ↦{fullShare} tailWrite f3 f4)
                ∗ ∃ W', ⌜∀ p ∈ W', p ∈ W ∨ p.2 = none⌝ ∗ owes (c.tc : Thread nD τ) 0 W')
              -∗ wp frame (wpE (Pipeline.defs (pcfgs (F := F)) defs₀) (Variants.lift 𝒱₀) (c.tc : Thread nD τ) none) Set.univ (k ⟨⟩) Q)
          ∗ boundary (c.tc : Thread nD τ) ∗ ((c.tc : Thread nD τ).loc main_v3 ↦{fullShare} f3) ∗ ((c.tc : Thread nD τ).loc main_v4 ↦{fullShare} f4)
          ∗ owes (c.tc : Thread nD τ) 0 W ∗ levAts L lv
          ∗ Pipeline.cellsGhost (Pipeline.pin (pcfgs (F := F)) adm) EP 0 c ∗ Pipeline.toksInit (Pipeline.pin (pcfgs (F := F)) adm) EP 0 c)
        ⊢ wp frame (wpE (Pipeline.defs (pcfgs (F := F)) defs₀) (Variants.lift 𝒱₀) (c.tc : Thread nD τ) none) Set.univ
            (.op (.customCall (Pipeline.entry 0) ()) k) Q := by
  have h := Pipeline.RegionSeg.wp (pcfgs (F := F)) adm (pdats (U := U) f3 f4 W) (none : HIx 1) cellOf_inj EP defs₀ 𝒱₀ L lv
    (reg L lv f3 f4 W) c none (fun _ hu => by cases hu) k Q
  have hpre : (reg (U := U) L lv f3 f4 W).pre c = iprop(pl c main_v3 f3 ∗ pl c main_v4 f4 ∗ owes (c : Thread nD τ) 0 W) := rfl
  rw [hpre] at h
  iintro ⟨Hk, Hb, H3, H4, HO, HL, HG, HT⟩
  iapply h
  isplitl [Hk]; · iexact Hk
  isplitl [Hb]; · iexact Hb
  isplitl [H3 H4 HO]
  · isplitl [H3]; · iexact H3
    isplitl [H4]; · iexact H4
    iexact HO
  isplitl [HL]; · iexact HL
  isplitl [HG]; · iexact HG
  iexact HT

end Cert.Kernel.Region

end
-- ==== Proof.KbRun.lean ====
/-
  The program's run: every weakly fair execution of @main, the sequencers and the thirty-two tiles terminates,
  nothing faulting, the last array holding the table's first 16906 rows and the two arguments what they held.
-/
import proofs.«208034_g25555055411476_cont_9to1_456_24_alg».proof.Proof.KbMain
import proofs.«208034_g25555055411476_cont_9to1_456_24_alg».proof.Proof.KbFin
import proofs.«208034_g25555055411476_cont_9to1_456_24_alg».proof.Proof.KbRegion

set_option Elab.async false

noncomputable section

namespace Cert.Kernel.Sc

open Cert.Kernel Cert.Kernel.Gen Cert.Kernel.Stripe Cert.Kernel.Tail

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

/-- The tail call's theorem at this program's ghost state and levels. -/
theorem hreg : RegionWp (F := F) :=
  fun c f3 f4 W _ k Q => Cert.Kernel.Region.region_wp (F := F) EP (K (F := F)).L (K (F := F)).lev c f3 f4 W k Q

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (F0 m) (F1 m)) facts v₀
    (fun q hq => match q with | 0 => nomatch hq)
    (fun q _ => match q with | 0 => tileObl (F0 m) (F1 m) facts)
    (fun q _ => match q with | 0 => SparseCore.Cfg.VecSplit.of_plain (vecSplit (F0 m) (F1 m)))
    m ρ main (fun d => G (F := F) d) (FIN m) (u₀ (F := F)) (sep_elim_left.trans (hu₀ (F0 m) (F1 m))) (hmain m ρ hreg) (fq m) (hfin m) (QC m) (hQ m)

end Cert.Kernel.Sc

end
-- ==== Proof.LibGather.lean ====
/-
  The host's gather of ROWS read at an index.

  `x[idx]` of a matrix `x : [N, D]` at an integer vector of row numbers lowers to a gather whose slices are whole rows:
  the row axis collapsed, the column axis an offset axis, the row numbers carried as a last axis of extent one. Result
  element `(e, k)` is `x` at row `idx[e, 0]`, read signed and clamped into `[0, N - 1]`, and column `k`. When the row
  number is in range the clamp does nothing. Every element of any gather is an element of its operand.
-/
import Idealize.ShloMosaic.PureOps.Ideal
import Idealize.ShloMosaic.Lib.ValueIdx

noncomputable section

namespace Cert.LibGather

open Idealize.ShloMosaic Idealize.ShloMosaic.ValueIdx

/-- Every element of a gather is an element of its operand. -/
theorem gather_mem {α : Type} {s si t : Shape} {w : Nat} (d : GatherDims s si t) (x : s.Idx → α) (idx : IVec si w)
    (j : t.Idx) : ∃ i, Host.gather d x idx j = x i := ⟨d.operandIdx j idx, rfl⟩

section Rows
variable {α : Type} {N D E w : Nat}

/-- The dimension numbers of a gather of rows of `[N, D]` at start indices `[E, 1]`, result `[E, D]`; their conditions are
    decided on a program's literal shapes. -/
abbrev rowsDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

variable (wf : GatherDims.WF ⟨2, ![N, D]⟩ ⟨2, ![E, 1]⟩ ⟨2, ![E, D]⟩ [1] [0] [] [0] [] 1 ![1, D])

/-- THE GATHER OF ROWS READ AT `(e, k)`: the operand at the row `idx[e, 0]`, read signed and clamped into `[0, N - 1]`,
    and column `k`. -/
theorem gather_rows_apply (hN : 0 < N) (x : (⟨2, ![N, D]⟩ : Shape).Idx → α) (idx : IVec ⟨2, ![E, 1]⟩ w)
    (e : Fin E) (k : Fin D) :
    Host.gather (rowsDims N D E wf) x idx (ix2 e k) =
      x (ix2 ⟨min (idx (ix2 e 0)).toInt.toNat (N - 1), by omega⟩ k) := by
  unfold Host.gather
  congr 1
  funext a
  refine Fin.ext ?_
  match a with
  | ⟨0, _⟩ =>
    show (rowsDims N D E wf).start (ix2 e k) idx 0 + (rowsDims N D E wf).batchCoord (ix2 e k) 0
      + (rowsDims N D E wf).offCoord (ix2 e k) 0 = _
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos (show (0 : Fin 2) ∈ (rowsDims N D E wf).startIndexMap from List.mem_cons_self)]
    have hsi : (rowsDims N D E wf).siIdx (ix2 e k) ⟨List.idxOf (0 : Fin 2) (rowsDims N D E wf).startIndexMap,
        List.idxOf_lt_length_iff.2 List.mem_cons_self⟩ = ix2 e 0 := by
      funext b; refine Fin.ext ?_
      match b with
      | ⟨0, _⟩ => rfl
      | ⟨1, _⟩ => rfl
    rw [hsi]
    rfl
  | ⟨1, _⟩ =>
    show (rowsDims N D E wf).start (ix2 e k) idx 1 + (rowsDims N D E wf).batchCoord (ix2 e k) 1
      + (rowsDims N D E wf).offCoord (ix2 e k) 1 = k.val
    rw [GatherDims.batchCoord_eq_zero _ _ _ List.not_mem_nil]
    have hs : (rowsDims N D E wf).start (ix2 e k) idx 1 = 0 := by
      unfold GatherDims.start
      rw [dif_neg]
      intro h
      have h' : (1 : Fin 2) ∈ ([0] : List (Fin 2)) := h
      simp at h'
    have ho : (rowsDims N D E wf).offCoord (ix2 e k) 1 = k.val := by
      unfold GatherDims.offCoord
      have h1 : (1 : Fin 2) ∈ (rowsDims N D E wf).sKept :=
        (by decide : (1 : Fin 2) ∈ (List.finRange 2).filter (fun x => x ∉ (([0] : List (Fin 2)) ++ ([] : List (Fin 2)))))
      rw [dif_pos h1]
      rfl
    rw [hs, ho]; omega

/-- With the row number in range the gather reads that row. -/
theorem gather_rows_apply_of_eq (x : (⟨2, ![N, D]⟩ : Shape).Idx → α) (idx : IVec ⟨2, ![E, 1]⟩ w)
    (e : Fin E) (k : Fin D) (r : Fin N) (h : (idx (ix2 e 0)).toInt = (r.val : Int)) :
    Host.gather (rowsDims N D E wf) x idx (ix2 e k) = x (ix2 r k) := by
  have hN : 0 < N := Nat.lt_of_le_of_lt (Nat.zero_le _) r.isLt
  rw [gather_rows_apply wf hN]
  have hr : (⟨min (idx (ix2 e 0)).toInt.toNat (N - 1), by omega⟩ : Fin N) = r := by
    refine Fin.ext ?_
    show min (idx (ix2 e 0)).toInt.toNat (N - 1) = r.val
    rw [h]
    have := r.isLt
    omega
  rw [hr]

end Rows

end Cert.LibGather

end
-- ==== Proof.LibBcast.lean ====
/-
  The host's broadcast-in-dimensions of small shapes read at an index: a vector made a column or a row, a column or
  a row spread over an array, and a scalar spread over any shape.
-/
import Idealize.ShloMosaic.Lib.Pipeline.Value
import Idealize.ShloMosaic.Lib.ValueIdx

noncomputable section

namespace Cert.LibBcast

open Idealize.ShloMosaic Idealize.ShloMosaic.ValueIdx

variable {α : Type}

/-- A vector `[a]` placed on axis 0 of `[a, 1]` reads, at `(p, u)`, the value at `p`. -/
theorem a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector `[b]` placed on axis 1 of `[1, b]` reads, at `(u, q)`, the value at `q`. -/
theorem b_1b_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A column `[a, 1]` spread over `[a, b]` reads, at `(p, q)`, the column's entry of row `p`. -/
theorem a1_ab_apply {a b : ℕ} (x : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A row `[1, b]` spread over `[a, b]` reads, at `(p, q)`, the row's entry of column `q`. -/
theorem r1b_ab_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

/-- A scalar spread over any shape reads the scalar everywhere. -/
theorem scalar_apply {t : Shape} (x : (⟨0, ![]⟩ : Shape).Idx → α) (h : (⟨0, ![]⟩ : Shape).BroadcastsInDim t ![])
    (j : t.Idx) : broadcastInDim t ![] h x j = x ix0 :=
  broadcastInDim_apply _ h x j ix0 fun ax => ax.elim0

end Cert.LibBcast

end
-- ==== Proof.RefValue.lean ====
/-
  The reference's result as one term of the table, and that term read at an index.

  The row numbers are 0 … 16905: none is negative, so the wrap of negative row numbers is not taken; each lies in
  [0, 16906], so the in-range mask is all ones; the gather's clamp into [0, 16906] leaves each where it is. Entry (i, j)
  of the result is therefore entry (i, j) of the table.
-/
import proofs.«208034_g25555055411476_cont_9to1_456_24_alg».proof.ReferenceIdeal
import proofs.«208034_g25555055411476_cont_9to1_456_24_alg».proof.Proof.Spec
import proofs.«208034_g25555055411476_cont_9to1_456_24_alg».proof.Proof.LibGather
import proofs.«208034_g25555055411476_cont_9to1_456_24_alg».proof.Proof.LibBcast
import Idealize.ShloMosaic.Lib.IdealHost
import Idealize.ShloMosaic.Lib.WordArith
import Idealize.ShloMosaic.Lib.Affine

noncomputable section

namespace Cert.Proof.Ref

open Cert.ReferenceIdeal Cert.ReferenceIdeal.Facts₀ Idealize.ShloMosaic Idealize.ShloMosaic.ValueIdx

variable {F : FTy → Type} [FloatOps F] [Cert.ReferenceIdeal.Facts]

/-! ## The composed term -/

/-- The row numbers after the wrap of the negative ones: `i` if `0 ≤ i`, else `i + 16907`. -/
def rowNo : IVec S16906 32 :=
  select (cmpi .slt (iotaInDim S16906 32 0) (broadcastInDim S16906 ![] bcast_S_S16906 (constantI S_ 32 0#32)))
    (addi (iotaInDim S16906 32 0) (broadcastInDim S16906 ![] bcast_S_S16906 (constantI S_ 32 16907#32)))
    (iotaInDim S16906 32 0)

/-- The row numbers as a column. -/
def rowCol : IVec S16906x1 32 := broadcastInDim S16906x1 ![0] bcast_S16906_S16906x1_0 rowNo

/-- The in-range test of each row number, `0 ≤ r` and `r ≤ 16906`, as a column. -/
def inRange : IVec S16906x1 1 :=
  andi (cmpi .sge rowCol (broadcastInDim S16906x1 ![] bcast_S_S16906x1 (constantI S_ 32 0#32)))
    (cmpi .sle rowCol (broadcastInDim S16906x1 ![0, 1] bcast_S1x1_S16906x1_0_1
      (broadcastInDim S1x1 ![1] bcast_S1_S1x1_1 (constantI S1 32 16906#32))))

/-- The mask: the in-range test reduced by `and` along the column's one entry. -/
def mask : IVec S16906 1 :=
  Host.reduce IntOp.andi inRange (constantI S_ 1 1#1) reducesTo_S16906x1_S16906_d1 h_S_

/-- The reference's result as a term of the table: the gathered rows where the mask holds, the fill value elsewhere. -/
def out (tab : FVec F S16907x200 .f32) : FVec F S16906x200 .f32 :=
  select (broadcastInDim S16906x200 ![0] bcast_S16906_S16906x200_0 mask)
    (Host.gather gather_S16907x200_S16906x1_S16906x200_1_0_n_n_0_1_1200 tab rowCol)
    (broadcastInDim S16906x200 ![] bcast_S_S16906x200 (constant S_ .f32 0x7FC00000#32))

/-! ## Small facts -/

/-- A vector `[a]` placed on axis 0 of `[a, b]` reads, at `(p, q)`, the value at `p`. -/
theorem bcast_a_ab_apply {α : Type} {a b : ℕ} (x : (⟨1, ![a]⟩ : Shape).Idx → α)
    (h : (⟨1, ![a]⟩ : Shape).BroadcastsInDim ⟨2, ![a, b]⟩ ![0]) (p : Fin a) (q : Fin b) :
    broadcastInDim ⟨2, ![a, b]⟩ ![0] h x (ix2 p q) = x (ix1 p) := by
  refine broadcastInDim_apply _ h x (ix2 p q) (ix1 p) fun ax => ?_
  match ax with
  | ⟨0, _⟩ =>
    show p.val = if a = 1 then 0 else p.val
    split
    · have := p.isLt; omega
    · rfl

/-- Every index of a rank-2 shape is a pair of coordinates below its two extents. -/
theorem exists_ix2 {n0 n1 : ℕ} (y : (⟨2, ![n0, n1]⟩ : Shape).Idx) : ∃ (p : Fin n0) (q : Fin n1), y = ix2 p q :=
  ⟨y 0, y 1, eq_ix2 y⟩

/-- A reduction by `and` from the word one of an array of ones is one. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  generalize ((List.finRange s.numel).map s.rowMajor.symm).filter (fun i => h.drop i = j) = l
  induction l with
  | nil => rfl
  | cons a l ih =>
    rw [List.foldl_cons, hx a]
    exact ih

/-- A row number below 16906, as a 32-bit word read signed, is itself. -/
theorem toInt_row (p : Fin 16906) : (BitVec.ofNat 32 p.val).toInt = (p.val : Int) :=
  WordArith.toInt_ofNat_small p.val (by have := p.isLt; omega)

/-! ## The term at an index -/

/-- No row number is negative: the wrap is not taken. -/
theorem rowNo_apply (p : Fin 16906) : rowNo (ix1 p) = BitVec.ofNat 32 p.val := by
  unfold rowNo
  rw [select_apply]
  have hc : cmpi .slt (iotaInDim S16906 32 0) (broadcastInDim S16906 ![] bcast_S_S16906 (constantI S_ 32 0#32)) (ix1 p) = 0#1 := by
    refine eq_zero_of_ne_one fun h1 => ?_
    have h2 : IntOp.cmpi .slt (BitVec.ofNat 32 p.val) (0#32) = 1#1 := h1
    rw [IntOp.cmpi_slt, toInt_row] at h2
    have h0 : (0#32 : BitVec 32).toInt = 0 := by decide
    omega
  rw [hc, select_zero]
  rfl

theorem rowCol_apply (p : Fin 16906) (u : Fin 1) : rowCol (ix2 p u) = BitVec.ofNat 32 p.val := by
  unfold rowCol
  exact (Cert.LibBcast.a_a1_apply rowNo bcast_S16906_S16906x1_0 p u).trans (rowNo_apply p)

/-- Every row number is in range. -/
theorem inRange_apply (y : S16906x1.Idx) : inRange y = 1#1 := by
  obtain ⟨p, u, rfl⟩ := exists_ix2 y
  unfold inRange
  show IntOp.andi (IntOp.cmpi .sge (rowCol (ix2 p u)) _) (IntOp.cmpi .sle (rowCol (ix2 p u)) _) = 1#1
  rw [rowCol_apply, IntOp.andi_eq_one]
  constructor
  · rw [Cert.LibBcast.scalar_apply, IntOp.cmpi_sge, toInt_row]
    show (0#32 : BitVec 32).toInt ≤ _
    have h0 : (0#32 : BitVec 32).toInt = 0 := by decide
    omega
  · rw [Cert.LibBcast.r1b_ab_apply, Cert.LibBcast.b_1b_apply, IntOp.cmpi_sle, toInt_row]
    show _ ≤ (16906#32 : BitVec 32).toInt
    have h0 : (16906#32 : BitVec 32).toInt = 16906 := by decide
    have := p.isLt
    omega

theorem mask_apply (p : Fin 16906) : mask (ix1 p) = 1#1 :=
  reduce_andi_ones inRange (constantI S_ 1 1#1) reducesTo_S16906x1_S16906_d1 h_S_ inRange_apply rfl (ix1 p)

/-- The gather reads row `i` of the table. -/
theorem gather_apply {α : Type} (tab : S16907x200.Idx → α) (i : Fin 16906) (j : Fin 200) :
    Host.gather gather_S16907x200_S16906x1_S16906x200_1_0_n_n_0_1_1200 tab rowCol (ix2 i j) = tab (Cert.Spec.rowIdx i j) :=
  Cert.LibGather.gather_rows_apply_of_eq (N := 16907) (D := 200) (E := 16906)
    gather_S16907x200_S16906x1_S16906x200_1_0_n_n_0_1_1200_wf tab rowCol i j ⟨i.val, by omega⟩
    (by rw [rowCol_apply]; exact toInt_row i)

/-- THE REFERENCE'S RESULT AT `(i, j)`: the table's entry `(i, j)`. -/
theorem out_apply (tab : FVec F S16907x200 .f32) (i : Fin 16906) (j : Fin 200) :
    out tab (ix2 i j) = tab (Cert.Spec.rowIdx i j) := by
  unfold out
  rw [select_apply, bcast_a_ab_apply, mask_apply, select_one]
  exact gather_apply tab i j

/-- The reference's result is the first 16906 rows of the table. -/
theorem out_eq_rows (tab : FVec F S16907x200 .f32) : out tab = Cert.Spec.rows tab := by
  funext y
  obtain ⟨i, j, rfl⟩ := exists_ix2 y
  rw [Cert.Spec.rows_ix2]
  exact out_apply tab i j

end Cert.Proof.Ref

end
-- ==== Proof.RefRun.lean ====
/-
  The reference program's run: its host operations in order, the outlined functions' bodies written at their call
  sites over the call's own buffers, and what every buffer holds once they have run.
-/
import proofs.«208034_g25555055411476_cont_9to1_456_24_alg».proof.ReferenceIdeal
import proofs.«208034_g25555055411476_cont_9to1_456_24_alg».proof.Proof.Spec
import proofs.«208034_g25555055411476_cont_9to1_456_24_alg».proof.Proof.RefValue
import Idealize.ShloMosaic.Lib.StableHlo.Run

noncomputable section

namespace Cert.Proof.Ref

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- The program's 24 operations, in order: the row numbers 0 … 16905, then the body of the row lookup (the wrap of
    negative row numbers with its select, the row numbers as a column, the in-range mask and its reduction along the
    column's one entry, the gather of rows, the mask spread over the rows, the fill value, the final select). -/
abbrev ops : List (HloOp τ sig (Elt F)) :=
  [ nullary main_v0 (iotaInDim S16906 32 0),
    TRef.nullary main_call0.c (constantI S_ 32 0#32),
    TRef.unary main_call0.c main_call0.v0 (broadcastInDim S16906 ![] bcast_S_S16906),
    TRef.binary (.of main_v0) main_call0.v0 main_call0.v1 (cmpi .slt),
    TRef.nullary main_call0.c_0 (constantI S_ 32 16907#32),
    TRef.unary main_call0.c_0 main_call0.v2 (broadcastInDim S16906 ![] bcast_S_S16906),
    TRef.binary (.of main_v0) main_call0.v2 main_call0.v3 addi,
    TRef.ternary main_call0.v1 main_call0.v3 (.of main_v0) main_call0.call0.v0 select,
    TRef.unary main_call0.call0.v0 main_call0.v5 (broadcastInDim S16906x1 ![0] bcast_S16906_S16906x1_0),
    TRef.nullary main_call0.c_1 (constantI S1 32 16906#32),
    TRef.nullary main_call0.c_2 (constantI S_ 32 0#32),
    TRef.unary main_call0.c_2 main_call0.v6 (broadcastInDim S16906x1 ![] bcast_S_S16906x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16906x1 ![0, 1] bcast_S1x1_S16906x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16906x1_S16906_d1 h_S_),
    TRef.binary (.of main_arg1) main_call0.v5 main_call0.v13 (fun x i => Host.gather gather_S16907x200_S16906x1_S16906x200_1_0_n_n_0_1_1200 x i),
    TRef.unary main_call0.v12 main_call0.v14 (broadcastInDim S16906x200 ![0] bcast_S16906_S16906x200_0),
    TRef.nullary main_call0.cst (constant S_ .f32 0x7FC00000#32),
    TRef.unary main_call0.cst main_call0.v15 (broadcastInDim S16906x200 ![] bcast_S_S16906x200),
    TRef.ternary main_call0.v14 main_call0.v13 main_call0.v15 main_call0.v16 select ]

set_option maxRecDepth 1024 in
/-- The program is that straight line: the two functions' definitions unfolded at their calls, both sides are one
    chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

/-- From any memory with zero counters every weakly fair execution of the program terminates, and every buffer of
    every device ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather in
set_option maxRecDepth 8192 in
/-- The fold at the result buffer is the composed term of the table: the fold unrolled, each operation's result read
    at its own buffer, the typed references' casts the identity at these literal references. The reduction and the
    gather stay folded meanwhile: the equation never looks inside them. -/
theorem out_eq (V : Valuation τ sig (Elt F)) :
    after ops V (main_v1 : DevRef τ sig) = out (F := F) (V (main_arg1 : DevRef τ sig)) := by
  after_results
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

end Cert.Proof.Ref

namespace Cert.Proof.Ref

open Idealize.ShloMosaic Idealize.SL.Sem

/-- THE REFERENCE'S RUN: from any memory with zero counters every weakly fair execution terminates, the result array
    is the first 16906 rows of the table as launched, and the two arguments end unchanged. -/
theorem run [Cert.ReferenceIdeal.Facts]
    (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v1)
            = Cert.Spec.rows (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun _ h c => ⟨((h c Cert.ReferenceIdeal.main_v1).trans (out_eq _)).trans (out_eq_rows _),
      (h c Cert.ReferenceIdeal.main_arg0).trans (arg0_eq _),
      (h c Cert.ReferenceIdeal.main_arg1).trans (arg1_eq _)⟩)
    (run_main (F := Ideal) m g)

end Cert.Proof.Ref

end
-- ==== Proof.lean ====
/-
  The certificate. The kernel-side program transposes the table, has thirty-two SparseCore tiles copy the
  transposed table's columns below 16384 into the result stripe by stripe, has one TensorCore call write the
  remaining columns from a padded slice, and transposes back; the reference takes the table's rows at the
  indices 0 … 16905. Both end with the table's first 16906 rows: entry (i, j) of the result is entry (i, j) of
  the table (Proof/Spec.lean). Pure data movement: no float is computed, so nothing is asked of the inputs, and
  the word-level program runs by the same argument as its reading over the extended reals.
  Each frame is its program's run with the result dropped; the idealization rewrote nothing.
-/
import proofs.«208034_g25555055411476_cont_9to1_456_24_alg».proof.Defs
import proofs.«208034_g25555055411476_cont_9to1_456_24_alg».proof.Proof.Gen.Kernel
import proofs.«208034_g25555055411476_cont_9to1_456_24_alg».proof.Proof.Gen.KernelIdeal
import proofs.«208034_g25555055411476_cont_9to1_456_24_alg».proof.Proof.Gen.ReferenceIdeal
import proofs.«208034_g25555055411476_cont_9to1_456_24_alg».proof.Proof.Gen.Pre_input_domain
import proofs.«208034_g25555055411476_cont_9to1_456_24_alg».proof.Proof.KiRun
import proofs.«208034_g25555055411476_cont_9to1_456_24_alg».proof.Proof.KbRun
import proofs.«208034_g25555055411476_cont_9to1_456_24_alg».proof.Proof.RefRun

set_option Elab.async false

noncomputable section

namespace Cert.Proof

open Idealize.ShloMosaic Idealize.SL.Sem

theorem frame_k : Cert.frame_Kernel (hKernel := Cert.Kernel.Gen.facts) (hPre_input_domain := Cert.Pre_input_domain.Gen.facts) := fun m ρ _ =>
  (θ_run Cert.Kernel.defs _ _).mono (fun _ h c => ⟨(h c).2.1, (h c).2.2⟩) (Cert.Kernel.Sc.run_main (F := Bits) m ρ)

theorem frame_ki : Cert.frame_KernelIdeal (hKernelIdeal := Cert.KernelIdeal.Gen.facts) (hPre_input_domain := Cert.Pre_input_domain.Gen.facts) := fun m ρ _ =>
  (θ_run Cert.KernelIdeal.defs _ _).mono (fun _ h c => ⟨(h c).2.1, (h c).2.2⟩) (Cert.KernelIdeal.Sc.run_main (F := Ideal) m ρ)

theorem frame_r : Cert.frame_ReferenceIdeal (hReferenceIdeal := Cert.ReferenceIdeal.Gen.facts) (hPre_input_domain := Cert.Pre_input_domain.Gen.facts) := fun m ρ _ =>
  (θ_run Cert.ReferenceIdeal.defs _ _).mono (fun _ h c => ⟨(h c).2.1, (h c).2.2⟩) (@Cert.Proof.Ref.run Cert.ReferenceIdeal.Gen.facts m ρ)

/-- Both programs end with the table's first 16906 rows, the reference's table being the kernel's. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m ρ m' ρ' _ hagree
  refine ⟨fun c => Cert.Spec.rows (m ((c.tc : Thread Cert.KernelIdeal.nD Cert.KernelIdeal.τ).loc Cert.KernelIdeal.main_arg1)), ?_, ?_⟩
  · exact (θ_run Cert.KernelIdeal.defs _ _).mono (fun _ h c => h c) (Cert.KernelIdeal.Sc.run_main (F := Ideal) m ρ)
  · refine (θ_run Cert.ReferenceIdeal.defs _ _).mono (fun _ h c => ⟨(h c).1.trans ?_, (h c).2⟩)
      (@Cert.Proof.Ref.run Cert.ReferenceIdeal.Gen.facts m' ρ')
    rw [(hagree c).2]

theorem claim : Cert.Claim :=
  ⟨Cert.Kernel.Gen.facts, Cert.KernelIdeal.Gen.facts, Cert.ReferenceIdeal.Gen.facts, Cert.Pre_input_domain.Gen.facts,
    frame_k, frame_ki, frame_r, trivial, algebraic⟩

end Cert.Proof

end
